-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S256 .f32) (main_arg15 : FVec F S256 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_v63 main_v67

def fn_part2 {F : FTy → Type} [FloatOps F] (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S32x256 .f32 := Host.absf main_arg9
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x256 .f32 := Host.absf main_arg11
  let main_cst_18 : FVec F S_ .f32 := constant S_ .f32 0x7F800000#32
  let main_v50 : FVec F S32x256 .f32 := broadcastInDim S32x256 ![] bcast_S_S32x256 main_cst_18
  fn_part3 (F := F) main_arg12 main_arg13 main_arg14 main_arg15 main_v48 main_v49 main_v50

def fn_part1 {F : FTy → Type} [FloatOps F] (main_arg5 : FVec F S128x64 .f32) (main_arg6 : FVec F S256x128 .f32) (main_arg7 : FVec F S256 .f32) (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : FVec F S128x64 .f32) (main_arg4 : FVec F S128 .f32) (main_arg5 : FVec F S128x64 .f32) (main_arg6 : FVec F S256x128 .f32) (main_arg7 : FVec F S256 .f32) (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x256 : Shape := ⟨2, ![2000, 256]⟩
abbrev S256x32 : Shape := ⟨2, ![256, 32]⟩
abbrev S1x32 : Shape := ⟨2, ![1, 32]⟩
abbrev S50000x32 : Shape := ⟨2, ![50000, 32]⟩
abbrev S2000x32 : Shape := ⟨2, ![2000, 32]⟩
abbrev S800000x32 : Shape := ⟨2, ![800000, 32]⟩

abbrev nBuf : Space → Nat
  | .hbm => 109
  | .vmem => 47
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S32x256, .f32⟩
  | .hbm, ⟨10, _⟩ => ⟨S32, .f32⟩
  | .hbm, ⟨11, _⟩ => ⟨S32x256, .f32⟩
  | .hbm, ⟨12, _⟩ => ⟨S128, .f32⟩
  | .hbm, ⟨13, _⟩ => ⟨S128, .f32⟩
  | .hbm, ⟨14, _⟩ => ⟨S256, .f32⟩
  | .hbm, ⟨15, _⟩ => ⟨S256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S64x128, .f32⟩
  | .hbm, ⟨37, _⟩ => ⟨S64x128, .f32⟩
  | .hbm, ⟨38, _⟩ => ⟨S1x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .bf16⟩
  | .hbm, ⟨62, _⟩ => ⟨S800000x128, .f32⟩
  | .hbm, ⟨63, _⟩ => ⟨S800000x1, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S128x256, .f32⟩
  | .hbm, ⟨71, _⟩ => ⟨S128x256, .f32⟩
  | .hbm, ⟨72, _⟩ => ⟨S1x256, .f32⟩
  | .hbm, ⟨73, _⟩ => ⟨S50000x256, .f32⟩
  | .hbm, ⟨74, _⟩ => ⟨S1x256, .f32⟩
  | .hbm, ⟨75, _⟩ => ⟨S1x256, .f32⟩
  | .hbm, ⟨76, _⟩ => ⟨S_, .f32⟩
  | .hbm, ⟨77, _⟩ => ⟨S1x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S50000x256, .bf16⟩
  | .hbm, ⟨87, _⟩ => ⟨S256x32, .f32⟩
  | .hbm, ⟨88, _⟩ => ⟨S256x32, .f32⟩
  | .hbm, ⟨89, _⟩ => ⟨S1x32, .f32⟩
  | .hbm, ⟨90, _⟩ => ⟨S50000x32, .f32⟩
  | .hbm, ⟨91, _⟩ => ⟨S50000x32, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x32, .f32⟩
  | .hbm, ⟨101, _⟩ => ⟨S800000x1, .f32⟩
  | .hbm, ⟨102, _⟩ => ⟨S800000x32, .f32⟩
  | .hbm, ⟨103, _⟩ => ⟨S800000x32, .f32⟩
  | .hbm, ⟨104, _⟩ => ⟨S_, .f32⟩
  | .hbm, ⟨105, _⟩ => ⟨S50000x32, .f32⟩
  | .hbm, ⟨106, _⟩ => ⟨S800000x1, .i32⟩
  | .hbm, ⟨107, _⟩ => ⟨S50000x32, .f32⟩
  | .hbm, ⟨108, _⟩ => ⟨S50000x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S128x256, .f32⟩
  | .local _ .vmem, ⟨24, _⟩ => ⟨S128x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .bf16⟩
  | .local _ .vmem, ⟨37, _⟩ => ⟨S2000x256, .bf16⟩
  | .local _ .vmem, ⟨38, _⟩ => ⟨S2000x256, .bf16⟩
  | .local _ .vmem, ⟨39, _⟩ => ⟨S2000x256, .bf16⟩
  | .local _ .vmem, ⟨40, _⟩ => ⟨S256x32, .f32⟩
  | .local _ .vmem, ⟨41, _⟩ => ⟨S256x32, .f32⟩
  | .local _ .vmem, ⟨42, _⟩ => ⟨S1x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v47_2 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60_0 : Ref sig .tc := ⟨.hbm, 90, rfl⟩
abbrev main_v60_1 : Ref sig .tc := ⟨.hbm, 91, rfl⟩
abbrev main_c_8 : Ref sig .tc := ⟨.hbm, 92, rfl⟩
abbrev main_v61 : Ref sig .tc := ⟨.hbm, 93, rfl⟩
abbrev main_v62 : Ref sig .tc := ⟨.hbm, 94, rfl⟩
abbrev main_c_9 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S128x64_S64x128_1_0 : S128x64.Transposes [1, 0] S64x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  shapeCasts_S2000x256_S2000x256 : S2000x256.ShapeCasts S2000x256
  packedbf16_S2000x256_S2000x256_0_0 : (Rect.unit (s := S2000x256) ![0, 0] S2000x256.size inb_S2000x256_S2000x256_0_0).PackedRows (EltTy.packing .bf16)
  transposes_S32x256_S256x32_1_0 : S32x256.Transposes [1, 0] S256x32
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S2000x32_S2000x32_0_0 : ∀ a, (![0, 0] : Fin 2 → Nat) a + S2000x32.size a ≤ S2000x32.size a
  h_S2000x32 : 0 < S2000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x32_S2000x32_1_0_0_1_n_n_wf : DotDims.WF S2000x256 S256x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .bf16 = 32 ∨ (Rect.block (s := S50000x256) S2000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x32.size a ≤ S256x32.size a
  hwx4_1 : ∀ i : grid4.Coords, EltTy.bits .f32 = 32 ∨ (Rect.block (s := S256x32) S256x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x32.size a ≤ S256x32.size a
  hwx4_2 : ∀ i : grid4.Coords, EltTy.bits .f32 = 32 ∨ (Rect.block (s := S256x32) S256x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x32.size a ≤ S50000x32.size a
  hwx4_4 : ∀ i : grid4.Coords, EltTy.bits .f32 = 32 ∨ (Rect.block (s := S50000x32) S2000x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x32.size a ≤ S50000x32.size a
  hwx4_5 : ∀ i : grid4.Coords, EltTy.bits .f32 = 32 ∨ (Rect.block (s := S50000x32) S2000x32.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v16) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v56) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S256x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S256x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60_0) S2000x32.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v60_1) S2000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x32 : Shape := ⟨2, ![256, 32]⟩
abbrev S50000x32 : Shape := ⟨2, ![50000, 32]⟩
abbrev S1x32 : Shape := ⟨2, ![1, 32]⟩

abbrev nBuf : Space → Nat
  | .hbm => 154
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S128x64, .f32⟩
  | 4 => ⟨S128, .f32⟩
  | 5 => ⟨S128x64, .f32⟩
  | 6 => ⟨S256x128, .f32⟩
  | 7 => ⟨S256, .f32⟩
  | 8 => ⟨S256x128, .f32⟩
  | 9 => ⟨S32x256, .f32⟩
  | 10 => ⟨S32, .f32⟩
  | 11 => ⟨S32x256, .f32⟩
  | 12 => ⟨S128, .f32⟩
  | 13 => ⟨S128, .f32⟩
  | 14 => ⟨S256, .f32⟩
  | 15 => ⟨S256, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x1, .f32⟩
  | 30 => ⟨S800000x64, .f32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S64x128, .f32⟩
  | 37 => ⟨S50000x128, .f32⟩
  | 38 => ⟨S1x128, .f32⟩
  | 39 => ⟨S50000x128, .f32⟩
  | 40 => ⟨S50000x128, .f32⟩
  | 41 => ⟨S64x128, .f32⟩
  | 42 => ⟨S50000x128, .f32⟩
  | 43 => ⟨S50000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S128x256, .f32⟩
  | 92 => ⟨S50000x256, .f32⟩
  | 93 => ⟨S1x256, .f32⟩
  | 94 => ⟨S50000x256, .f32⟩
  | 95 => ⟨S50000x256, .f32⟩
  | 96 => ⟨S128x256, .f32⟩
  | 97 => ⟨S50000x256, .f32⟩
  | 98 => ⟨S50000x256, .f32⟩
  | 99 => ⟨S_, .f32⟩
  | 100 => ⟨S256, .f32⟩
  | 101 => ⟨S_, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S50000x256, .f32⟩
  | 108 => ⟨S_, .f32⟩
  | 109 => ⟨S256, .f32⟩
  | 110 => ⟨S_, .f32⟩
  | 111 => ⟨S256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S256, .f32⟩
  | 118 => ⟨S256, .f32⟩
  | 119 => ⟨S256, .f32⟩
  | 120 => ⟨S1x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S1x256, .f32⟩
  | 127 => ⟨S50000x256, .f32⟩
  | _ => ⟨S50000x64, .f32⟩

abbrev hbmTy0_1 (i : Nat) : BufTy := match i % 128 with
  | 0 => ⟨S50000x256, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S800000x1, .f32⟩
  | 12 => ⟨S800000x256, .f32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S256x32, .f32⟩
  | 19 => ⟨S50000x32, .f32⟩
  | 20 => ⟨S1x32, .f32⟩
  | 21 => ⟨S50000x32, .f32⟩
  | 22 => ⟨S50000x32, .f32⟩
  | 23 => ⟨S256x32, .f32⟩
  | 24 => ⟨S50000x32, .f32⟩
  | 25 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_6 : Ref sig .tc := ⟨.hbm, 75, rfl⟩
abbrev main_v51 : Ref sig .tc := ⟨.hbm, 76, rfl⟩
abbrev main_v52 : Ref sig .tc := ⟨.hbm, 77, rfl⟩
abbrev main_c_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_14 : Ref sig .tc := ⟨.hbm, 130, rfl⟩
abbrev main_v98 : Ref sig .tc := ⟨.hbm, 131, rfl⟩
abbrev main_v99 : Ref sig .tc := ⟨.hbm, 132, rfl⟩
abbrev main_c_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_16 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S32x256_S256x32_1_0 : S32x256.Transposes [1, 0] S256x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x32_S50000x32_1_0_0_1_n_n_wf : DotDims.WF S50000x256 S256x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf

class Facts : Prop extends Facts₀ where

variable [Facts]
-- ==== Proof.Spec.lean ====
/-
  The mathematics of the three graph-convolution layers, as functions of the argument arrays over the
  extended reals, entry by entry.

  An edge `e` carries a weight `w e`, reads the table row `row e` (its source word, read signed and
  clamped into the node range) and adds into the node its destination word names. A layer is
  `lin (agg X) X`: the aggregated table through one weight matrix, plus the bias, plus the table itself
  through a second matrix. Between layers every column is normalised by its mean and variance over the
  50000 nodes and passed through tanh.

  Two spellings are stated side by side where the two programs differ:
  * the variance of a column, as the mean of the squared deviations (`var`) or as the mean of the squares
    minus the square of the mean (`var'`);
  * the last layer, aggregating the 256-wide table and then applying the matrix (`out`), or applying the
    matrix first and aggregating the 32-wide result (`out'`).
-/
import Idealize.ShloMosaic.PureOps.Ideal
import Idealize.ShloMosaic.Lib.ValueIdx

noncomputable section

open scoped BigOperators

namespace Cert.Spec

open Idealize.ShloMosaic Idealize.ShloMosaic.ValueIdx

/-- An extended real that is a real number. -/
def Fin' (v : EReal) : Prop := ∃ r : ℝ, v = (r : EReal)

/-- The number of nodes, 50000.0, as both programs spell it. -/
abbrev cN : EReal := Ideal.ofBits .f32 0x47435000#32
/-- The offset added to a variance before the reciprocal square root, as both programs spell it. -/
abbrev cEps : EReal := Ideal.ofBits .f32 0x3727C5AC#32

/-- A rank-2 array given by its entries. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- An array is `arr2 f` as soon as it is `f` entry by entry. -/
theorem eq_arr2 {a b : Nat} (g : (⟨2, ![a, b]⟩ : Shape).Idx → EReal) (f : Fin a → Fin b → EReal)
    (h : ∀ p q, g (ix2 p q) = f p q) : g = arr2 f := by
  funext i; rw [eq_ix2 i]; exact h _ _

section Layers

variable (scol dcol : IVec (⟨2, ![800000, 1]⟩ : Shape) 32) (w : Fin 800000 → EReal)

/-- The table row edge `e` reads: its source word, read signed, clamped into `[0, 49999]`. -/
def row (e : Fin 800000) : Fin 50000 :=
  ⟨min (scol (ix2 e (0 : Fin 1))).toInt.toNat (50000 - 1), by omega⟩

/-- Aggregation: node `n` receives, from every edge whose destination word read signed is `n`, the
    table row that edge reads, scaled by the edge's weight. -/
def agg {C : Nat} (X : Fin 50000 → Fin C → EReal) (n : Fin 50000) (k : Fin C) : EReal :=
  ∑ e : Fin 800000, if (dcol (ix2 e (0 : Fin 1))).toInt = (n.val : ℤ) then X (row scol e) k * w e else 0

/-- One layer before normalisation: `A · Wrelᵀ + b + X · Wrootᵀ`. -/
def lin {Ci Co : Nat} (A X : Fin 50000 → Fin Ci → EReal) (Wrel Wroot : Fin Co → Fin Ci → EReal)
    (b : Fin Co → EReal) (n : Fin 50000) (j : Fin Co) : EReal :=
  ((∑ k : Fin Ci, A n k * Wrel j k) + b j) + ∑ k : Fin Ci, X n k * Wroot j k

/-- The mean of column `j` over the nodes. -/
def mean {C : Nat} (H : Fin 50000 → Fin C → EReal) (j : Fin C) : EReal :=
  Ideal.div (∑ n : Fin 50000, H n j) cN

/-- The variance of column `j`: the mean of the squared deviations from the mean. -/
def var {C : Nat} (H : Fin 50000 → Fin C → EReal) (j : Fin C) : EReal :=
  Ideal.div (∑ n : Fin 50000, (H n j - mean H j) * (H n j - mean H j)) cN

/-- The variance of column `j`: the mean of the squares minus the square of the mean. -/
def var' {C : Nat} (H : Fin 50000 → Fin C → EReal) (j : Fin C) : EReal :=
  Ideal.div (∑ n : Fin 50000, H n j * H n j) cN - mean H j * mean H j

/-- Normalisation of an entry by its column's mean `mu` and variance `v`, scale, shift, tanh. -/
def bn {C : Nat} (H : Fin 50000 → Fin C → EReal) (mu v g be : Fin C → EReal) (n : Fin 50000) (j : Fin C) : EReal :=
  Ideal.tanh (((H n j - mu j) * Ideal.rsqrt (v j + cEps)) * g j + be j)

/-- The last layer, aggregating first. -/
def out {Ci Co : Nat} (a : Fin 50000 → Fin Ci → EReal) (Wrel Wroot : Fin Co → Fin Ci → EReal)
    (b : Fin Co → EReal) : Fin 50000 → Fin Co → EReal :=
  lin (agg scol dcol w a) a Wrel Wroot b

/-- The last layer, applying the matrix first: the aggregate of `a · Wrelᵀ`, plus `a · Wrootᵀ + b`. -/
def out' {Ci Co : Nat} (a : Fin 50000 → Fin Ci → EReal) (Wrel Wroot : Fin Co → Fin Ci → EReal)
    (b : Fin Co → EReal) (n : Fin 50000) (j : Fin Co) : EReal :=
  agg scol dcol w (fun n' j' => ∑ k : Fin Ci, a n' k * Wrel j' k) n j + ((∑ k : Fin Ci, a n k * Wroot j k) + b j)

variable (x : Fin 50000 → Fin 64 → EReal)
  (W1rel W1root : Fin 128 → Fin 64 → EReal) (b1 g1 be1 : Fin 128 → EReal)
  (W2rel W2root : Fin 256 → Fin 128 → EReal) (b2 g2 be2 : Fin 256 → EReal)
  (W3rel W3root : Fin 32 → Fin 256 → EReal) (b3 : Fin 32 → EReal)

/-- Layer 1 before normalisation. -/
def h1 : Fin 50000 → Fin 128 → EReal := lin (agg scol dcol w x) x W1rel W1root b1
/-- Layer 1 normalised, variance as the mean of squared deviations. -/
def a1 : Fin 50000 → Fin 128 → EReal :=
  bn (h1 scol dcol w x W1rel W1root b1) (mean (h1 scol dcol w x W1rel W1root b1)) (var (h1 scol dcol w x W1rel W1root b1)) g1 be1
/-- Layer 1 normalised, variance as the mean of squares minus the squared mean. -/
def a1' : Fin 50000 → Fin 128 → EReal :=
  bn (h1 scol dcol w x W1rel W1root b1) (mean (h1 scol dcol w x W1rel W1root b1)) (var' (h1 scol dcol w x W1rel W1root b1)) g1 be1

/-- Layer 2 before normalisation, from a layer-1 output `a`. -/
def h2 (a : Fin 50000 → Fin 128 → EReal) : Fin 50000 → Fin 256 → EReal := lin (agg scol dcol w a) a W2rel W2root b2
def a2 (a : Fin 50000 → Fin 128 → EReal) : Fin 50000 → Fin 256 → EReal :=
  bn (h2 scol dcol w W2rel W2root b2 a) (mean (h2 scol dcol w W2rel W2root b2 a)) (var (h2 scol dcol w W2rel W2root b2 a)) g2 be2
def a2' (a : Fin 50000 → Fin 128 → EReal) : Fin 50000 → Fin 256 → EReal :=
  bn (h2 scol dcol w W2rel W2root b2 a) (mean (h2 scol dcol w W2rel W2root b2 a)) (var' (h2 scol dcol w W2rel W2root b2 a)) g2 be2

/-- The reference's result. -/
def refOut : Fin 50000 → Fin 32 → EReal :=
  out scol dcol w
    (a2 scol dcol w W2rel W2root b2 g2 be2 (a1 scol dcol w x W1rel W1root b1 g1 be1))
    W3rel W3root b3

/-- The kernel's result. -/
def kerOut : Fin 50000 → Fin 32 → EReal :=
  out' scol dcol w
    (a2' scol dcol w W2rel W2root b2 g2 be2 (a1' scol dcol w x W1rel W1root b1 g1 be1))
    W3rel W3root b3

end Layers

end Cert.Spec

end
-- ==== Proof.Algebra.lean ====
/-
  The two spellings of the three layers give the same entries as soon as the float arguments that enter
  a sum of products are real numbers.

  Three facts carry it.
  * A finite sum of products of reals is real, so every layer before normalisation is a table of reals;
    tanh of any extended real is real, so every normalised layer is a table of reals too.
  * On a column of reals the mean of the squares minus the squared mean is the mean of the squared
    deviations: with S the sum of the column, Q the sum of its squares, N the number of entries and
    mu = S / N, the squared deviations sum to Q - 2 mu S + N mu^2 = Q - S^2 / N.
  * On tables of reals a matrix product commutes with the weighted aggregation over the edges:
    both are finite sums, and the double sum may be taken in either order.
-/
import proofs.«129947_j42545946034237_2_alg».proof.Proof.Spec

noncomputable section

open scoped BigOperators

namespace Cert.Spec

open Idealize.ShloMosaic Idealize.ShloMosaic.ValueIdx

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem fin_zero : Fin' 0 := ⟨0, EReal.coe_zero.symm⟩

theorem fin_add {a b : EReal} (ha : Fin' a) (hb : Fin' b) : Fin' (a + b) := by
  obtain ⟨r, rfl⟩ := ha; obtain ⟨s, rfl⟩ := hb; exact ⟨r + s, (EReal.coe_add r s).symm⟩

theorem fin_mul {a b : EReal} (ha : Fin' a) (hb : Fin' b) : Fin' (a * b) := by
  obtain ⟨r, rfl⟩ := ha; obtain ⟨s, rfl⟩ := hb; exact ⟨r * s, (EReal.coe_mul r s).symm⟩

theorem fin_sum {ι : Type*} (s : Finset ι) (f : ι → EReal) (h : ∀ i, Fin' (f i)) : Fin' (∑ i ∈ s, f i) := by
  choose r hr using h
  exact ⟨∑ i ∈ s, r i, by rw [coe_sum]; exact Finset.sum_congr rfl (fun i _ => hr i)⟩

/-- tanh takes the two infinities to -1 and 1, and a real to a real. -/
theorem fin_tanh (v : EReal) : Fin' (Ideal.tanh v) := by
  induction v using EReal.rec
  · exact ⟨-1, by simp⟩
  · exact ⟨Real.tanh _, rfl⟩
  · exact ⟨1, by simp⟩

/-- The pattern of the node count denotes the real 50000: exponent 15, significand 12800000 / 2^23. -/
theorem cN_eq : cN = ((50000 : ℝ) : EReal) := by
  simp [cN, Ideal.ofBits, Ideal.ieee, -EReal.coe_mul]; norm_num

/-! ### The variance of a column of reals -/

/-- The squared deviations from any `μ` sum to Q - 2 μ S + N μ². -/
theorem real_sq_dev {ι : Type*} [Fintype ι] (r : ι → ℝ) (μ : ℝ) :
    ∑ i, (r i - μ) * (r i - μ)
      = (∑ i, r i * r i) - 2 * μ * (∑ i, r i) + (Fintype.card ι : ℝ) * (μ * μ) := by
  have h : ∀ i, (r i - μ) * (r i - μ) = r i * r i - 2 * μ * r i + μ * μ := fun i => by ring
  simp_rw [h]
  rw [Finset.sum_add_distrib, Finset.sum_sub_distrib, ← Finset.mul_sum, Finset.sum_const,
    Finset.card_univ, nsmul_eq_mul]

/-- On a column of reals the two spellings of the variance agree. -/
theorem var'_eq_var {C : Nat} (H : Fin 50000 → Fin C → EReal) (j : Fin C) (hH : ∀ n, Fin' (H n j)) :
    var' H j = var H j := by
  choose r hr using hH
  have hN : (50000 : ℝ) ≠ 0 := by norm_num
  have hmean : mean H j = (((∑ n, r n) * (1 / 50000) : ℝ) : EReal) := by
    unfold mean
    rw [cN_eq, Ideal.div_coe hN, Finset.sum_congr rfl (fun n _ => hr n), ← coe_sum, ← EReal.coe_mul]
  unfold var' var
  rw [hmean, cN_eq, Ideal.div_coe hN, Ideal.div_coe hN]
  simp_rw [hr, ← EReal.coe_sub, ← EReal.coe_mul, ← coe_sum, ← EReal.coe_mul, ← EReal.coe_sub]
  rw [EReal.coe_eq_coe_iff]
  rw [real_sq_dev, Fintype.card_fin]
  push_cast
  ring

/-! ### Layers of reals -/

section Layers

variable (scol dcol : IVec (⟨2, ![800000, 1]⟩ : Shape) 32) (w : Fin 800000 → EReal)

/-- Aggregating a table of reals with real weights gives reals: every summand is a product of two reals or zero. -/
theorem fin_agg {C : Nat} (X : Fin 50000 → Fin C → EReal) (hw : ∀ e, Fin' (w e)) (hX : ∀ n k, Fin' (X n k))
    (n : Fin 50000) (k : Fin C) : Fin' (agg scol dcol w X n k) := by
  unfold agg
  refine fin_sum _ _ (fun e => ?_)
  split
  · exact fin_mul (hX _ _) (hw _)
  · exact fin_zero

/-- A layer before normalisation is real when its tables, matrices and bias are. -/
theorem fin_lin {Ci Co : Nat} (A X : Fin 50000 → Fin Ci → EReal) (Wrel Wroot : Fin Co → Fin Ci → EReal)
    (b : Fin Co → EReal) (hA : ∀ n k, Fin' (A n k)) (hX : ∀ n k, Fin' (X n k))
    (hWrel : ∀ j k, Fin' (Wrel j k)) (hWroot : ∀ j k, Fin' (Wroot j k)) (hb : ∀ j, Fin' (b j))
    (n : Fin 50000) (j : Fin Co) : Fin' (lin A X Wrel Wroot b n j) := by
  unfold lin
  exact fin_add (fin_add (fin_sum _ _ fun k => fin_mul (hA n k) (hWrel j k)) (hb j))
    (fin_sum _ _ fun k => fin_mul (hX n k) (hWroot j k))

/-- A normalised entry is a value of tanh, hence real, whatever went in. -/
theorem fin_bn {C : Nat} (H : Fin 50000 → Fin C → EReal) (mu v g be : Fin C → EReal) (n : Fin 50000) (j : Fin C) :
    Fin' (bn H mu v g be n j) := fin_tanh _

/-- Normalising a table of reals: the spelling of the variance does not matter. -/
theorem bn_var'_eq {C : Nat} (H : Fin 50000 → Fin C → EReal) (g be : Fin C → EReal) (hH : ∀ n j, Fin' (H n j)) :
    bn H (mean H) (var' H) g be = bn H (mean H) (var H) g be := by
  rw [show var' H = var H from funext fun j => var'_eq_var H j fun n => hH n j]

/-- The matrix product commutes with the aggregation: for reals,
    ∑_e [dst e = n] (∑_k a(row e, k) W(j, k)) w(e) = ∑_k (∑_e [dst e = n] a(row e, k) w(e)) W(j, k). -/
theorem agg_matmul {Ci Co : Nat} (a : Fin 50000 → Fin Ci → EReal) (Wrel : Fin Co → Fin Ci → EReal)
    (hw : ∀ e, Fin' (w e)) (ha : ∀ n k, Fin' (a n k)) (hWrel : ∀ j k, Fin' (Wrel j k))
    (n : Fin 50000) (j : Fin Co) :
    agg scol dcol w (fun n' j' => ∑ k : Fin Ci, a n' k * Wrel j' k) n j
      = ∑ k : Fin Ci, agg scol dcol w a n k * Wrel j k := by
  choose wr hwr using hw
  choose ar har using ha
  choose Wr hWr using hWrel
  have hite : ∀ (c : Prop) [Decidable c] (t : ℝ),
      (if c then (t : EReal) else 0) = ((if c then t else 0 : ℝ) : EReal) := by
    intro c _ t; split <;> simp
  unfold agg
  simp_rw [hwr, har, hWr, ← EReal.coe_mul, ← coe_sum, ← EReal.coe_mul, hite, ← coe_sum, ← EReal.coe_mul,
    ← coe_sum]
  rw [EReal.coe_eq_coe_iff]
  have h : ∀ e : Fin 800000,
      (if (dcol (ix2 e (0 : Fin 1))).toInt = (n.val : ℤ)
        then (∑ k : Fin Ci, ar (row scol e) k * Wr j k) * wr e else 0)
      = ∑ k : Fin Ci, (if (dcol (ix2 e (0 : Fin 1))).toInt = (n.val : ℤ)
        then ar (row scol e) k * wr e else 0) * Wr j k := by
    intro e
    by_cases hc : (dcol (ix2 e (0 : Fin 1))).toInt = (n.val : ℤ)
    · simp only [if_pos hc]; rw [Finset.sum_mul]; exact Finset.sum_congr rfl fun k _ => by ring
    · simp only [if_neg hc, zero_mul, Finset.sum_const_zero]
  rw [Finset.sum_congr rfl fun e _ => h e, Finset.sum_comm]
  exact Finset.sum_congr rfl fun k _ => (Finset.sum_mul _ _ _).symm

/-- The last layer: applying the matrix before or after the aggregation gives the same entries. -/
theorem out'_eq_out {Ci Co : Nat} (a : Fin 50000 → Fin Ci → EReal) (Wrel Wroot : Fin Co → Fin Ci → EReal)
    (b : Fin Co → EReal) (hw : ∀ e, Fin' (w e)) (ha : ∀ n k, Fin' (a n k)) (hWrel : ∀ j k, Fin' (Wrel j k)) :
    out' scol dcol w a Wrel Wroot b = out scol dcol w a Wrel Wroot b := by
  funext n j
  unfold out' out lin
  rw [agg_matmul scol dcol w a Wrel hw ha hWrel n j,
    add_comm (∑ k : Fin Ci, a n k * Wroot j k) (b j), add_assoc]

variable (x : Fin 50000 → Fin 64 → EReal)
  (W1rel W1root : Fin 128 → Fin 64 → EReal) (b1 g1 be1 : Fin 128 → EReal)
  (W2rel W2root : Fin 256 → Fin 128 → EReal) (b2 g2 be2 : Fin 256 → EReal)
  (W3rel W3root : Fin 32 → Fin 256 → EReal) (b3 : Fin 32 → EReal)

/-- The two programs' results agree entry by entry when the edge weights, the node features, the first two
    layers' matrices and biases, and the last layer's aggregation matrix are real. -/
theorem kerOut_eq_refOut
    (hw : ∀ e, Fin' (w e)) (hx : ∀ n k, Fin' (x n k))
    (hW1rel : ∀ j k, Fin' (W1rel j k)) (hW1root : ∀ j k, Fin' (W1root j k)) (hb1 : ∀ j, Fin' (b1 j))
    (hW2rel : ∀ j k, Fin' (W2rel j k)) (hW2root : ∀ j k, Fin' (W2root j k)) (hb2 : ∀ j, Fin' (b2 j))
    (hW3rel : ∀ j k, Fin' (W3rel j k)) :
    kerOut scol dcol w x W1rel W1root b1 g1 be1 W2rel W2root b2 g2 be2 W3rel W3root b3
      = refOut scol dcol w x W1rel W1root b1 g1 be1 W2rel W2root b2 g2 be2 W3rel W3root b3 := by
  have hh1 : ∀ n j, Fin' (h1 scol dcol w x W1rel W1root b1 n j) := fun n j =>
    fin_lin _ _ _ _ _ (fin_agg scol dcol w x hw hx) hx hW1rel hW1root hb1 n j
  have e1 : a1' scol dcol w x W1rel W1root b1 g1 be1 = a1 scol dcol w x W1rel W1root b1 g1 be1 :=
    bn_var'_eq _ g1 be1 hh1
  have ha1 : ∀ n j, Fin' (a1 scol dcol w x W1rel W1root b1 g1 be1 n j) := fun n j => fin_bn _ _ _ _ _ n j
  have hh2 : ∀ n j, Fin' (h2 scol dcol w W2rel W2root b2 (a1 scol dcol w x W1rel W1root b1 g1 be1) n j) :=
    fun n j => fin_lin _ _ _ _ _ (fin_agg scol dcol w _ hw ha1) ha1 hW2rel hW2root hb2 n j
  have e2 : a2' scol dcol w W2rel W2root b2 g2 be2 (a1 scol dcol w x W1rel W1root b1 g1 be1)
      = a2 scol dcol w W2rel W2root b2 g2 be2 (a1 scol dcol w x W1rel W1root b1 g1 be1) :=
    bn_var'_eq _ g2 be2 hh2
  have ha2 : ∀ n j, Fin' (a2 scol dcol w W2rel W2root b2 g2 be2 (a1 scol dcol w x W1rel W1root b1 g1 be1) n j) :=
    fun n j => fin_bn _ _ _ _ _ n j
  unfold kerOut refOut
  rw [e1, e2]
  exact out'_eq_out scol dcol w _ W3rel W3root b3 hw ha2 hW3rel

end Layers

end Cert.Spec

end
-- ==== Proof.PreFinite.lean ====
/-
  The precondition read back: every float argument array holds only real numbers.

  The precondition is the conjunction, over the fifteen float argument arrays, of "every entry x has |x| < +∞",
  each conjunct an and-reduction over all axes of the entrywise comparison. An and-reduction that gives 1 met
  only 1s, so the comparison holds at every entry. Over the extended reals |x| is max x (-x), which is +∞ at
  both infinities; so |x| < +∞ leaves only the real numbers.
-/
import proofs.«129947_j42545946034237_2_alg».proof.Defs
import proofs.«129947_j42545946034237_2_alg».proof.Proof.Spec
import Idealize.ShloMosaic.Lib.ReduceAll

noncomputable section

namespace Cert.PreFinite

open Idealize.ShloMosaic Idealize.ShloMosaic.ValueIdx Idealize.SL.Sem
open Cert.Pre_finite_inputs

/-- A rank-0 array has one index. -/
instance : Subsingleton S_.Idx := ⟨fun a b => funext fun d => d.elim0⟩

/-- The all-ones exponent with a zero significand and a clear sign denotes +∞. -/
theorem top_eq : Ideal.ofBits .f32 0x7F800000#32 = (⊤ : EReal) := by
  simp [Ideal.ofBits, Ideal.ieee]

/-- |x| < +∞ excludes both infinities: at either, max x (-x) is +∞. -/
theorem fin_of_abs_lt (x : EReal)
    (h : Ideal.cmp .olt (max x (-x)) (Ideal.ofBits .f32 0x7F800000#32) = 1#1) : Spec.Fin' x := by
  rw [top_eq] at h
  induction x using EReal.rec
  · simp [Ideal.cmp] at h
  · exact ⟨_, rfl⟩
  · simp [Ideal.cmp] at h

/-- One conjunct: an array whose entrywise |x| < +∞ and-reduces to 1 holds only real numbers. -/
theorem all_fin {S : Shape} {axes : List (Fin S.rank)} (x : FVec Ideal S .f32)
    (hb : S_.BroadcastsInDim S (![] : Fin 0 → Fin S.rank)) (hr : S.ReducesTo axes S_) (hS : 0 < S_.numel)
    (e : Host.reduce IntOp.andi
          (cmpf .olt (Host.absf x) (broadcastInDim S ![] hb (constant (F := Ideal) S_ .f32 0x7F800000#32)))
          (constantI S_ 1 1#1) hr hS ix0 = 1#1) (i : S.Idx) : Spec.Fin' (x i) :=
  fin_of_abs_lt _ (Host.reduce_andi_all _ _ hr hS ix0 e i)

variable [Cert.Pre_finite_inputs.Facts]

/-- The fifteen conjuncts, each read back at every entry. -/
theorem fin_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Spec.Fin' ((m ((c.tc : Thread Cert.KernelIdeal.nD Cert.KernelIdeal.τ).loc Cert.KernelIdeal.main_arg0)) i))
      ∧ (∀ i, Spec.Fin' ((m ((c.tc : Thread Cert.KernelIdeal.nD Cert.KernelIdeal.τ).loc Cert.KernelIdeal.main_arg2)) i))
      ∧ (∀ i, Spec.Fin' ((m ((c.tc : Thread Cert.KernelIdeal.nD Cert.KernelIdeal.τ).loc Cert.KernelIdeal.main_arg3)) i))
      ∧ (∀ i, Spec.Fin' ((m ((c.tc : Thread Cert.KernelIdeal.nD Cert.KernelIdeal.τ).loc Cert.KernelIdeal.main_arg4)) i))
      ∧ (∀ i, Spec.Fin' ((m ((c.tc : Thread Cert.KernelIdeal.nD Cert.KernelIdeal.τ).loc Cert.KernelIdeal.main_arg5)) i))
      ∧ (∀ i, Spec.Fin' ((m ((c.tc : Thread Cert.KernelIdeal.nD Cert.KernelIdeal.τ).loc Cert.KernelIdeal.main_arg6)) i))
      ∧ (∀ i, Spec.Fin' ((m ((c.tc : Thread Cert.KernelIdeal.nD Cert.KernelIdeal.τ).loc Cert.KernelIdeal.main_arg7)) i))
      ∧ (∀ i, Spec.Fin' ((m ((c.tc : Thread Cert.KernelIdeal.nD Cert.KernelIdeal.τ).loc Cert.KernelIdeal.main_arg8)) i))
      ∧ (∀ i, Spec.Fin' ((m ((c.tc : Thread Cert.KernelIdeal.nD Cert.KernelIdeal.τ).loc Cert.KernelIdeal.main_arg9)) i))
      ∧ (∀ i, Spec.Fin' ((m ((c.tc : Thread Cert.KernelIdeal.nD Cert.KernelIdeal.τ).loc Cert.KernelIdeal.main_arg10)) i))
      ∧ (∀ i, Spec.Fin' ((m ((c.tc : Thread Cert.KernelIdeal.nD Cert.KernelIdeal.τ).loc Cert.KernelIdeal.main_arg11)) i))
      ∧ (∀ i, Spec.Fin' ((m ((c.tc : Thread Cert.KernelIdeal.nD Cert.KernelIdeal.τ).loc Cert.KernelIdeal.main_arg12)) i))
      ∧ (∀ i, Spec.Fin' ((m ((c.tc : Thread Cert.KernelIdeal.nD Cert.KernelIdeal.τ).loc Cert.KernelIdeal.main_arg13)) i))
      ∧ (∀ i, Spec.Fin' ((m ((c.tc : Thread Cert.KernelIdeal.nD Cert.KernelIdeal.τ).loc Cert.KernelIdeal.main_arg14)) i))
      ∧ (∀ i, Spec.Fin' ((m ((c.tc : Thread Cert.KernelIdeal.nD Cert.KernelIdeal.τ).loc Cert.KernelIdeal.main_arg15)) i)) := by
  have e := congrFun (h c) ix0
  dsimp only [fn, fn_part1, fn_part2, fn_part3, fn_part4] at e
  simp only [andi, IntOp.andi_eq_one] at e
  obtain ⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩ := e
  exact ⟨all_fin _ _ _ _ e0,
    all_fin _ _ _ _ e2,
    all_fin _ _ _ _ e3,
    all_fin _ _ _ _ e4,
    all_fin _ _ _ _ e5,
    all_fin _ _ _ _ e6,
    all_fin _ _ _ _ e7,
    all_fin _ _ _ _ e8,
    all_fin _ _ _ _ e9,
    all_fin _ _ _ _ e10,
    all_fin _ _ _ _ e11,
    all_fin _ _ _ _ e12,
    all_fin _ _ _ _ e13,
    all_fin _ _ _ _ e14,
    all_fin _ _ _ _ e15⟩

/-- Argument 0 holds only real numbers. -/
theorem fin_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg0)) i) :=
  (fin_args m h c).1

/-- Argument 2 holds only real numbers. -/
theorem fin_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg2)) i) :=
  (fin_args m h c).2.1

/-- Argument 3 holds only real numbers. -/
theorem fin_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg3)) i) :=
  (fin_args m h c).2.2.1

/-- Argument 4 holds only real numbers. -/
theorem fin_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg4)) i) :=
  (fin_args m h c).2.2.2.1

/-- Argument 5 holds only real numbers. -/
theorem fin_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg5)) i) :=
  (fin_args m h c).2.2.2.2.1

/-- Argument 6 holds only real numbers. -/
theorem fin_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg6)) i) :=
  (fin_args m h c).2.2.2.2.2.1

/-- Argument 7 holds only real numbers. -/
theorem fin_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg7)) i) :=
  (fin_args m h c).2.2.2.2.2.2.1

/-- Argument 8 holds only real numbers. -/
theorem fin_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg8)) i) :=
  (fin_args m h c).2.2.2.2.2.2.2.1

/-- Argument 9 holds only real numbers. -/
theorem fin_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg9)) i) :=
  (fin_args m h c).2.2.2.2.2.2.2.2.1

/-- Argument 10 holds only real numbers. -/
theorem fin_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg10)) i) :=
  (fin_args m h c).2.2.2.2.2.2.2.2.2.1

/-- Argument 11 holds only real numbers. -/
theorem fin_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg11)) i) :=
  (fin_args m h c).2.2.2.2.2.2.2.2.2.2.1

/-- Argument 12 holds only real numbers. -/
theorem fin_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg12)) i) :=
  (fin_args m h c).2.2.2.2.2.2.2.2.2.2.2.1

/-- Argument 13 holds only real numbers. -/
theorem fin_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg13)) i) :=
  (fin_args m h c).2.2.2.2.2.2.2.2.2.2.2.2.1

/-- Argument 14 holds only real numbers. -/
theorem fin_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg14)) i) :=
  (fin_args m h c).2.2.2.2.2.2.2.2.2.2.2.2.2.1

/-- Argument 15 holds only real numbers. -/
theorem fin_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, Spec.Fin' ((m ((c.tc : Thread Cert.KernelIdeal.nD Cert.KernelIdeal.τ).loc Cert.KernelIdeal.main_arg15)) i) :=
  (fin_args m h c).2.2.2.2.2.2.2.2.2.2.2.2.2.2

/-- Argument 0 at explicit coordinates. -/
theorem fin_arg0_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 50000) (q : Fin 64) :
    Spec.Fin' ((m ((c.tc : Thread Cert.KernelIdeal.nD Cert.KernelIdeal.τ).loc Cert.KernelIdeal.main_arg0)) (ix2 p q)) :=
  fin_arg0 m h c (ix2 p q)

/-- Argument 2 at explicit coordinates. -/
theorem fin_arg2_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 800000) :
    Spec.Fin' ((m ((c.tc : Thread Cert.KernelIdeal.nD Cert.KernelIdeal.τ).loc Cert.KernelIdeal.main_arg2)) (ix1 p)) :=
  fin_arg2 m h c (ix1 p)

/-- Argument 3 at explicit coordinates. -/
theorem fin_arg3_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 128) (q : Fin 64) :
    Spec.Fin' ((m ((c.tc : Thread Cert.KernelIdeal.nD Cert.KernelIdeal.τ).loc Cert.KernelIdeal.main_arg3)) (ix2 p q)) :=
  fin_arg3 m h c (ix2 p q)

/-- Argument 4 at explicit coordinates. -/
theorem fin_arg4_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 128) :
    Spec.Fin' ((m ((c.tc : Thread Cert.KernelIdeal.nD Cert.KernelIdeal.τ).loc Cert.KernelIdeal.main_arg4)) (ix1 p)) :=
  fin_arg4 m h c (ix1 p)

/-- Argument 5 at explicit coordinates. -/
theorem fin_arg5_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 128) (q : Fin 64) :
    Spec.Fin' ((m ((c.tc : Thread Cert.KernelIdeal.nD Cert.KernelIdeal.τ).loc Cert.KernelIdeal.main_arg5)) (ix2 p q)) :=
  fin_arg5 m h c (ix2 p q)

/-- Argument 6 at explicit coordinates. -/
theorem fin_arg6_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 256) (q : Fin 128) :
    Spec.Fin' ((m ((c.tc : Thread Cert.KernelIdeal.nD Cert.KernelIdeal.τ).loc Cert.KernelIdeal.main_arg6)) (ix2 p q)) :=
  fin_arg6 m h c (ix2 p q)

/-- Argument 7 at explicit coordinates. -/
theorem fin_arg7_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 256) :
    Spec.Fin' ((m ((c.tc : Thread Cert.KernelIdeal.nD Cert.KernelIdeal.τ).loc Cert.KernelIdeal.main_arg7)) (ix1 p)) :=
  fin_arg7 m h c (ix1 p)

/-- Argument 8 at explicit coordinates. -/
theorem fin_arg8_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 256) (q : Fin 128) :
    Spec.Fin' ((m ((c.tc : Thread Cert.KernelIdeal.nD Cert.KernelIdeal.τ).loc Cert.KernelIdeal.main_arg8)) (ix2 p q)) :=
  fin_arg8 m h c (ix2 p q)

/-- Argument 9 at explicit coordinates. -/
theorem fin_arg9_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 32) (q : Fin 256) :
    Spec.Fin' ((m ((c.tc : Thread Cert.KernelIdeal.nD Cert.KernelIdeal.τ).loc Cert.KernelIdeal.main_arg9)) (ix2 p q)) :=
  fin_arg9 m h c (ix2 p q)

/-- Argument 10 at explicit coordinates. -/
theorem fin_arg10_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 32) :
    Spec.Fin' ((m ((c.tc : Thread Cert.KernelIdeal.nD Cert.KernelIdeal.τ).loc Cert.KernelIdeal.main_arg10)) (ix1 p)) :=
  fin_arg10 m h c (ix1 p)

/-- Argument 11 at explicit coordinates. -/
theorem fin_arg11_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 32) (q : Fin 256) :
    Spec.Fin' ((m ((c.tc : Thread Cert.KernelIdeal.nD Cert.KernelIdeal.τ).loc Cert.KernelIdeal.main_arg11)) (ix2 p q)) :=
  fin_arg11 m h c (ix2 p q)

/-- Argument 12 at explicit coordinates. -/
theorem fin_arg12_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 128) :
    Spec.Fin' ((m ((c.tc : Thread Cert.KernelIdeal.nD Cert.KernelIdeal.τ).loc Cert.KernelIdeal.main_arg12)) (ix1 p)) :=
  fin_arg12 m h c (ix1 p)

/-- Argument 13 at explicit coordinates. -/
theorem fin_arg13_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 128) :
    Spec.Fin' ((m ((c.tc : Thread Cert.KernelIdeal.nD Cert.KernelIdeal.τ).loc Cert.KernelIdeal.main_arg13)) (ix1 p)) :=
  fin_arg13 m h c (ix1 p)

/-- Argument 14 at explicit coordinates. -/
theorem fin_arg14_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 256) :
    Spec.Fin' ((m ((c.tc : Thread Cert.KernelIdeal.nD Cert.KernelIdeal.τ).loc Cert.KernelIdeal.main_arg14)) (ix1 p)) :=
  fin_arg14 m h c (ix1 p)

/-- Argument 15 at explicit coordinates. -/
theorem fin_arg15_at (m : (ℓ : Loc Cert.KernelIdeal.nD Cert.KernelIdeal.τ Cert.KernelIdeal.sig) → Buf (Elt Ideal) ℓ)
    (h : Cert.Pre_KernelIdeal m) (c : Dev Cert.KernelIdeal.nD) (p : Fin 256) :
    Spec.Fin' ((m ((c.tc : Thread Cert.KernelIdeal.nD Cert.KernelIdeal.τ).loc Cert.KernelIdeal.main_arg15)) (ix1 p)) :=
  fin_arg15 m h c (ix1 p)

end Cert.PreFinite

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibStage.lean ====
/-
  Host stages of a graph convolution read at an index, generic in the feature width.

  * An edge vector broadcast along a new trailing axis and then across the features reads the edge's entry.
  * A scalar zero broadcast to a table reads zero.
  * A gather of whole rows at a column of start words reads the row `Spec.row` names.
  * The accumulating scatter of the gathered, weighted rows into a zero table is `Spec.agg`.
  * A transposed matrix and a vector reshaped to one row read the original entries.
-/
import proofs.«129947_j42545946034237_2_alg».proof.Proof.Spec
import proofs.«129947_j42545946034237_2_alg».proof.Proof.LibRows
import Idealize.ShloMosaic.Lib.Pipeline.Value
import Idealize.ShloMosaic.Lib.IdealHost
import Idealize.ShloMosaic.PureOps.Ideal.Laws

noncomputable section

open scoped BigOperators

namespace Cert.Stage

open Idealize.ShloMosaic Idealize.ShloMosaic.ValueIdx

/-- An edge vector `[M]`, made a column `[M, 1]` and broadcast across `C` features, reads the edge's entry. -/
theorem bcast_edge {M C : Nat} {φ : FTy}
    (h1 : (⟨1, ![M]⟩ : Shape).BroadcastsInDim ⟨2, ![M, 1]⟩ ![0])
    (h2 : (⟨2, ![M, 1]⟩ : Shape).BroadcastsInDim ⟨2, ![M, C]⟩ ![0, 1])
    (wv : FVec Ideal ⟨1, ![M]⟩ φ) (e : Fin M) (k : Fin C) :
    broadcastInDim ⟨2, ![M, C]⟩ ![0, 1] h2 (broadcastInDim ⟨2, ![M, 1]⟩ ![0] h1 wv) (ix2 e k) = wv (ix1 e) := by
  rw [broadcastInDim_apply ![0, 1] h2 _ (ix2 e k) (ix2 e (0 : Fin 1)) (by
        intro a
        match a with
        | ⟨0, _⟩ =>
          by_cases hM : M = 1
          · subst hM; show e.val = if (1 : ℕ) = 1 then 0 else e.val; rw [if_pos rfl]; omega
          · show e.val = if M = 1 then 0 else e.val; rw [if_neg hM]
        | ⟨1, _⟩ => show (0 : ℕ) = if (1 : ℕ) = 1 then 0 else k.val; rw [if_pos rfl]),
    broadcastInDim_apply ![0] h1 _ (ix2 e (0 : Fin 1)) (ix1 e) (by
        intro a
        match a with
        | ⟨0, _⟩ =>
          by_cases hM : M = 1
          · subst hM; show e.val = if (1 : ℕ) = 1 then 0 else e.val; rw [if_pos rfl]; omega
          · show e.val = if M = 1 then 0 else e.val; rw [if_neg hM])]

/-- The zero literal broadcast to any shape reads zero. -/
theorem zero_table {S : Shape} (h : (⟨0, ![]⟩ : Shape).BroadcastsInDim S ![]) (i : S.Idx) :
    broadcastInDim S ![] h (constant (F := Ideal) ⟨0, ![]⟩ .f32 0x00000000#32) i = (0 : EReal) := by
  rw [broadcastInDim_scalar_apply, constant_apply, Ideal.ofBits_zero_f32]

/-- A literal broadcast to any shape reads the literal. -/
theorem const_table {S : Shape} (h : (⟨0, ![]⟩ : Shape).BroadcastsInDim S ![]) (b : BitVec 32) (i : S.Idx) :
    broadcastInDim S ![] h (constant (F := Ideal) ⟨0, ![]⟩ .f32 b) i = Ideal.ofBits .f32 b := by
  rw [broadcastInDim_scalar_apply, constant_apply]

/-- The gather of whole rows at a column of start words reads the row the word names, clamped. -/
theorem gather_row {C : Nat} {φ : FTy}
    (g : GatherDims ⟨2, ![50000, C]⟩ ⟨2, ![800000, 1]⟩ ⟨2, ![800000, C]⟩)
    (wfg : GatherDims.WF ⟨2, ![50000, C]⟩ ⟨2, ![800000, 1]⟩ ⟨2, ![800000, C]⟩ [1] [0] [] [0] [] 1 ![1, C])
    (hg : g = Rows.gather2 50000 C 800000 wfg)
    (T : FVec Ideal ⟨2, ![50000, C]⟩ φ) (scol : IVec ⟨2, ![800000, 1]⟩ 32) (e : Fin 800000) (k : Fin C) :
    Host.gather g T scol (ix2 e k) = T (ix2 (Spec.row scol e) k) := by
  subst hg
  exact Rows.gather2_apply (by omega) wfg T scol e k

/-- Aggregation: the accumulating scatter, into a zero table, of rows `G` (the gathered table rows) times the
    edge weights, at the column of destination words. -/
theorem agg_apply {C : Nat}
    (s : ScatterDims ⟨2, ![50000, C]⟩ ⟨2, ![800000, 1]⟩ ⟨2, ![800000, C]⟩)
    (wfs : ScatterDims.WF ⟨2, ![50000, C]⟩ ⟨2, ![800000, 1]⟩ ⟨2, ![800000, C]⟩ [1] [0] [0] 1)
    (hs : s = Rows.scatter2 50000 C 800000 wfs)
    (scol dcol : IVec ⟨2, ![800000, 1]⟩ 32)
    (Z : FVec Ideal ⟨2, ![50000, C]⟩ .f32) (G Wb : FVec Ideal ⟨2, ![800000, C]⟩ .f32)
    (X : Fin 50000 → Fin C → EReal) (w : Fin 800000 → EReal)
    (hZ : ∀ i, Z i = 0) (hG : ∀ e k, G (ix2 e k) = X (Spec.row scol e) k) (hWb : ∀ e k, Wb (ix2 e k) = w e)
    (n : Fin 50000) (k : Fin C) :
    Host.scatterAdd s Z dcol (mulf G Wb) (ix2 n k) = Spec.agg scol dcol w X n k := by
  subst hs
  show Ideal.hostScatterAdd (Rows.scatter2 50000 C 800000 wfs) Z dcol (mulf G Wb) (ix2 n k) = _
  rw [Rows.scatterAdd2_apply, hZ, zero_add]
  unfold Spec.agg
  refine Finset.sum_congr rfl fun e _ => ?_
  rw [mulf_apply, hG, hWb]

/-- A transposed matrix reads the original at the swapped index. -/
theorem transpose2_apply {A B : Nat} {α : Type}
    (h : (⟨2, ![A, B]⟩ : Shape).Transposes [1, 0] ⟨2, ![B, A]⟩) (W : (⟨2, ![A, B]⟩ : Shape).Idx → α)
    (k : Fin B) (j : Fin A) :
    transpose ⟨2, ![B, A]⟩ [1, 0] W h (ix2 k j) = W (ix2 j k) :=
  transpose_apply [1, 0] W h (ix2 k j) (ix2 j k) (by
    intro b
    match b with
    | ⟨0, _⟩ => rfl
    | ⟨1, _⟩ => rfl)

/-- A vector reshaped to one row reads the vector's entry. -/
theorem row_of_vec {C : Nat} {α : Type}
    (h : (⟨1, ![C]⟩ : Shape).ShapeCasts ⟨2, ![1, C]⟩) (v : (⟨1, ![C]⟩ : Shape).Idx → α) (j : Fin C) :
    shapeCast ⟨2, ![1, C]⟩ v h (ix2 (0 : Fin 1) j) = v (ix1 j) :=
  shapeCast_apply v h (ix2 (0 : Fin 1) j) (ix1 j) (by
    rw [Shape.rowMajor_val_one, Shape.rowMajor_val_two]
    show j.val = (0 : ℕ) * C + j.val
    omega)

end Cert.Stage

end
-- ==== Proof.RefOps.lean ====
/-
  Host array operations of a graph-convolution layer read at one entry, over the extended reals.

  Every lemma here is about one operation (or a fixed short chain of them) applied to arbitrary arrays of
  the stated shapes, with the table height, the edge count and the feature widths left as variables:
  * a product of a matrix [N, K] with a matrix [K, C] is the sum over the shared axis;
  * a sum over the rows of a matrix [N, C], started from a scalar, is that scalar plus the column's sum;
  * a scalar spread over any shape reads the scalar, a vector [b] spread over the rows of [a, b] reads its
    entry at the column, a vector [m] spread over the columns of [m, c] reads its entry at the row.

  Then the three composed stages of one layer, for any feature widths, against the entrywise specification:
  the layer before normalisation (aggregate, two matrix products, bias), a column's mean, and the
  normalised, scaled, shifted entry under tanh.
-/
import proofs.«129947_j42545946034237_2_alg».proof.Proof.Spec
import proofs.«129947_j42545946034237_2_alg».proof.Proof.LibRows
import proofs.«129947_j42545946034237_2_alg».proof.Proof.LibStage
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.RefSide

open Idealize.ShloMosaic Idealize.ShloMosaic.ValueIdx

/-! ## The matrix product -/

/-- The dimension numbers of a plain matrix product [N, K] · [K, C] → [N, C]: the left operand's axis 1
    is contracted with the right operand's axis 0. -/
abbrev dot2 (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The left operand's row coordinate is the result's row. -/
private theorem dot2_lhs0 {N K C : Nat}
    (wf : DotDims.WF ⟨2, ![N, K]⟩ ⟨2, ![K, C]⟩ ⟨2, ![N, C]⟩ [1] [0] [0] [1] [] [])
    (i : (⟨2, ![N, C]⟩ : Shape).Idx) (q : (dot2 N K C wf).contr.Idx) :
    ((dot2 N K C wf).lhsIdx i q (0 : Fin 2)).val = (i 0).val := by
  unfold DotDims.lhsIdx
  rw [dif_neg (show ¬(0 : Fin 2) ∈ (dot2 N K C wf).lhsBatch from List.not_mem_nil),
    dif_pos (show (0 : Fin 2) ∈ (dot2 N K C wf).lhsNonContracting from List.mem_singleton.mpr rfl)]
  rfl

/-- The right operand's column coordinate is the result's column. -/
private theorem dot2_rhs1 {N K C : Nat}
    (wf : DotDims.WF ⟨2, ![N, K]⟩ ⟨2, ![K, C]⟩ ⟨2, ![N, C]⟩ [1] [0] [0] [1] [] [])
    (i : (⟨2, ![N, C]⟩ : Shape).Idx) (q : (dot2 N K C wf).contr.Idx) :
    ((dot2 N K C wf).rhsIdx i q (1 : Fin 2)).val = (i 1).val := by
  unfold DotDims.rhsIdx
  rw [dif_neg (show ¬(1 : Fin 2) ∈ (dot2 N K C wf).rhsBatch from List.not_mem_nil),
    dif_pos (show (1 : Fin 2) ∈ (dot2 N K C wf).rhsNonContracting from List.mem_singleton.mpr rfl)]
  rfl

/-- The matrix product at `(n, j)`: the sum over the shared axis of the left operand's row `n` times the
    right operand's column `j`. -/
theorem dot2_apply {N K C : Nat}
    (wf : DotDims.WF ⟨2, ![N, K]⟩ ⟨2, ![K, C]⟩ ⟨2, ![N, C]⟩ [1] [0] [0] [1] [] [])
    (l : FVec Ideal ⟨2, ![N, K]⟩ .f32) (r : FVec Ideal ⟨2, ![K, C]⟩ .f32) (n : Fin N) (j : Fin C) :
    Host.dotGeneral (F := Ideal) (dot2 N K C wf) none l r (ix2 n j) = ∑ k : Fin K, l (ix2 n k) * r (ix2 k j) := by
  simp only [Host.dotGeneral]
  rw [Ideal.dotGeneral_apply, ← Equiv.sum_comp (contrEquiv1 (dot2 N K C wf) K rfl rfl).symm]
  refine Finset.sum_congr rfl fun k _ => ?_
  have hk := contrEquiv1_symm_val (dot2 N K C wf) K rfl rfl k
  have el : (dot2 N K C wf).lhsIdx (ix2 n j) ((contrEquiv1 (dot2 N K C wf) K rfl rfl).symm k) = ix2 n k :=
    funext fun a => Fin.ext (by
      match a with
      | ⟨0, _⟩ => exact dot2_lhs0 wf _ _
      | ⟨1, _⟩ => exact ((dot2 N K C wf).lhsIdx_val_of_single rfl _ _).trans hk)
  have er : (dot2 N K C wf).rhsIdx (ix2 n j) ((contrEquiv1 (dot2 N K C wf) K rfl rfl).symm k) = ix2 k j :=
    funext fun a => Fin.ext (by
      match a with
      | ⟨0, _⟩ => exact ((dot2 N K C wf).rhsIdx_val_of_single rfl _ _).trans hk
      | ⟨1, _⟩ => exact dot2_rhs1 wf _ _)
  rw [el, er]

/-! ## The sum over the rows -/

/-- The sum of a matrix [N, C] over its rows, started from a scalar, at column `j`: the scalar plus the sum
    of the column. -/
theorem reduceRows_apply {N C : Nat} (x : FVec Ideal ⟨2, ![N, C]⟩ .f32) (init : FVec Ideal ⟨0, ![]⟩ .f32)
    (h : (⟨2, ![N, C]⟩ : Shape).ReducesTo [0] ⟨1, ![C]⟩) (hu : 0 < (⟨0, ![]⟩ : Shape).numel) (j : Fin C) :
    Host.reduceAdd (F := Ideal) x init h hu (ix1 j) = init ix0 + ∑ n : Fin N, x (ix2 n j) := by
  have hR : (⟨2, ![N, C]⟩ : Shape).Reduces [0] ⟨1, ![C]⟩ := ⟨h.1, Nat.one_pos, h.2⟩
  unfold Host.reduceAdd
  rw [Ideal.hostReduceAdd_def, Ideal.hostReduceAdd_single h hR, eq_ix0 (Shape.Idx.first hu)]
  refine congrArg (init ix0 + ·) (Finset.sum_congr rfl fun k _ => ?_)
  exact congrArg x (funext fun a => Fin.ext (by match a with | ⟨0, _⟩ => rfl | ⟨1, _⟩ => rfl))

/-! ## Spreading a scalar, a row, a column -/

/-- A scalar spread over any shape reads the scalar. -/
theorem bcastScalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

/-- A vector [b] placed as the one row of [1, b] and spread over the rows of [a, b] reads, at `(p, c)`, its
    entry `c`. -/
theorem bcastRow_apply {α : Type} {a b : Nat} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (p : Fin a) (c : Fin b) :
    broadcastInDim ⟨2, ![a, b]⟩ ![0, 1] h2 (broadcastInDim ⟨2, ![1, b]⟩ ![1] h1 v) (ix2 p c) = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A vector [m] placed as the one column of [m, 1] reads, at `(e, 0)`, its entry `e`. -/
theorem bcastCol1_apply {α : Type} {m : Nat} (v : (⟨1, ![m]⟩ : Shape).Idx → α)
    (h1 : (⟨1, ![m]⟩ : Shape).BroadcastsInDim ⟨2, ![m, 1]⟩ (![0] : Fin 1 → Fin 2))
    (e : Fin m) (u : Fin 1) :
    broadcastInDim ⟨2, ![m, 1]⟩ ![0] h1 v (ix2 e u) = v (ix1 e) := by
  refine broadcastInDim_apply _ h1 v (ix2 e u) (ix1 e) fun ax => ?_
  match ax with
  | ⟨0, _⟩ =>
    show e.val = if m = 1 then 0 else e.val
    split
    · have := e.isLt; omega
    · rfl

/-- A vector [m] placed as the one column of [m, 1] and spread over the columns of [m, c] reads, at
    `(e, k)`, its entry `e`. -/
theorem bcastCol_apply {α : Type} {m c : Nat} (v : (⟨1, ![m]⟩ : Shape).Idx → α)
    (h1 : (⟨1, ![m]⟩ : Shape).BroadcastsInDim ⟨2, ![m, 1]⟩ (![0] : Fin 1 → Fin 2))
    (h2 : (⟨2, ![m, 1]⟩ : Shape).BroadcastsInDim ⟨2, ![m, c]⟩ (![0, 1] : Fin 2 → Fin 2))
    (e : Fin m) (k : Fin c) :
    broadcastInDim ⟨2, ![m, c]⟩ ![0, 1] h2 (broadcastInDim ⟨2, ![m, 1]⟩ ![0] h1 v) (ix2 e k) = v (ix1 e) := by
  refine (broadcastInDim_apply _ h2 _ (ix2 e k) (ix2 e (0 : Fin 1)) fun ax => ?_).trans
    (bcastCol1_apply v h1 e 0)
  match ax with
  | ⟨0, _⟩ =>
    show e.val = if m = 1 then 0 else e.val
    split
    · have := e.isLt; omega
    · rfl
  | ⟨1, _⟩ => rfl

/-! ## The host's quotient, reciprocal square root and tanh, entry by entry -/

section Pointwise
variable {s : Shape} {φ : FTy}

/-- The host's quotient at an index is the extended reals' division of the entries. -/
theorem hostDivf_apply (x y : FVec Ideal s φ) (i : s.Idx) : Host.divf (F := Ideal) x y i = Ideal.div (x i) (y i) := rfl
/-- The host's reciprocal square root at an index is that of the entry. -/
theorem hostRsqrt_apply (x : FVec Ideal s φ) (i : s.Idx) : Host.rsqrt (F := Ideal) x i = Ideal.rsqrt (x i) := rfl
/-- The host's tanh at an index is that of the entry. -/
theorem hostTanh_apply (x : FVec Ideal s φ) (i : s.Idx) : Host.tanh (F := Ideal) x i = Ideal.tanh (x i) := rfl

end Pointwise

/-! ## One layer, stage by stage -/

/-- A layer before normalisation at `(n, j)`: the rows gathered at the source words and scaled by the edge
    weights are accumulated into a zero table at the destination words; that table times the first matrix
    (given as [Co, Ci] and transposed), plus the bias along the rows, plus the table `X` itself times the
    second matrix. Entry by entry this is `lin (agg X) X`. -/
theorem layer_apply {Ci Co : Nat}
    (wfd : DotDims.WF ⟨2, ![50000, Ci]⟩ ⟨2, ![Ci, Co]⟩ ⟨2, ![50000, Co]⟩ [1] [0] [0] [1] [] [])
    (wfs : ScatterDims.WF ⟨2, ![50000, Ci]⟩ ⟨2, ![800000, 1]⟩ ⟨2, ![800000, Ci]⟩ [1] [0] [0] 1)
    (wfg : GatherDims.WF ⟨2, ![50000, Ci]⟩ ⟨2, ![800000, 1]⟩ ⟨2, ![800000, Ci]⟩ [1] [0] [] [0] [] 1 ![1, Ci])
    (hz : (⟨0, ![]⟩ : Shape).BroadcastsInDim ⟨2, ![50000, Ci]⟩ (![] : Fin 0 → Fin 2))
    (hw1 : (⟨1, ![800000]⟩ : Shape).BroadcastsInDim ⟨2, ![800000, 1]⟩ (![0] : Fin 1 → Fin 2))
    (hw2 : (⟨2, ![800000, 1]⟩ : Shape).BroadcastsInDim ⟨2, ![800000, Ci]⟩ (![0, 1] : Fin 2 → Fin 2))
    (ht : (⟨2, ![Co, Ci]⟩ : Shape).Transposes [1, 0] ⟨2, ![Ci, Co]⟩)
    (hb1 : (⟨1, ![Co]⟩ : Shape).BroadcastsInDim ⟨2, ![1, Co]⟩ (![1] : Fin 1 → Fin 2))
    (hb2 : (⟨2, ![1, Co]⟩ : Shape).BroadcastsInDim ⟨2, ![50000, Co]⟩ (![0, 1] : Fin 2 → Fin 2))
    (X : FVec Ideal ⟨2, ![50000, Ci]⟩ .f32) (scol dcol : IVec ⟨2, ![800000, 1]⟩ 32)
    (wv : FVec Ideal ⟨1, ![800000]⟩ .f32) (Wrel Wroot : FVec Ideal ⟨2, ![Co, Ci]⟩ .f32)
    (b : FVec Ideal ⟨1, ![Co]⟩ .f32) (n : Fin 50000) (j : Fin Co) :
    addf (addf
        (Host.dotGeneral (F := Ideal) (dot2 50000 Ci Co wfd) none
          (Host.scatterAdd (F := Ideal) (Rows.scatter2 50000 Ci 800000 wfs)
            (broadcastInDim ⟨2, ![50000, Ci]⟩ ![] hz (constant (F := Ideal) ⟨0, ![]⟩ .f32 0x00000000#32))
            dcol
            (mulf (Host.gather (Rows.gather2 50000 Ci 800000 wfg) X scol)
              (broadcastInDim ⟨2, ![800000, Ci]⟩ ![0, 1] hw2 (broadcastInDim ⟨2, ![800000, 1]⟩ ![0] hw1 wv))))
          (transpose ⟨2, ![Ci, Co]⟩ [1, 0] Wrel ht))
        (broadcastInDim ⟨2, ![50000, Co]⟩ ![0, 1] hb2 (broadcastInDim ⟨2, ![1, Co]⟩ ![1] hb1 b)))
      (Host.dotGeneral (F := Ideal) (dot2 50000 Ci Co wfd) none X (transpose ⟨2, ![Ci, Co]⟩ [1, 0] Wroot ht))
      (ix2 n j)
    = Spec.lin (Spec.agg scol dcol (fun e => wv (ix1 e)) (fun n k => X (ix2 n k))) (fun n k => X (ix2 n k))
        (fun j k => Wrel (ix2 j k)) (fun j k => Wroot (ix2 j k)) (fun j => b (ix1 j)) n j := by
  rw [addf_apply, addf_apply, dot2_apply, dot2_apply, bcastRow_apply]
  unfold Spec.lin
  refine congrArg₂ (· + ·) (congrArg (· + b (ix1 j)) (Finset.sum_congr rfl fun k _ => ?_))
    (Finset.sum_congr rfl fun k _ => ?_)
  · rw [Stage.transpose2_apply ht Wrel k j]
    refine congrArg (· * Wrel (ix2 j k)) ?_
    exact Stage.agg_apply _ wfs rfl scol dcol _ _ _ (fun n k => X (ix2 n k)) (fun e => wv (ix1 e))
      (fun i => Stage.zero_table hz i) (fun e k => Stage.gather_row _ wfg rfl X scol e k)
      (fun e k => Stage.bcast_edge hw1 hw2 wv e k) n k
  · rw [Stage.transpose2_apply ht Wroot k j]

/-- The mean of column `j`: the rows' sum started from the zero literal, over the literal 50000. -/
theorem mean_apply {C : Nat} (H : FVec Ideal ⟨2, ![50000, C]⟩ .f32)
    (hR : (⟨2, ![50000, C]⟩ : Shape).ReducesTo [0] ⟨1, ![C]⟩) (hu : 0 < (⟨0, ![]⟩ : Shape).numel)
    (hc : (⟨0, ![]⟩ : Shape).BroadcastsInDim ⟨1, ![C]⟩ (![] : Fin 0 → Fin 1)) (j : Fin C) :
    Host.divf (F := Ideal)
        (Host.reduceAdd (F := Ideal) H (constant (F := Ideal) ⟨0, ![]⟩ .f32 0x00000000#32) hR hu)
        (broadcastInDim ⟨1, ![C]⟩ ![] hc (constant (F := Ideal) ⟨0, ![]⟩ .f32 0x47435000#32)) (ix1 j)
      = Spec.mean (fun n j => H (ix2 n j)) j := by
  rw [hostDivf_apply, reduceRows_apply, bcastScalar_apply, constant_apply, constant_apply, Ideal.ofBits_zero_f32,
    zero_add]
  rfl

/-- The reciprocal square root of a column's mean square plus the offset literal. -/
theorem rstd_apply {C : Nat} (D : FVec Ideal ⟨2, ![50000, C]⟩ .f32)
    (hR : (⟨2, ![50000, C]⟩ : Shape).ReducesTo [0] ⟨1, ![C]⟩) (hu : 0 < (⟨0, ![]⟩ : Shape).numel)
    (hc : (⟨0, ![]⟩ : Shape).BroadcastsInDim ⟨1, ![C]⟩ (![] : Fin 0 → Fin 1)) (j : Fin C) :
    Host.rsqrt (F := Ideal) (addf
        (Host.divf (F := Ideal)
          (Host.reduceAdd (F := Ideal) (mulf D D) (constant (F := Ideal) ⟨0, ![]⟩ .f32 0x00000000#32) hR hu)
          (broadcastInDim ⟨1, ![C]⟩ ![] hc (constant (F := Ideal) ⟨0, ![]⟩ .f32 0x47435000#32)))
        (broadcastInDim ⟨1, ![C]⟩ ![] hc (constant (F := Ideal) ⟨0, ![]⟩ .f32 0x3727C5AC#32))) (ix1 j)
      = Ideal.rsqrt (Ideal.div (∑ n : Fin 50000, D (ix2 n j) * D (ix2 n j)) Spec.cN + Spec.cEps) := by
  rw [hostRsqrt_apply, addf_apply, hostDivf_apply, reduceRows_apply, bcastScalar_apply, bcastScalar_apply,
    constant_apply, constant_apply, constant_apply, Ideal.ofBits_zero_f32, zero_add]
  rfl

/-- The normalised entry `(n, j)`: the table `H` less the column means `mu`, times the reciprocal square root
    of the mean of the squares of `D` plus the offset, times the scale, plus the shift, under tanh — where
    `D` is itself `H` less the column means. -/
theorem bn_apply {C : Nat} (H D : FVec Ideal ⟨2, ![50000, C]⟩ .f32) (mu g be : FVec Ideal ⟨1, ![C]⟩ .f32)
    (hR : (⟨2, ![50000, C]⟩ : Shape).ReducesTo [0] ⟨1, ![C]⟩) (hu : 0 < (⟨0, ![]⟩ : Shape).numel)
    (hc : (⟨0, ![]⟩ : Shape).BroadcastsInDim ⟨1, ![C]⟩ (![] : Fin 0 → Fin 1))
    (hb1 : (⟨1, ![C]⟩ : Shape).BroadcastsInDim ⟨2, ![1, C]⟩ (![1] : Fin 1 → Fin 2))
    (hb2 : (⟨2, ![1, C]⟩ : Shape).BroadcastsInDim ⟨2, ![50000, C]⟩ (![0, 1] : Fin 2 → Fin 2))
    (Hf : Fin 50000 → Fin C → EReal) (muf : Fin C → EReal)
    (hH : ∀ n j, H (ix2 n j) = Hf n j) (hmu : ∀ j, mu (ix1 j) = muf j)
    (hD : ∀ n j, D (ix2 n j) = Hf n j - muf j) (n : Fin 50000) (j : Fin C) :
    Host.tanh (F := Ideal) (addf (mulf (mulf
          (subf H (broadcastInDim ⟨2, ![50000, C]⟩ ![0, 1] hb2 (broadcastInDim ⟨2, ![1, C]⟩ ![1] hb1 mu)))
          (broadcastInDim ⟨2, ![50000, C]⟩ ![0, 1] hb2 (broadcastInDim ⟨2, ![1, C]⟩ ![1] hb1
            (Host.rsqrt (F := Ideal) (addf
              (Host.divf (F := Ideal)
                (Host.reduceAdd (F := Ideal) (mulf D D) (constant (F := Ideal) ⟨0, ![]⟩ .f32 0x00000000#32) hR hu)
                (broadcastInDim ⟨1, ![C]⟩ ![] hc (constant (F := Ideal) ⟨0, ![]⟩ .f32 0x47435000#32)))
              (broadcastInDim ⟨1, ![C]⟩ ![] hc (constant (F := Ideal) ⟨0, ![]⟩ .f32 0x3727C5AC#32)))))))
          (broadcastInDim ⟨2, ![50000, C]⟩ ![0, 1] hb2 (broadcastInDim ⟨2, ![1, C]⟩ ![1] hb1 g)))
          (broadcastInDim ⟨2, ![50000, C]⟩ ![0, 1] hb2 (broadcastInDim ⟨2, ![1, C]⟩ ![1] hb1 be))) (ix2 n j)
      = Spec.bn Hf muf (fun j => Ideal.div (∑ n : Fin 50000, (Hf n j - muf j) * (Hf n j - muf j)) Spec.cN)
          (fun j => g (ix1 j)) (fun j => be (ix1 j)) n j := by
  rw [hostTanh_apply, addf_apply, mulf_apply, mulf_apply, subf_apply, bcastRow_apply, bcastRow_apply, bcastRow_apply,
    bcastRow_apply, rstd_apply, hH, hmu]
  unfold Spec.bn
  refine congrArg Ideal.tanh (congrArg (· + be (ix1 j)) (congrArg (· * g (ix1 j))
    (congrArg (fun v => (Hf n j - muf j) * Ideal.rsqrt (Ideal.div v Spec.cN + Spec.cEps)) ?_)))
  exact Finset.sum_congr rfl fun n' _ => by rw [hD]

end Cert.RefSide

end
-- ==== Proof.RefValue.lean ====
/-
  The reference program's result, entry by entry, is the three-layer graph convolution of the specification.

  The two index columns are kept as whole arrays, exactly as the program computes them from the edge list:
  the source words with 50000 added where they read negative, and the destination words, each as a column
  [800000, 1]. Every other stage is read at an index: layer 1 before normalisation is `lin (agg x) x`, its
  column means and variances are the sums over the 50000 rows divided by the literal 50000, the normalised
  table goes through tanh; the same for layer 2 at widths 128 → 256; the result is layer 3 at widths
  256 → 32 without normalisation.
-/
import proofs.«129947_j42545946034237_2_alg».proof.Proof.Gen.ReferenceIdeal.Run
import proofs.«129947_j42545946034237_2_alg».proof.Proof.RefOps

noncomputable section

open scoped BigOperators

namespace Cert.RefSide

open Idealize.ShloMosaic Idealize.ShloMosaic.ValueIdx Idealize.ShloMosaic.TcCoe Idealize.SL.Sem
open Idealize.ShloMosaic.StableHlo
open Cert.ReferenceIdeal Cert.ReferenceIdeal.Gen Cert.ReferenceIdeal.Value

/-! ## The index columns -/

/-- The source words: row 0 of the edge list, as a vector of 800000 words. -/
abbrev srcWords (ei : IVec S2x800000 32) : IVec S800000 32 :=
  shapeCast _ (extractStridedSlice S1x800000 ![0, 0] ei slices_S2x800000_S1x800000_0_0) shapeCasts_S1x800000_S800000

/-- The destination words: row 1 of the edge list. -/
abbrev dstWords (ei : IVec S2x800000 32) : IVec S800000 32 :=
  shapeCast _ (extractStridedSlice S1x800000 ![1, 0] ei slices_S2x800000_S1x800000_1_0) shapeCasts_S1x800000_S800000

/-- The column of source words the gathers read: a word that reads negative has 50000 added. -/
def scol (ei : IVec S2x800000 32) : IVec ⟨2, ![800000, 1]⟩ 32 :=
  broadcastInDim S800000x1 ![0] bcast_S800000_S800000x1_0
    (select (cmpi .slt (srcWords ei) (broadcastInDim S800000 ![] bcast_S_S800000 (constantI S_ 32 0#32)))
      (addi (srcWords ei) (broadcastInDim S800000 ![] bcast_S_S800000 (constantI S_ 32 50000#32))) (srcWords ei))

/-- The column of destination words the accumulating scatters read. -/
def dcol (ei : IVec S2x800000 32) : IVec ⟨2, ![800000, 1]⟩ 32 :=
  broadcastInDim S800000x1 ![0] bcast_S800000_S800000x1_0 (dstWords ei)

/-! ## The result's term -/

set_option maxRecDepth 8192 in
/-- The program's result as its run spells it, for any float values: layer 3 over layer 2's output. -/
def resultTerm {F : FTy → Type} [FloatOps F] (V0 : Valuation τ sig (Elt F)) :
    (⟨S50000x32, .f32⟩ : BufTy).Contents (Elt F) :=
  addf (addf (Host.dotGeneral dot_S50000x256_S256x32_S50000x32_1_0_0_1_n_n none (Host.scatterAdd scatter_S50000x256_S800000x1_S800000x256_1_0_0_1 (broadcastInDim S50000x256 ![] bcast_S_S50000x256 (constant S_ .f32 0x00000000#32)) (broadcastInDim S800000x1 ![0] bcast_S800000_S800000x1_0 (res_main_v3 V0)) (mulf (Host.gather gather_S50000x256_S800000x1_S800000x256_1_0_n_n_0_1_1256 (res_main_v97 V0) (broadcastInDim S800000x1 ![0] bcast_S800000_S800000x1_0 (select (cmpi .slt (res_main_v1 V0) (broadcastInDim S800000 ![] bcast_S_S800000 (constantI S_ 32 0#32))) (addi (res_main_v1 V0) (broadcastInDim S800000 ![] bcast_S_S800000 (constantI S_ 32 50000#32))) (res_main_v1 V0)))) (broadcastInDim S800000x256 ![0, 1] bcast_S800000x1_S800000x256_0_1 (broadcastInDim S800000x1 ![0] bcast_S800000_S800000x1_0 (V0 (Proc.devRef .tc main_arg2)))))) (transpose S256x32 [1, 0] (V0 (Proc.devRef .tc main_arg9)) transposes_S32x256_S256x32_1_0)) (broadcastInDim S50000x32 ![0, 1] bcast_S1x32_S50000x32_0_1 (broadcastInDim S1x32 ![1] bcast_S32_S1x32_1 (V0 (Proc.devRef .tc main_arg10))))) (Host.dotGeneral dot_S50000x256_S256x32_S50000x32_1_0_0_1_n_n none (res_main_v97 V0) (transpose S256x32 [1, 0] (V0 (Proc.devRef .tc main_arg11)) transposes_S32x256_S256x32_1_0))

/-! ## The specification at the arguments of a valuation -/

section Stages
variable (V0 : Valuation τ sig (Elt Ideal))

/-- The edge list. -/
abbrev ei : IVec S2x800000 32 := V0 (Proc.devRef .tc main_arg1)
/-- The edge weights. -/
abbrev wE : Fin 800000 → EReal := fun e => (V0 (Proc.devRef .tc main_arg2) : S800000.Idx → EReal) (ix1 e)
/-- The node features. -/
abbrev xT : Fin 50000 → Fin 64 → EReal := fun n k => (V0 (Proc.devRef .tc main_arg0) : S50000x64.Idx → EReal) (ix2 n k)
abbrev W1rel : Fin 128 → Fin 64 → EReal := fun j k => (V0 (Proc.devRef .tc main_arg3) : S128x64.Idx → EReal) (ix2 j k)
abbrev b1 : Fin 128 → EReal := fun j => (V0 (Proc.devRef .tc main_arg4) : S128.Idx → EReal) (ix1 j)
abbrev W1root : Fin 128 → Fin 64 → EReal := fun j k => (V0 (Proc.devRef .tc main_arg5) : S128x64.Idx → EReal) (ix2 j k)
abbrev W2rel : Fin 256 → Fin 128 → EReal := fun j k => (V0 (Proc.devRef .tc main_arg6) : S256x128.Idx → EReal) (ix2 j k)
abbrev b2 : Fin 256 → EReal := fun j => (V0 (Proc.devRef .tc main_arg7) : S256.Idx → EReal) (ix1 j)
abbrev W2root : Fin 256 → Fin 128 → EReal := fun j k => (V0 (Proc.devRef .tc main_arg8) : S256x128.Idx → EReal) (ix2 j k)
abbrev W3rel : Fin 32 → Fin 256 → EReal := fun j k => (V0 (Proc.devRef .tc main_arg9) : S32x256.Idx → EReal) (ix2 j k)
abbrev b3 : Fin 32 → EReal := fun j => (V0 (Proc.devRef .tc main_arg10) : S32.Idx → EReal) (ix1 j)
abbrev W3root : Fin 32 → Fin 256 → EReal := fun j k => (V0 (Proc.devRef .tc main_arg11) : S32x256.Idx → EReal) (ix2 j k)
abbrev g1 : Fin 128 → EReal := fun j => (V0 (Proc.devRef .tc main_arg12) : S128.Idx → EReal) (ix1 j)
abbrev be1 : Fin 128 → EReal := fun j => (V0 (Proc.devRef .tc main_arg13) : S128.Idx → EReal) (ix1 j)
abbrev g2 : Fin 256 → EReal := fun j => (V0 (Proc.devRef .tc main_arg14) : S256.Idx → EReal) (ix1 j)
abbrev be2 : Fin 256 → EReal := fun j => (V0 (Proc.devRef .tc main_arg15) : S256.Idx → EReal) (ix1 j)

/-- Layer 1 before normalisation, at the valuation's arguments. -/
def H1 : Fin 50000 → Fin 128 → EReal :=
  Spec.h1 (scol (ei V0)) (dcol (ei V0)) (wE V0) (xT V0) (W1rel V0) (W1root V0) (b1 V0)
/-- Layer 1's output. -/
def A1 : Fin 50000 → Fin 128 → EReal :=
  Spec.a1 (scol (ei V0)) (dcol (ei V0)) (wE V0) (xT V0) (W1rel V0) (W1root V0) (b1 V0) (g1 V0) (be1 V0)
/-- Layer 2 before normalisation. -/
def H2 : Fin 50000 → Fin 256 → EReal :=
  Spec.h2 (scol (ei V0)) (dcol (ei V0)) (wE V0) (W2rel V0) (W2root V0) (b2 V0) (A1 V0)
/-- Layer 2's output. -/
def A2 : Fin 50000 → Fin 256 → EReal :=
  Spec.a2 (scol (ei V0)) (dcol (ei V0)) (wE V0) (W2rel V0) (W2root V0) (b2 V0) (g2 V0) (be2 V0) (A1 V0)
/-- The result. -/
def Out : Fin 50000 → Fin 32 → EReal :=
  Spec.out (scol (ei V0)) (dcol (ei V0)) (wE V0) (A2 V0) (W3rel V0) (W3root V0) (b3 V0)

/-! ## The named stages read at an index -/

/-- Layer 1 before normalisation. -/
theorem v24_apply (n : Fin 50000) (j : Fin 128) : res_main_v24 V0 (ix2 n j) = H1 V0 n j := by
  unfold res_main_v24
  exact layer_apply (Ci := 64) (Co := 128) dot_S50000x64_S64x128_S50000x128_1_0_0_1_n_n_wf
    scatter_S50000x64_S800000x1_S800000x64_1_0_0_1_wf gather_S50000x64_S800000x1_S800000x64_1_0_n_n_0_1_164_wf
    bcast_S_S50000x64 bcast_S800000_S800000x1_0 bcast_S800000x1_S800000x64_0_1 transposes_S128x64_S64x128_1_0
    bcast_S128_S1x128_1 bcast_S1x128_S50000x128_0_1
    (V0 (Proc.devRef .tc main_arg0)) (scol (ei V0)) (dcol (ei V0)) (V0 (Proc.devRef .tc main_arg2))
    (V0 (Proc.devRef .tc main_arg3)) (V0 (Proc.devRef .tc main_arg5)) (V0 (Proc.devRef .tc main_arg4)) n j

/-- Layer 1's column means. -/
theorem v27_apply (j : Fin 128) : res_main_v27 V0 (ix1 j) = Spec.mean (H1 V0) j := by
  unfold res_main_v27
  refine (mean_apply (C := 128) (res_main_v24 V0) reducesTo_S50000x128_S128_d0 h_S_ bcast_S_S128 j).trans ?_
  exact congrArg (fun H => Spec.mean H j) (funext fun n => funext fun j' => v24_apply V0 n j')

/-- Layer 1 less its column means. -/
theorem v30_apply (n : Fin 50000) (j : Fin 128) :
    res_main_v30 V0 (ix2 n j) = H1 V0 n j - Spec.mean (H1 V0) j := by
  unfold res_main_v30
  refine (subf_apply _ _ _).trans ?_
  exact congrArg₂ (· - ·) (v24_apply V0 n j)
    ((bcastRow_apply (res_main_v27 V0) bcast_S128_S1x128_1 bcast_S1x128_S50000x128_0_1 n j).trans (v27_apply V0 j))

/-- Layer 1's output. -/
theorem v50_apply (n : Fin 50000) (j : Fin 128) : res_main_v50 V0 (ix2 n j) = A1 V0 n j := by
  unfold res_main_v50
  exact bn_apply (C := 128) (res_main_v24 V0) (res_main_v30 V0) (res_main_v27 V0)
    (V0 (Proc.devRef .tc main_arg12)) (V0 (Proc.devRef .tc main_arg13))
    reducesTo_S50000x128_S128_d0 h_S_ bcast_S_S128 bcast_S128_S1x128_1 bcast_S1x128_S50000x128_0_1
    (H1 V0) (Spec.mean (H1 V0)) (v24_apply V0) (v27_apply V0) (v30_apply V0) n j

/-- Layer 2 before normalisation. -/
theorem v71_apply (n : Fin 50000) (j : Fin 256) : res_main_v71 V0 (ix2 n j) = H2 V0 n j := by
  unfold res_main_v71
  refine (layer_apply (Ci := 128) (Co := 256) dot_S50000x128_S128x256_S50000x256_1_0_0_1_n_n_wf
    scatter_S50000x128_S800000x1_S800000x128_1_0_0_1_wf gather_S50000x128_S800000x1_S800000x128_1_0_n_n_0_1_1128_wf
    bcast_S_S50000x128 bcast_S800000_S800000x1_0 bcast_S800000x1_S800000x128_0_1 transposes_S256x128_S128x256_1_0
    bcast_S256_S1x256_1 bcast_S1x256_S50000x256_0_1
    (res_main_v50 V0) (scol (ei V0)) (dcol (ei V0)) (V0 (Proc.devRef .tc main_arg2))
    (V0 (Proc.devRef .tc main_arg6)) (V0 (Proc.devRef .tc main_arg8)) (V0 (Proc.devRef .tc main_arg7)) n j).trans ?_
  rw [show (fun n k => res_main_v50 V0 (ix2 n k)) = A1 V0 from funext fun n => funext fun k => v50_apply V0 n k]
  rfl

/-- Layer 2's column means. -/
theorem v74_apply (j : Fin 256) : res_main_v74 V0 (ix1 j) = Spec.mean (H2 V0) j := by
  unfold res_main_v74
  refine (mean_apply (C := 256) (res_main_v71 V0) reducesTo_S50000x256_S256_d0 h_S_ bcast_S_S256 j).trans ?_
  exact congrArg (fun H => Spec.mean H j) (funext fun n => funext fun j' => v71_apply V0 n j')

/-- Layer 2 less its column means. -/
theorem v77_apply (n : Fin 50000) (j : Fin 256) :
    res_main_v77 V0 (ix2 n j) = H2 V0 n j - Spec.mean (H2 V0) j := by
  unfold res_main_v77
  refine (subf_apply _ _ _).trans ?_
  exact congrArg₂ (· - ·) (v71_apply V0 n j)
    ((bcastRow_apply (res_main_v74 V0) bcast_S256_S1x256_1 bcast_S1x256_S50000x256_0_1 n j).trans (v74_apply V0 j))

/-- Layer 2's output. -/
theorem v97_apply (n : Fin 50000) (j : Fin 256) : res_main_v97 V0 (ix2 n j) = A2 V0 n j := by
  unfold res_main_v97
  exact bn_apply (C := 256) (res_main_v71 V0) (res_main_v77 V0) (res_main_v74 V0)
    (V0 (Proc.devRef .tc main_arg14)) (V0 (Proc.devRef .tc main_arg15))
    reducesTo_S50000x256_S256_d0 h_S_ bcast_S_S256 bcast_S256_S1x256_1 bcast_S1x256_S50000x256_0_1
    (H2 V0) (Spec.mean (H2 V0)) (v71_apply V0) (v74_apply V0) (v77_apply V0) n j

/-! ## The result -/

/-- The result, entry by entry. -/
theorem result_apply (n : Fin 50000) (j : Fin 32) : resultTerm V0 (ix2 n j) = Out V0 n j := by
  unfold resultTerm
  refine (layer_apply (Ci := 256) (Co := 32) dot_S50000x256_S256x32_S50000x32_1_0_0_1_n_n_wf
    scatter_S50000x256_S800000x1_S800000x256_1_0_0_1_wf gather_S50000x256_S800000x1_S800000x256_1_0_n_n_0_1_1256_wf
    bcast_S_S50000x256 bcast_S800000_S800000x1_0 bcast_S800000x1_S800000x256_0_1 transposes_S32x256_S256x32_1_0
    bcast_S32_S1x32_1 bcast_S1x32_S50000x32_0_1
    (res_main_v97 V0) (scol (ei V0)) (dcol (ei V0)) (V0 (Proc.devRef .tc main_arg2))
    (V0 (Proc.devRef .tc main_arg9)) (V0 (Proc.devRef .tc main_arg11)) (V0 (Proc.devRef .tc main_arg10)) n j).trans ?_
  rw [show (fun n k => res_main_v97 V0 (ix2 n k)) = A2 V0 from funext fun n => funext fun k => v97_apply V0 n k]
  rfl

/-- The result is the specification's reference result at the valuation's arguments. -/
theorem result_eq : resultTerm V0 = Spec.arr2 (Spec.refOut (scol (ei V0)) (dcol (ei V0)) (wE V0) (xT V0)
    (W1rel V0) (W1root V0) (b1 V0) (g1 V0) (be1 V0) (W2rel V0) (W2root V0) (b2 V0) (g2 V0) (be2 V0)
    (W3rel V0) (W3root V0) (b3 V0)) :=
  Spec.eq_arr2 _ _ fun n j => result_apply V0 n j

end Stages

/-! ## The run -/

set_option maxRecDepth 8192 in
/-- From any memory with zero counters, every weakly fair execution of the reference program ends with its
    result buffer holding the specification's reference result of the launch contents of the sixteen
    arguments — the index columns `scol` / `dcol` of the edge list, the edge weights, the node features,
    then per layer the two matrices, the bias and (layers 1 and 2) the scale and the shift — and with the
    arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118)
        = Spec.arr2 (Spec.refOut
            (scol (m ((c.tc : Thread nD τ).loc main_arg1)))
            (dcol (m ((c.tc : Thread nD τ).loc main_arg1)))
            (fun e => (m ((c.tc : Thread nD τ).loc main_arg2) : S800000.Idx → EReal) (ix1 e))
            (fun n k => (m ((c.tc : Thread nD τ).loc main_arg0) : S50000x64.Idx → EReal) (ix2 n k))
            (fun j k => (m ((c.tc : Thread nD τ).loc main_arg3) : S128x64.Idx → EReal) (ix2 j k))
            (fun j k => (m ((c.tc : Thread nD τ).loc main_arg5) : S128x64.Idx → EReal) (ix2 j k))
            (fun j => (m ((c.tc : Thread nD τ).loc main_arg4) : S128.Idx → EReal) (ix1 j))
            (fun j => (m ((c.tc : Thread nD τ).loc main_arg12) : S128.Idx → EReal) (ix1 j))
            (fun j => (m ((c.tc : Thread nD τ).loc main_arg13) : S128.Idx → EReal) (ix1 j))
            (fun j k => (m ((c.tc : Thread nD τ).loc main_arg6) : S256x128.Idx → EReal) (ix2 j k))
            (fun j k => (m ((c.tc : Thread nD τ).loc main_arg8) : S256x128.Idx → EReal) (ix2 j k))
            (fun j => (m ((c.tc : Thread nD τ).loc main_arg7) : S256.Idx → EReal) (ix1 j))
            (fun j => (m ((c.tc : Thread nD τ).loc main_arg14) : S256.Idx → EReal) (ix1 j))
            (fun j => (m ((c.tc : Thread nD τ).loc main_arg15) : S256.Idx → EReal) (ix1 j))
            (fun j k => (m ((c.tc : Thread nD τ).loc main_arg9) : S32x256.Idx → EReal) (ix2 j k))
            (fun j k => (m ((c.tc : Thread nD τ).loc main_arg11) : S32x256.Idx → EReal) (ix2 j k))
            (fun j => (m ((c.tc : Thread nD τ).loc main_arg10) : S32.Idx → EReal) (ix1 j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (result_eq (launchContents m c)), (h c).2⟩)
    (Cert.ReferenceIdeal.Value.run (F := Ideal) m ρ)

end Cert.RefSide

end
-- ==== Proof.KRun.lean ====
/-
  The idealized kernel's run with its result named. Every weakly fair execution of the five regions and the
  host operations around them terminates without a fault; the result buffer then holds what the last stretch
  of host operations computes from the buffers the fifth region leaves, and the sixteen argument arrays are
  as launched. The buffer contents at the eleven boundaries between stretches and regions are a fold from the
  launch memory; the later modules read that fold back, stage by stage.
-/
import proofs.«129947_j42545946034237_2_alg».proof.Proof.Gen.KernelIdeal.Frame

set_option maxRecDepth 16384

noncomputable section

namespace Cert.KSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KSide

end
-- ==== Proof.KStage0.lean ====
/-
  The idealized kernel's first stretch of host operations, read entry by entry.

  The stretch slices the two rows of the edge list into a vector of source words and a vector of destination
  words, gathers the node table at the sources, scales each gathered row by its edge weight and accumulates
  the rows at the destinations: the aggregated table is `Spec.agg` of the node table. It also transposes the
  two weight matrices of the first layer and makes the bias a row.
-/
import proofs.«129947_j42545946034237_2_alg».proof.Proof.Gen.KernelIdeal.Frame
import proofs.«129947_j42545946034237_2_alg».proof.Proof.LibStage
import Idealize.ShloMosaic.Lib.StableHlo.Run

noncomputable section

namespace Cert.KSide

open Cert.KernelIdeal Cert.KernelIdeal.Gen
open Idealize.ShloMosaic Idealize.ShloMosaic.TcCoe Idealize.SL.Sem Idealize.ShloMosaic.StableHlo
open Idealize.ShloMosaic.ValueIdx

/-- A rank-2 array as a function of its two coordinates. -/
abbrev tab2 {a b : Nat} (A : (⟨2, ![a, b]⟩ : Shape).Idx → EReal) : Fin a → Fin b → EReal := fun p q => A (ix2 p q)
/-- A rank-1 array as a function of its coordinate. -/
abbrev vec1 {a : Nat} (v : (⟨1, ![a]⟩ : Shape).Idx → EReal) : Fin a → EReal := fun p => v (ix1 p)
/-- A one-row array as a function of its column. -/
abbrev row1 {a : Nat} (v : (⟨2, ![1, a]⟩ : Shape).Idx → EReal) : Fin a → EReal := fun p => v (ix2 (0 : Fin 1) p)

variable (m : (ℓ : Loc nD τ sig) → Buf (Elt Ideal) ℓ) (ρ : Dev nD → PrngReg) (c : Dev nD)

/-- The source words of the edges, as the first stretch leaves them. -/
abbrev srcW : IVec S800000 32 := W1 m ρ c (Proc.devRef .tc main_v1)
/-- The destination words of the edges, as the first stretch leaves them. -/
abbrev dstW : IVec S800000 32 := W1 m ρ c (Proc.devRef .tc main_v3)

/-- The column of start words every gather reads: a negative source word is moved up by the number of nodes. -/
def scol : IVec S800000x1 32 :=
  broadcastInDim S800000x1 ![0] bcast_S800000_S800000x1_0
    (select (cmpi .slt (srcW m ρ c) (broadcastInDim S800000 ![] bcast_S_S800000 (constantI S_ 32 0#32)))
      (addi (srcW m ρ c) (broadcastInDim S800000 ![] bcast_S_S800000 (constantI S_ 32 50000#32))) (srcW m ρ c))

/-- The column of destination words every scatter accumulates at. -/
def dcol : IVec S800000x1 32 := broadcastInDim S800000x1 ![0] bcast_S800000_S800000x1_0 (dstW m ρ c)

/-- The edge weights. -/
abbrev wE : Fin 800000 → EReal := vec1 (m ((c : Thread nD τ).loc main_arg2) : S800000.Idx → EReal)
/-- The node table. -/
abbrev xT : Fin 50000 → Fin 64 → EReal := tab2 (m ((c : Thread nD τ).loc main_arg0) : S50000x64.Idx → EReal)

set_option maxHeartbeats 4000000 in
set_option maxRecDepth 8192 in
/-- The aggregated table as the operations' term. -/
theorem W1_v16_term : W1 m ρ c (Proc.devRef .tc main_v16)
    = (Host.scatterAdd (F := Ideal) scatter_S50000x64_S800000x1_S800000x64_1_0_0_1
        (broadcastInDim S50000x64 ![] bcast_S_S50000x64 (constant (F := Ideal) S_ .f32 0x00000000#32)) (dcol m ρ c)
        (mulf (F := Ideal) (Host.gather gather_S50000x64_S800000x1_S800000x64_1_0_n_n_0_1_164
            (m ((c : Thread nD τ).loc main_arg0) : FVec Ideal S50000x64 .f32) (scol m ρ c))
          (broadcastInDim S800000x64 ![0, 1] bcast_S800000x1_S800000x64_0_1
            (broadcastInDim S800000x1 ![0] bcast_S800000_S800000x1_0
              (m ((c : Thread nD τ).loc main_arg2) : FVec Ideal S800000 .f32)))) : FVec Ideal S50000x64 .f32) := by
  unfold scol dcol
  after_results_simp <;> rfl

/-- The aggregated table is `Spec.agg` of the node table. -/
theorem W1_v16 : (W1 m ρ c (Proc.devRef .tc main_v16) : S50000x64.Idx → EReal)
    = Spec.arr2 (Spec.agg (scol m ρ c) (dcol m ρ c) (wE m c) (xT m c)) := by
  refine Spec.eq_arr2 _ _ fun n k => ?_
  rw [W1_v16_term]
  exact Stage.agg_apply _ scatter_S50000x64_S800000x1_S800000x64_1_0_0_1.wf rfl (scol m ρ c) (dcol m ρ c) _ _ _ (xT m c) (wE m c)
    (fun i => Stage.zero_table _ i)
    (fun e k => Stage.gather_row _ gather_S50000x64_S800000x1_S800000x64_1_0_n_n_0_1_164.wf rfl _ _ e k)
    (fun e k => Stage.bcast_edge _ _ _ e k) n k

set_option maxHeartbeats 4000000 in
set_option maxRecDepth 8192 in
/-- The first weight matrix, transposed. -/
theorem W1_v17 (k : Fin 64) (j : Fin 128) : (W1 m ρ c (Proc.devRef .tc main_v17) : S64x128.Idx → EReal) (ix2 k j)
    = (m ((c : Thread nD τ).loc main_arg3) : S128x64.Idx → EReal) (ix2 j k) := by
  have e : W1 m ρ c (Proc.devRef .tc main_v17)
      = transpose S64x128 [1, 0] (m ((c : Thread nD τ).loc main_arg3) : FVec Ideal S128x64 .f32) transposes_S128x64_S64x128_1_0 := by
    after_results_simp <;> rfl
  rw [e]; exact Stage.transpose2_apply _ _ k j

set_option maxHeartbeats 4000000 in
set_option maxRecDepth 8192 in
/-- The second weight matrix, transposed. -/
theorem W1_v18 (k : Fin 64) (j : Fin 128) : (W1 m ρ c (Proc.devRef .tc main_v18) : S64x128.Idx → EReal) (ix2 k j)
    = (m ((c : Thread nD τ).loc main_arg5) : S128x64.Idx → EReal) (ix2 j k) := by
  have e : W1 m ρ c (Proc.devRef .tc main_v18)
      = transpose S64x128 [1, 0] (m ((c : Thread nD τ).loc main_arg5) : FVec Ideal S128x64 .f32) transposes_S128x64_S64x128_1_0 := by
    after_results_simp <;> rfl
  rw [e]; exact Stage.transpose2_apply _ _ k j

set_option maxHeartbeats 4000000 in
set_option maxRecDepth 8192 in
/-- The bias as a row. -/
theorem W1_v19 (j : Fin 128) : (W1 m ρ c (Proc.devRef .tc main_v19) : S1x128.Idx → EReal) (ix2 (0 : Fin 1) j)
    = (m ((c : Thread nD τ).loc main_arg4) : S128.Idx → EReal) (ix1 j) := by
  have e : W1 m ρ c (Proc.devRef .tc main_v19)
      = shapeCast S1x128 (m ((c : Thread nD τ).loc main_arg4) : FVec Ideal S128 .f32) shapeCasts_S128_S1x128 := by
    after_results_simp <;> rfl
  rw [e]; exact Stage.row_of_vec _ _ j

end Cert.KSide

end
-- ==== Proof.KWalk.lean ====
/-
  Walking a buffer's contents back through the boundaries of the kernel's main function.

  The contents at the twelve boundaries are a fold: a host stretch rewrites only the buffers its operations
  write, and a region rewrites only its own arrays. So a buffer that a host stretch does not write holds after
  it what it held before, and a buffer that is none of a region's arrays holds at the region's exit what it
  held at its entry. Chaining such steps gives, for each buffer a later segment reads, the earlier boundary
  (or the launch memory) whose contents it still holds.
-/
import proofs.«129947_j42545946034237_2_alg».proof.Proof.Gen.KernelIdeal.Frame
import Idealize.ShloMosaic.PureOps.Ideal

set_option maxRecDepth 16384

noncomputable section

namespace Cert.KSide.Walk

open Idealize.ShloMosaic Idealize.ShloMosaic.TcCoe Idealize.SL.Sem
open Cert.KernelIdeal Cert.KernelIdeal.Gen

/-- A host stretch leaves a buffer none of its operations writes as it was: the goal is
    `after ops W b = W b`; list the buffers the operations write and check `b` is none of them. -/
macro "host_keep " h:ident : tactic => `(tactic|
  (refine StableHlo.after_of_forall_not_mem _ _ (List.forall_iff_forall_mem.mp ?_)
   simp only [$h:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-! ### (A) An argument array, where a later segment reads it, is as launched -/

/-- The node features at the first region's entry. -/
theorem W1_arg0 : W1 m ρ c (Proc.devRef .tc main_arg0) = m ((c : Thread nD τ).loc main_arg0) :=
  calc W1 m ρ c (Proc.devRef .tc main_arg0)
    _ = W0 m ρ c (Proc.devRef .tc main_arg0) := (by host_keep hostOps0)
    _ = m ((c : Thread nD τ).loc main_arg0) := rfl

/-- The first normalisation's scale at the first region's exit. -/
theorem W2_arg12 : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := (by host_keep hostOps0)
    _ = m ((c : Thread nD τ).loc main_arg12) := rfl

/-- The first normalisation's shift at the first region's exit. -/
theorem W2_arg13 : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := (by host_keep hostOps0)
    _ = m ((c : Thread nD τ).loc main_arg13) := rfl

/-- The edge weights at the second region's exit. -/
theorem W4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (by host_keep hostOps1)
    _ = W1 m ρ c (Proc.devRef .tc main_arg2) := W2_of_ne m ρ c main_arg2 (by decide)
    _ = W0 m ρ c (Proc.devRef .tc main_arg2) := (by host_keep hostOps0)
    _ = m ((c : Thread nD τ).loc main_arg2) := rfl

/-- The second layer's aggregation matrix at the second region's exit. -/
theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (by host_keep hostOps1)
    _ = W1 m ρ c (Proc.devRef .tc main_arg6) := W2_of_ne m ρ c main_arg6 (by decide)
    _ = W0 m ρ c (Proc.devRef .tc main_arg6) := (by host_keep hostOps0)
    _ = m ((c : Thread nD τ).loc main_arg6) := rfl

/-- The second layer's bias at the second region's exit. -/
theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := (by host_keep hostOps1)
    _ = W1 m ρ c (Proc.devRef .tc main_arg7) := W2_of_ne m ρ c main_arg7 (by decide)
    _ = W0 m ρ c (Proc.devRef .tc main_arg7) := (by host_keep hostOps0)
    _ = m ((c : Thread nD τ).loc main_arg7) := rfl

/-- The second layer's root matrix at the second region's exit. -/
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := (by host_keep hostOps1)
    _ = W1 m ρ c (Proc.devRef .tc main_arg8) := W2_of_ne m ρ c main_arg8 (by decide)
    _ = W0 m ρ c (Proc.devRef .tc main_arg8) := (by host_keep hostOps0)
    _ = m ((c : Thread nD τ).loc main_arg8) := rfl

/-- The second normalisation's scale at the third region's exit. -/
theorem W6_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := (by host_keep hostOps2)
    _ = W3 m ρ c (Proc.devRef .tc main_arg14) := W4_of_ne m ρ c main_arg14 (by decide)
    _ = W2 m ρ c (Proc.devRef .tc main_arg14) := (by host_keep hostOps1)
    _ = W1 m ρ c (Proc.devRef .tc main_arg14) := W2_of_ne m ρ c main_arg14 (by decide)
    _ = W0 m ρ c (Proc.devRef .tc main_arg14) := (by host_keep hostOps0)
    _ = m ((c : Thread nD τ).loc main_arg14) := rfl

/-- The second normalisation's shift at the third region's exit. -/
theorem W6_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := (by host_keep hostOps2)
    _ = W3 m ρ c (Proc.devRef .tc main_arg15) := W4_of_ne m ρ c main_arg15 (by decide)
    _ = W2 m ρ c (Proc.devRef .tc main_arg15) := (by host_keep hostOps1)
    _ = W1 m ρ c (Proc.devRef .tc main_arg15) := W2_of_ne m ρ c main_arg15 (by decide)
    _ = W0 m ρ c (Proc.devRef .tc main_arg15) := (by host_keep hostOps0)
    _ = m ((c : Thread nD τ).loc main_arg15) := rfl

/-- The last layer's aggregation matrix at the fourth region's exit. -/
theorem W8_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := (by host_keep hostOps3)
    _ = W5 m ρ c (Proc.devRef .tc main_arg9) := W6_of_ne m ρ c main_arg9 (by decide)
    _ = W4 m ρ c (Proc.devRef .tc main_arg9) := (by host_keep hostOps2)
    _ = W3 m ρ c (Proc.devRef .tc main_arg9) := W4_of_ne m ρ c main_arg9 (by decide)
    _ = W2 m ρ c (Proc.devRef .tc main_arg9) := (by host_keep hostOps1)
    _ = W1 m ρ c (Proc.devRef .tc main_arg9) := W2_of_ne m ρ c main_arg9 (by decide)
    _ = W0 m ρ c (Proc.devRef .tc main_arg9) := (by host_keep hostOps0)
    _ = m ((c : Thread nD τ).loc main_arg9) := rfl

/-- The last layer's bias at the fourth region's exit. -/
theorem W8_arg10 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := (by host_keep hostOps3)
    _ = W5 m ρ c (Proc.devRef .tc main_arg10) := W6_of_ne m ρ c main_arg10 (by decide)
    _ = W4 m ρ c (Proc.devRef .tc main_arg10) := (by host_keep hostOps2)
    _ = W3 m ρ c (Proc.devRef .tc main_arg10) := W4_of_ne m ρ c main_arg10 (by decide)
    _ = W2 m ρ c (Proc.devRef .tc main_arg10) := (by host_keep hostOps1)
    _ = W1 m ρ c (Proc.devRef .tc main_arg10) := W2_of_ne m ρ c main_arg10 (by decide)
    _ = W0 m ρ c (Proc.devRef .tc main_arg10) := (by host_keep hostOps0)
    _ = m ((c : Thread nD τ).loc main_arg10) := rfl

/-- The last layer's root matrix at the fourth region's exit. -/
theorem W8_arg11 : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := (by host_keep hostOps3)
    _ = W5 m ρ c (Proc.devRef .tc main_arg11) := W6_of_ne m ρ c main_arg11 (by decide)
    _ = W4 m ρ c (Proc.devRef .tc main_arg11) := (by host_keep hostOps2)
    _ = W3 m ρ c (Proc.devRef .tc main_arg11) := W4_of_ne m ρ c main_arg11 (by decide)
    _ = W2 m ρ c (Proc.devRef .tc main_arg11) := (by host_keep hostOps1)
    _ = W1 m ρ c (Proc.devRef .tc main_arg11) := W2_of_ne m ρ c main_arg11 (by decide)
    _ = W0 m ρ c (Proc.devRef .tc main_arg11) := (by host_keep hostOps0)
    _ = m ((c : Thread nD τ).loc main_arg11) := rfl

/-- The edge weights at the fifth region's exit: six more steps back to the second region's exit. -/
theorem W10_arg2 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := (by host_keep hostOps4)
    _ = W7 m ρ c (Proc.devRef .tc main_arg2) := W8_of_ne m ρ c main_arg2 (by decide)
    _ = W6 m ρ c (Proc.devRef .tc main_arg2) := (by host_keep hostOps3)
    _ = W5 m ρ c (Proc.devRef .tc main_arg2) := W6_of_ne m ρ c main_arg2 (by decide)
    _ = W4 m ρ c (Proc.devRef .tc main_arg2) := (by host_keep hostOps2)
    _ = m ((c : Thread nD τ).loc main_arg2) := W4_arg2 m ρ c

/-! ### (B) The two index vectors the first host stretch computes are not written again -/

/-- `main_v1` at the second region's exit is as the first host stretch left it. -/
theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := (by host_keep hostOps1)
    _ = W1 m ρ c (Proc.devRef .tc main_v1) := W2_of_ne m ρ c main_v1 (by decide)

/-- `main_v1` at the fifth region's exit is as the first host stretch left it. -/
theorem W10_v1 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := (by host_keep hostOps4)
    _ = W7 m ρ c (Proc.devRef .tc main_v1) := W8_of_ne m ρ c main_v1 (by decide)
    _ = W6 m ρ c (Proc.devRef .tc main_v1) := (by host_keep hostOps3)
    _ = W5 m ρ c (Proc.devRef .tc main_v1) := W6_of_ne m ρ c main_v1 (by decide)
    _ = W4 m ρ c (Proc.devRef .tc main_v1) := (by host_keep hostOps2)
    _ = W1 m ρ c (Proc.devRef .tc main_v1) := W4_v1 m ρ c

/-- `main_v3` at the second region's exit is as the first host stretch left it. -/
theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := (by host_keep hostOps1)
    _ = W1 m ρ c (Proc.devRef .tc main_v3) := W2_of_ne m ρ c main_v3 (by decide)

/-- `main_v3` at the fifth region's exit is as the first host stretch left it. -/
theorem W10_v3 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := (by host_keep hostOps4)
    _ = W7 m ρ c (Proc.devRef .tc main_v3) := W8_of_ne m ρ c main_v3 (by decide)
    _ = W6 m ρ c (Proc.devRef .tc main_v3) := (by host_keep hostOps3)
    _ = W5 m ρ c (Proc.devRef .tc main_v3) := W6_of_ne m ρ c main_v3 (by decide)
    _ = W4 m ρ c (Proc.devRef .tc main_v3) := (by host_keep hostOps2)
    _ = W1 m ρ c (Proc.devRef .tc main_v3) := W4_v3 m ρ c

/-! ### (C) A region's output is not written by the host stretch before the next region -/

/-- `main_v20_0` at the next region's entry is what the region before left. -/
theorem W3_v20_0 : W3 m ρ c (Proc.devRef .tc main_v20_0) = W2 m ρ c (Proc.devRef .tc main_v20_0) := by
  host_keep hostOps1

/-- `main_v29` at the next region's entry is what the region before left. -/
theorem W5_v29 : W5 m ρ c (Proc.devRef .tc main_v29) = W4 m ρ c (Proc.devRef .tc main_v29) := by
  host_keep hostOps2

/-- `main_v47_0` at the next region's entry is what the region before left. -/
theorem W7_v47_0 : W7 m ρ c (Proc.devRef .tc main_v47_0) = W6 m ρ c (Proc.devRef .tc main_v47_0) := by
  host_keep hostOps3

/-- `main_v56` at the next region's entry is what the region before left. -/
theorem W9_v56 : W9 m ρ c (Proc.devRef .tc main_v56) = W8 m ρ c (Proc.devRef .tc main_v56) := by
  host_keep hostOps4

end Cert.KSide.Walk

end
-- ==== Proof.KRegion0.lean ====
/-
  The first graph-convolution layer's kernel region, read as mathematics.

  The region walks the 50000 nodes in 25 blocks of 2000 rows. At a block it forms the layer before normalisation,
  `A · Wrelᵀ + b + X · Wrootᵀ`, of the block's rows of the aggregated table `A` and the table `X` (the two weight
  matrices are held transposed, the bias as one row; a change of float format is the identity on the extended reals and
  a matrix product into a zero accumulator is the plain sum of products), writes that block of the result, and adds
  the block's column sums, and the column sums of its squares, into two one-row outputs which it zeroes at the first
  block and carries from block to block.

  So after the region the first output is the layer at every row; and, since the 25 blocks of 2000 rows are exactly the
  50000 rows, the two one-row outputs are its column sums and the column sums of its squares over all rows. Only
  commutativity and associativity of addition on the extended reals are used: no finiteness.
-/
import proofs.«129947_j42545946034237_2_alg».proof.Proof.Gen.KernelIdeal.Frame
import proofs.«129947_j42545946034237_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KSide

/-! ## A plain matrix product into the zero accumulator, read at an entry -/

theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A sum over the rows, read at a column -/

theorem rowsum_apply {m n : ℕ} {φ : FTy} (src : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (j : Fin n) :
    multiReduction .add [0] ⟨1, ![n]⟩ src acc h hφ hacc (ix1 j) = ∑ b : Fin m, src (ix2 b j) := by
  refine (Ideal.multiReduction_add_single src acc h hφ hacc (ix1 j)).trans ?_
  refine Finset.sum_congr rfl fun b _ => congrArg src ?_
  funext ax; apply Fin.ext
  match ax with
  | ⟨0, _⟩ => rfl
  | ⟨1, _⟩ => rfl

/-! ## A sum over `N = T * B` rows, block by block -/

theorem block_row_lt {T B t r : ℕ} (ht : t < T) (hr : r < B) : B * t + r < T * B := by
  have h1 : B * (t + 1) = B * t + B := Nat.mul_succ B t
  have h2 : B * (t + 1) ≤ B * T := Nat.mul_le_mul_left B ht
  have h3 : T * B = B * T := Nat.mul_comm T B
  omega

/-- The sum of `f` over the rows of block `t` (rows `B·t … B·t + B − 1`); zero past the last block. -/
def blockSum {M : Type} [AddCommMonoid M] {N : ℕ} (T B : ℕ) (hN : T * B = N) (f : Fin N → M) (t : ℕ) : M :=
  if ht : t < T then ∑ r : Fin B, f ⟨B * t + r.val, hN ▸ block_row_lt ht r.isLt⟩ else 0

theorem blockSum_of_lt {M : Type} [AddCommMonoid M] {N : ℕ} (T B : ℕ) (hN : T * B = N) (f : Fin N → M) (t : ℕ)
    (ht : t < T) : blockSum T B hN f t = ∑ r : Fin B, f ⟨B * t + r.val, hN ▸ block_row_lt ht r.isLt⟩ :=
  dif_pos ht

/-- All the blocks together are all the rows. -/
theorem sum_range_blockSum {M : Type} [AddCommMonoid M] {N : ℕ} (T B : ℕ) (hN : T * B = N) (f : Fin N → M) :
    ∑ t ∈ Finset.range T, blockSum T B hN f t = ∑ n : Fin N, f n := by
  subst hN
  rw [Finset.sum_range fun t => blockSum T B rfl f t]
  rw [← Equiv.sum_comp (finProdFinEquiv (m := T) (n := B)) f, Fintype.sum_prod_type]
  refine Finset.sum_congr rfl fun t _ => ?_
  rw [blockSum_of_lt T B rfl f t.val t.isLt]
  refine Finset.sum_congr rfl fun r _ => congrArg f (Fin.ext ?_)
  show B * t.val + r.val = r.val + B * t.val
  omega

end Cert.KSide

namespace Cert.KSide.R0

theorem hz : (![0, 0] : Fin 2 → Nat) = fun _ => 0 := funext fun a => by fin_cases a <;> rfl

/-! ## What each case leaves in each output's staging buffer, as the body's arithmetic of the blocks -/

section Pieces
variable {F : FTy → Type} [FloatOps F]

theorem piece_B_5 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x64 .f32) (x1 : Vec F S2000x64 .f32) (x2 : Vec F S64x128 .f32) (x3 : Vec F S64x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

theorem piece_B_6 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x64 .f32) (x1 : Vec F S2000x64 .f32) (x2 : Vec F S64x128 .f32) (x3 : Vec F S64x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

theorem piece_B_7 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x64 .f32) (x1 : Vec F S2000x64 .f32) (x2 : Vec F S64x128 .f32) (x3 : Vec F S64x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

theorem piece_A_5 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x64 .f32) (x1 : Vec F S2000x64 .f32) (x2 : Vec F S64x128 .f32) (x3 : Vec F S64x128 .f32) (x4 : Vec F S1x128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

theorem piece_A_6 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x64 .f32) (x1 : Vec F S2000x64 .f32) (x2 : Vec F S64x128 .f32) (x3 : Vec F S64x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

theorem piece_A_7 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x64 .f32) (x1 : Vec F S2000x64 .f32) (x2 : Vec F S64x128 .f32) (x3 : Vec F S64x128 .f32) (x4 : Vec F S1x128 .f32) :
    out0_A_7 c i a1 h1 a2 h2 a3 h3 a4 h4 a5 h5 a6 h6 a7 h7 a8 h8 hc x0 x1 x2 x3 x4 = k0_pay1 (k0_pay6 k0_pay3) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S2000x64) hz, View.ld_unit_zero (S := S64x128) hz, View.ld_unit_zero (S := S1x128) hz]

end Pieces

/-! ## The body's arithmetic read at an entry, over the extended reals -/

section Payloads
variable (x0 x1 : Vec Ideal S2000x64 .f32) (x2 x3 : Vec Ideal S64x128 .f32) (x4 : Vec Ideal S1x128 .f32)

theorem pay4_apply (b : Fin 2000) (j : Fin 128) :
    k0_pay4 (F := Ideal) x0 x1 x2 x3 x4 (ix2 b j)
      = ((∑ k : Fin 64, x0 (ix2 b k) * x2 (ix2 k j)) + x4 (ix2 (0 : Fin 1) j))
        + ∑ k : Fin 64, x1 (ix2 b k) * x3 (ix2 k j) := by
  unfold k0_pay4
  (try dsimp only)
  refine (addf_apply _ _ _).trans (congrArg₂ (· + ·) ((addf_apply _ _ _).trans (congrArg₂ (· + ·) ?_ ?_)) ?_)
  · rw [shapeCast_self x0, shapeCast_self x2]
    exact matmul_plain_zero_apply dot_S2000x64_S64x128_S2000x128_1_0_0_1_n_n_wf none x0 x2 b j
  · exact (broadcastTo_1b_ab_apply _ _ b j).trans (congrFun (shapeCast_self x4 _) _)
  · rw [shapeCast_self x3]
    exact matmul_plain_zero_apply dot_S2000x64_S64x128_S2000x128_1_0_0_1_n_n_wf none x1 x3 b j

theorem pay5_apply (s : Vec Ideal S1x128 .f32) (j : Fin 128) :
    k0_pay5 (F := Ideal) x0 x1 x2 x3 x4 s (ix2 (0 : Fin 1) j)
      = s (ix2 (0 : Fin 1) j) + ∑ b : Fin 2000, k0_pay4 (F := Ideal) x0 x1 x2 x3 x4 (ix2 b j) := by
  unfold k0_pay5
  (try dsimp only)
  refine (addf_apply _ _ _).trans (congrArg₂ (· + ·) (congrFun (shapeCast_self s _) _) ?_)
  refine (shapeCast_a_1a_apply _ _ (0 : Fin 1) j).trans ?_
  exact rowsum_apply _ _ _ _ _ j

theorem pay7_apply (j : Fin 128) :
    k0_pay7 (F := Ideal) x0 x1 x2 x3 x4 (ix1 j)
      = ∑ b : Fin 2000, k0_pay4 (F := Ideal) x0 x1 x2 x3 x4 (ix2 b j) * k0_pay4 (F := Ideal) x0 x1 x2 x3 x4 (ix2 b j) := by
  unfold k0_pay7
  (try dsimp only)
  exact (rowsum_apply _ _ _ _ _ j).trans (Finset.sum_congr rfl fun b _ => mulf_apply _ _ _)

theorem pay1_apply (v29 : FVec Ideal S1x128 .f32) (v31 : FVec Ideal S128 .f32) (j : Fin 128) :
    k0_pay1 (F := Ideal) v29 v31 (ix2 (0 : Fin 1) j) = v29 (ix2 (0 : Fin 1) j) + v31 (ix1 j) := by
  unfold k0_pay1
  (try dsimp only)
  exact (addf_apply _ _ _).trans (congrArg₂ (· + ·) rfl (shapeCast_a_1a_apply _ _ (0 : Fin 1) j))

theorem pay6_eq (v : Vec Ideal S1x128 .f32) : k0_pay6 (F := Ideal) v = v := by
  unfold k0_pay6
  exact shapeCast_self v _

theorem pay2_apply (i : S1x128.Idx) : k0_pay2 (F := Ideal) i = 0 := Ideal.ofBits_zero_f32
theorem pay3_apply (i : S1x128.Idx) : k0_pay3 (F := Ideal) i = 0 := Ideal.ofBits_zero_f32

end Payloads

/-! ## The region's arrays, entry by entry, and where a block's entry sits in its array -/

section Region
variable (V : (c : Dev nD) → (b : Ref sig .tc) → Buf (Elt Ideal) ((c : Thread nD τ).loc b)) (c : Dev nD)

/-- The aggregated table the region is entered with. -/
def aggE : Fin 50000 → Fin 64 → EReal := fun n k => (V c (Pipeline.arrRef spec0 0) : S50000x64.Idx → EReal) (ix2 n k)
/-- The table itself. -/
def tabE : Fin 50000 → Fin 64 → EReal := fun n k => (V c (Pipeline.arrRef spec0 1) : S50000x64.Idx → EReal) (ix2 n k)
/-- The first weight matrix; the region holds its transpose. -/
def wrelE : Fin 128 → Fin 64 → EReal := fun j k => (V c (Pipeline.arrRef spec0 2) : S64x128.Idx → EReal) (ix2 k j)
/-- The second weight matrix; the region holds its transpose. -/
def wrootE : Fin 128 → Fin 64 → EReal := fun j k => (V c (Pipeline.arrRef spec0 3) : S64x128.Idx → EReal) (ix2 k j)
/-- The bias, held as one row. -/
def biasE : Fin 128 → EReal := fun j => (V c (Pipeline.arrRef spec0 4) : S1x128.Idx → EReal) (ix2 (0 : Fin 1) j)
/-- The layer before normalisation, of those arrays. -/
def linE : Fin 50000 → Fin 128 → EReal := Cert.Spec.lin (aggE V c) (tabE V c) (wrelE V c) (wrootE V c) (biasE V c)

/-- The index maps over the grid: the row-blocked windows sit at block `t` of their first axis, the small operands and the
    two column-sum outputs never move. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem row_lt (t : Fin cfg0.N) (b : Fin 2000) : 2000 * t.val + b.val < 50000 := by
  have hN : t.val < 25 := lt_of_lt_of_eq t.isLt (show cfg0.N = 25 from N_0)
  have := b.isLt
  omega

/-- Row `b` of block `t` is row `2000·t + b`. -/
def rowAt (t : Fin cfg0.N) (b : Fin 2000) : Fin 50000 := ⟨2000 * t.val + b.val, row_lt t b⟩

theorem emb0 (t : Fin cfg0.N) (b : Fin 2000) (k : Fin 64) :
    (((cfg0.win 0).blk t).view.emb (ix2 b k) : S50000x64.Idx) = ix2 (rowAt t b) k := by
  obtain ⟨⟨e0, e1⟩, -⟩ := idx0 t
  funext a; apply Fin.ext
  match a with
  | ⟨0, _⟩ => show win0_0.index t (0 : Fin 2) * 2000 + 1 * b.val = 2000 * t.val + b.val; rw [e0]; omega
  | ⟨1, _⟩ => show win0_0.index t (1 : Fin 2) * 64 + 1 * k.val = k.val; rw [e1]; omega

theorem emb1 (t : Fin cfg0.N) (b : Fin 2000) (k : Fin 64) :
    (((cfg0.win 1).blk t).view.emb (ix2 b k) : S50000x64.Idx) = ix2 (rowAt t b) k := by
  obtain ⟨-, ⟨e0, e1⟩, -⟩ := idx0 t
  funext a; apply Fin.ext
  match a with
  | ⟨0, _⟩ => show win0_1.index t (0 : Fin 2) * 2000 + 1 * b.val = 2000 * t.val + b.val; rw [e0]; omega
  | ⟨1, _⟩ => show win0_1.index t (1 : Fin 2) * 64 + 1 * k.val = k.val; rw [e1]; omega

theorem emb2 (t : Fin cfg0.N) (k : Fin 64) (j : Fin 128) :
    (((cfg0.win 2).blk t).view.emb (ix2 k j) : S64x128.Idx) = ix2 k j := by
  obtain ⟨-, -, ⟨e0, e1⟩, -⟩ := idx0 t
  funext a; apply Fin.ext
  match a with
  | ⟨0, _⟩ => show win0_2.index t (0 : Fin 2) * 64 + 1 * k.val = k.val; rw [e0]; omega
  | ⟨1, _⟩ => show win0_2.index t (1 : Fin 2) * 128 + 1 * j.val = j.val; rw [e1]; omega

theorem emb3 (t : Fin cfg0.N) (k : Fin 64) (j : Fin 128) :
    (((cfg0.win 3).blk t).view.emb (ix2 k j) : S64x128.Idx) = ix2 k j := by
  obtain ⟨-, -, -, ⟨e0, e1⟩, -⟩ := idx0 t
  funext a; apply Fin.ext
  match a with
  | ⟨0, _⟩ => show win0_3.index t (0 : Fin 2) * 64 + 1 * k.val = k.val; rw [e0]; omega
  | ⟨1, _⟩ => show win0_3.index t (1 : Fin 2) * 128 + 1 * j.val = j.val; rw [e1]; omega

theorem emb4 (t : Fin cfg0.N) (u : Fin 1) (j : Fin 128) :
    (((cfg0.win 4).blk t).view.emb (ix2 u j) : S1x128.Idx) = ix2 (0 : Fin 1) j := by
  obtain ⟨-, -, -, -, ⟨e0, e1⟩, -⟩ := idx0 t
  funext a; apply Fin.ext
  match a with
  | ⟨0, _⟩ => show win0_4.index t (0 : Fin 2) * 1 + 1 * u.val = 0; rw [e0]; omega
  | ⟨1, _⟩ => show win0_4.index t (1 : Fin 2) * 128 + 1 * j.val = j.val; rw [e1]; omega

theorem emb5 (t : Fin cfg0.N) (b : Fin 2000) (j : Fin 128) :
    (((cfg0.win 5).blk t).view.emb (ix2 b j) : S50000x128.Idx) = ix2 (rowAt t b) j := by
  obtain ⟨-, -, -, -, -, ⟨e0, e1⟩, -⟩ := idx0 t
  funext a; apply Fin.ext
  match a with
  | ⟨0, _⟩ => show win0_5.index t (0 : Fin 2) * 2000 + 1 * b.val = 2000 * t.val + b.val; rw [e0]; omega
  | ⟨1, _⟩ => show win0_5.index t (1 : Fin 2) * 128 + 1 * j.val = j.val; rw [e1]; omega

theorem emb6 (t : Fin cfg0.N) (u : Fin 1) (j : Fin 128) :
    (((cfg0.win 6).blk t).view.emb (ix2 u j) : S1x128.Idx) = ix2 (0 : Fin 1) j := by
  obtain ⟨-, -, -, -, -, -, ⟨e0, e1⟩, -⟩ := idx0 t
  funext a; apply Fin.ext
  match a with
  | ⟨0, _⟩ => show win0_6.index t (0 : Fin 2) * 1 + 1 * u.val = 0; rw [e0]; omega
  | ⟨1, _⟩ => show win0_6.index t (1 : Fin 2) * 128 + 1 * j.val = j.val; rw [e1]; omega

theorem emb7 (t : Fin cfg0.N) (u : Fin 1) (j : Fin 128) :
    (((cfg0.win 7).blk t).view.emb (ix2 u j) : S1x128.Idx) = ix2 (0 : Fin 1) j := by
  obtain ⟨-, -, -, -, -, -, -, ⟨e0, e1⟩⟩ := idx0 t
  funext a; apply Fin.ext
  match a with
  | ⟨0, _⟩ => show win0_7.index t (0 : Fin 2) * 1 + 1 * u.val = 0; rw [e0]; omega
  | ⟨1, _⟩ => show win0_7.index t (1 : Fin 2) * 128 + 1 * j.val = j.val; rw [e1]; omega

/-! ## The input blocks read at an entry -/

theorem blk0_apply (t : Fin cfg0.N) (b : Fin 2000) (k : Fin 64) :
    (iblk0 V c 0 t : S2000x64.Idx → EReal) (ix2 b k) = aggE V c (rowAt t b) k :=
  congrArg (V c (Pipeline.arrRef spec0 0) : S50000x64.Idx → EReal) (emb0 t b k)

theorem blk1_apply (t : Fin cfg0.N) (b : Fin 2000) (k : Fin 64) :
    (iblk0 V c 1 t : S2000x64.Idx → EReal) (ix2 b k) = tabE V c (rowAt t b) k :=
  congrArg (V c (Pipeline.arrRef spec0 1) : S50000x64.Idx → EReal) (emb1 t b k)

theorem blk2_apply (t : Fin cfg0.N) (k : Fin 64) (j : Fin 128) :
    (iblk0 V c 2 t : S64x128.Idx → EReal) (ix2 k j) = wrelE V c j k :=
  congrArg (V c (Pipeline.arrRef spec0 2) : S64x128.Idx → EReal) (emb2 t k j)

theorem blk3_apply (t : Fin cfg0.N) (k : Fin 64) (j : Fin 128) :
    (iblk0 V c 3 t : S64x128.Idx → EReal) (ix2 k j) = wrootE V c j k :=
  congrArg (V c (Pipeline.arrRef spec0 3) : S64x128.Idx → EReal) (emb3 t k j)

theorem blk4_apply (t : Fin cfg0.N) (j : Fin 128) :
    (iblk0 V c 4 t : S1x128.Idx → EReal) (ix2 (0 : Fin 1) j) = biasE V c j :=
  congrArg (V c (Pipeline.arrRef spec0 4) : S1x128.Idx → EReal) (emb4 t 0 j)

/-- The body's block of the layer at point `t`, entry `(b, j)`, is the layer at row `2000·t + b`. -/
theorem pay4_blocks (t : Fin cfg0.N) (b : Fin 2000) (j : Fin 128) :
    k0_pay4 (F := Ideal) (iblk0 V c 0 t) (iblk0 V c 1 t) (iblk0 V c 2 t) (iblk0 V c 3 t) (iblk0 V c 4 t) (ix2 b j) = linE V c (rowAt t b) j := by
  refine (pay4_apply (iblk0 V c 0 t) (iblk0 V c 1 t) (iblk0 V c 2 t) (iblk0 V c 3 t) (iblk0 V c 4 t) b j).trans ?_
  refine congrArg₂ (· + ·) (congrArg₂ (· + ·) (Finset.sum_congr rfl fun k _ => ?_) ?_) (Finset.sum_congr rfl fun k _ => ?_)
  · exact congrArg₂ (· * ·) (blk0_apply V c t b k) (blk2_apply V c t k j)
  · exact blk4_apply V c t j
  · exact congrArg₂ (· * ·) (blk1_apply V c t b k) (blk3_apply V c t k j)

/-! ## What the outputs' staging buffers hold after each point -/

/-- Output 5 after point `t`: the body's block of the layer, whichever case the point is. -/
theorem outs5 (t : Fin cfg0.N) :
    (outsAt0 V c t.val t.isLt).1 = k0_pay4 (F := Ideal) (iblk0 V c 0 t) (iblk0 V c 1 t) (iblk0 V c 2 t) (iblk0 V c 3 t) (iblk0 V c 4 t) := by
  by_cases h0 : t.val % 25 = 0
  · rw [outsAt0_A V c t h0]
    dsimp only
    exact piece_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact piece_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _

theorem rows_eq : (25 : ℕ) * 2000 = 50000 := by norm_num

/-- The column sums after point `n`: the layer summed over the rows of blocks `0 … n`. Point 0 starts from the zero
    it has just stored; a later point adds its block's rows to what the point before left. -/
theorem outs6 : ∀ (n : ℕ) (hn : n < cfg0.N) (j : Fin 128),
    (outsAt0 V c n hn).2.1 (ix2 (0 : Fin 1) j)
      = ∑ t ∈ Finset.range (n + 1), blockSum 25 2000 rows_eq (fun r => linE V c r j) t
  | 0, hn, j => by
    rw [outsAt0_A V c ⟨0, hn⟩ rfl]
    dsimp only
    refine (congrFun (piece_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)) (ix2 (0 : Fin 1) j)).trans ?_
    refine (pay5_apply (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) j).trans ?_
    rw [pay2_apply, zero_add, Finset.sum_range_one, blockSum_of_lt 25 2000 rows_eq _ 0 (by norm_num)]
    exact Finset.sum_congr rfl fun b _ => pay4_blocks V c ⟨0, hn⟩ b j
  | n + 1, hn, j => by
    have hN : n + 1 < 25 := lt_of_lt_of_eq hn (show cfg0.N = 25 from N_0)
    have hB : ¬(⟨n + 1, hn⟩ : Fin cfg0.N).val % 25 = 0 := by dsimp only; omega
    rw [outsAt0_B V c ⟨n + 1, hn⟩ hB]
    dsimp only
    refine (congrFun (piece_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _) (ix2 (0 : Fin 1) j)).trans ?_
    refine (pay5_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ j).trans ?_
    rw [Finset.sum_range_succ _ (n + 1), blockSum_of_lt 25 2000 rows_eq _ (n + 1) hN]
    exact congrArg₂ (· + ·) (outs6 n (Nat.lt_of_succ_lt hn) j) (Finset.sum_congr rfl fun b _ => pay4_blocks V c ⟨n + 1, hn⟩ b j)

/-- The column sums of squares after point `n`, likewise. -/
theorem outs7 : ∀ (n : ℕ) (hn : n < cfg0.N) (j : Fin 128),
    (outsAt0 V c n hn).2.2 (ix2 (0 : Fin 1) j)
      = ∑ t ∈ Finset.range (n + 1), blockSum 25 2000 rows_eq (fun r => linE V c r j * linE V c r j) t
  | 0, hn, j => by
    rw [outsAt0_A V c ⟨0, hn⟩ rfl]
    dsimp only
    refine (congrFun (piece_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)) (ix2 (0 : Fin 1) j)).trans ?_
    refine ((pay1_apply _ _ j).trans (congrArg₂ (· + ·) ((congrFun (pay6_eq _) _).trans (pay3_apply _))
      (pay7_apply (iblk0 V c 0 ⟨0, hn⟩) (iblk0 V c 1 ⟨0, hn⟩) (iblk0 V c 2 ⟨0, hn⟩) (iblk0 V c 3 ⟨0, hn⟩) (iblk0 V c 4 ⟨0, hn⟩) j))).trans ?_
    rw [zero_add, Finset.sum_range_one, blockSum_of_lt 25 2000 rows_eq _ 0 (by norm_num)]
    exact Finset.sum_congr rfl fun b _ => congrArg₂ (· * ·) (pay4_blocks V c ⟨0, hn⟩ b j) (pay4_blocks V c ⟨0, hn⟩ b j)
  | n + 1, hn, j => by
    have hN : n + 1 < 25 := lt_of_lt_of_eq hn (show cfg0.N = 25 from N_0)
    have hB : ¬(⟨n + 1, hn⟩ : Fin cfg0.N).val % 25 = 0 := by dsimp only; omega
    rw [outsAt0_B V c ⟨n + 1, hn⟩ hB]
    dsimp only
    refine (congrFun (piece_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _) (ix2 (0 : Fin 1) j)).trans ?_
    refine ((pay1_apply _ _ j).trans (congrArg₂ (· + ·) (congrFun (pay6_eq _) _) (pay7_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) j))).trans ?_
    rw [Finset.sum_range_succ _ (n + 1), blockSum_of_lt 25 2000 rows_eq _ (n + 1) hN]
    exact congrArg₂ (· + ·) (outs7 n (Nat.lt_of_succ_lt hn) j)
      (Finset.sum_congr rfl fun b _ => congrArg₂ (· * ·) (pay4_blocks V c ⟨n + 1, hn⟩ b j) (pay4_blocks V c ⟨n + 1, hn⟩ b j))

/-! ## What each point writes back, as a block of one array -/

theorem read5 (t : Fin cfg0.N) (y : S2000x128.Idx) :
    k0_pay4 (F := Ideal) (iblk0 V c 0 t) (iblk0 V c 1 t) (iblk0 V c 2 t) (iblk0 V c 3 t) (iblk0 V c 4 t) y = Cert.Spec.arr2 (linE V c) (((cfg0.win 5).blk t).view.emb y) := by
  obtain ⟨b, j, rfl⟩ : ∃ (b : Fin 2000) (j : Fin 128), y = ix2 b j := ⟨y 0, y 1, eq_ix2 y⟩
  exact (pay4_blocks V c t b j).trans (congrArg (Cert.Spec.arr2 (linE V c)) (emb5 t b j)).symm

/-- A staging buffer that is, entry by entry, one array read through the point's block is written back as that block of the
    array. -/
theorem cut_eq_read5 (t : Fin cfg0.N) (X : Vec Ideal S2000x128 .f32) (G : S50000x128.Idx → EReal)
    (h : ∀ y : S2000x128.Idx, X y = G (((cfg0.win 5).blk t).view.emb y)) :
    (cfg0.win 5).cut (grid0.coords t) X = ((cfg0.win 5).blk t).view.read (Elt Ideal) G := by
  funext y
  exact h y

theorem cut_eq_read6 (t : Fin cfg0.N) (X : Vec Ideal S1x128 .f32) (G : S1x128.Idx → EReal)
    (h : ∀ y : S1x128.Idx, X y = G (((cfg0.win 6).blk t).view.emb y)) :
    (cfg0.win 6).cut (grid0.coords t) X = ((cfg0.win 6).blk t).view.read (Elt Ideal) G := by
  funext y
  exact h y

theorem cut_eq_read7 (t : Fin cfg0.N) (X : Vec Ideal S1x128 .f32) (G : S1x128.Idx → EReal)
    (h : ∀ y : S1x128.Idx, X y = G (((cfg0.win 7).blk t).view.emb y)) :
    (cfg0.win 7).cut (grid0.coords t) X = ((cfg0.win 7).blk t).view.read (Elt Ideal) G := by
  funext y
  exact h y

theorem flushed5_eq (t : Fin cfg0.N) :
    (dat0 V c).flushed 5 t = ((cfg0.win 5).blk t).view.read (Elt Ideal) (Cert.Spec.arr2 (linE V c)) := by
  show (cfg0.win 5).cut (grid0.coords t) ((dat0 V c).after 5 t) = _
  rw [after0_5, outs5]
  exact cut_eq_read5 t _ _ (read5 V c t)

theorem read6 (t : Fin cfg0.N) (h24 : t.val = 24) (y : S1x128.Idx) :
    (outsAt0 V c t.val t.isLt).2.1 y
      = Cert.Spec.arr2 (fun (_ : Fin 1) j => ∑ n : Fin 50000, linE V c n j) (((cfg0.win 6).blk t).view.emb y) := by
  obtain ⟨u, j, rfl⟩ : ∃ (u : Fin 1) (j : Fin 128), y = ix2 u j := ⟨y 0, y 1, eq_ix2 y⟩
  obtain rfl : u = 0 := Subsingleton.elim _ _
  refine ((outs6 V c t.val t.isLt j).trans ?_).trans
    (congrArg (Cert.Spec.arr2 (fun (_ : Fin 1) j => ∑ n : Fin 50000, linE V c n j)) (emb6 t 0 j)).symm
  rw [h24]
  exact sum_range_blockSum 25 2000 rows_eq (fun r => linE V c r j)

theorem flushed6_eq (t : Fin cfg0.N) (hf : (cfg0.win 6).flush t = true) :
    (dat0 V c).flushed 6 t = ((cfg0.win 6).blk t).view.read (Elt Ideal)
      (Cert.Spec.arr2 (fun (_ : Fin 1) j => ∑ n : Fin 50000, linE V c n j)) := by
  have hN : t.val < 25 := lt_of_lt_of_eq t.isLt (show cfg0.N = 25 from N_0)
  have h24 : t.val = 24 := by have := (flush0_6 t).mp hf; omega
  show (cfg0.win 6).cut (grid0.coords t) ((dat0 V c).after 6 t) = _
  rw [after0_6]
  exact cut_eq_read6 t _ _ (read6 V c t h24)

theorem read7 (t : Fin cfg0.N) (h24 : t.val = 24) (y : S1x128.Idx) :
    (outsAt0 V c t.val t.isLt).2.2 y
      = Cert.Spec.arr2 (fun (_ : Fin 1) j => ∑ n : Fin 50000, linE V c n j * linE V c n j) (((cfg0.win 7).blk t).view.emb y) := by
  obtain ⟨u, j, rfl⟩ : ∃ (u : Fin 1) (j : Fin 128), y = ix2 u j := ⟨y 0, y 1, eq_ix2 y⟩
  obtain rfl : u = 0 := Subsingleton.elim _ _
  refine ((outs7 V c t.val t.isLt j).trans ?_).trans
    (congrArg (Cert.Spec.arr2 (fun (_ : Fin 1) j => ∑ n : Fin 50000, linE V c n j * linE V c n j)) (emb7 t 0 j)).symm
  rw [h24]
  exact sum_range_blockSum 25 2000 rows_eq (fun r => linE V c r j * linE V c r j)

theorem flushed7_eq (t : Fin cfg0.N) (hf : (cfg0.win 7).flush t = true) :
    (dat0 V c).flushed 7 t = ((cfg0.win 7).blk t).view.read (Elt Ideal)
      (Cert.Spec.arr2 (fun (_ : Fin 1) j => ∑ n : Fin 50000, linE V c n j * linE V c n j)) := by
  have hN : t.val < 25 := lt_of_lt_of_eq t.isLt (show cfg0.N = 25 from N_0)
  have h24 : t.val = 24 := by have := (flush0_7 t).mp hf; omega
  show (cfg0.win 7).cut (grid0.coords t) ((dat0 V c).after 7 t) = _
  rw [after0_7]
  exact cut_eq_read7 t _ _ (read7 V c t h24)

/-! ## The blocks cover the arrays -/

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20_0).slice (win0_5.rect t)).set ↔ _
  rw [View.set_slice_whole, Rect.mem_set_unit]
  exact Iff.rfl

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v20_1).slice (win0_6.rect t)).set ↔ _
  rw [View.set_slice_whole, Rect.mem_set_unit]
  exact Iff.rfl

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v20_2).slice (win0_7.rect t)).set ↔ _
  rw [View.set_slice_whole, Rect.mem_set_unit]
  exact Iff.rfl

/-- Row `r` of the layer's array is in the block of point `r / 2000`. -/
theorem cover5 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 25 := N_0
  let t : Fin cfg0.N := ⟨(i 0).val / 2000, lt_of_lt_of_eq (by omega : (i 0).val / 2000 < 25) hN.symm⟩
  have ht : t.val = (i 0).val / 2000 := rfl
  obtain ⟨-, -, -, -, -, ⟨e0, e1⟩, -⟩ := idx0 t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-- The last point's block is the whole one-row array. -/
def tLast : Fin cfg0.N := ⟨24, lt_of_lt_of_eq (by norm_num : 24 < 25) (show cfg0.N = 25 from N_0).symm⟩

theorem cover6 (i : S1x128.Idx) :
    ∃ t : Fin cfg0.N, (cfg0.win 6).flush t = true ∧ i ∈ ((cfg0.win 6).blk t).view.set := by
  have hi0 : (i 0).val < 1 := idx2_lt0 i
  have hi1 : (i 1).val < 128 := idx2_lt1 i
  obtain ⟨-, -, -, -, -, -, ⟨e0, e1⟩, -⟩ := idx0 tLast
  refine ⟨tLast, (flush0_6 tLast).mpr rfl, ?_⟩
  rw [mem_blk6]
  intro a
  match a with
  | ⟨0, _⟩ => show win0_6.index tLast (0 : Fin 2) * 1 ≤ (i 0).val ∧ (i 0).val < win0_6.index tLast (0 : Fin 2) * 1 + 1; rw [e0]; omega
  | ⟨1, _⟩ => show win0_6.index tLast (1 : Fin 2) * 128 ≤ (i 1).val ∧ (i 1).val < win0_6.index tLast (1 : Fin 2) * 128 + 128; rw [e1]; omega

theorem cover7 (i : S1x128.Idx) :
    ∃ t : Fin cfg0.N, (cfg0.win 7).flush t = true ∧ i ∈ ((cfg0.win 7).blk t).view.set := by
  have hi0 : (i 0).val < 1 := idx2_lt0 i
  have hi1 : (i 1).val < 128 := idx2_lt1 i
  obtain ⟨-, -, -, -, -, -, -, ⟨e0, e1⟩⟩ := idx0 tLast
  refine ⟨tLast, (flush0_7 tLast).mpr rfl, ?_⟩
  rw [mem_blk7]
  intro a
  match a with
  | ⟨0, _⟩ => show win0_7.index tLast (0 : Fin 2) * 1 ≤ (i 0).val ∧ (i 0).val < win0_7.index tLast (0 : Fin 2) * 1 + 1; rw [e0]; omega
  | ⟨1, _⟩ => show win0_7.index tLast (1 : Fin 2) * 128 ≤ (i 1).val ∧ (i 1).val < win0_7.index tLast (1 : Fin 2) * 128 + 128; rw [e1]; omega

/-! ## The three output arrays after the region -/

/-- The layer before normalisation. -/
theorem region0_lin :
    ((dat0 V c).arrAt 5 cfg0.N : S50000x128.Idx → EReal) = Cert.Spec.arr2 (linE V c) :=
  (dat0 V c).arrAt_eq_of_cover 5 (Cert.Spec.arr2 (linE V c)) (fun t _ => flushed5_eq V c t) (cover5)

/-- Its column sums over the 50000 rows. -/
theorem region0_sum :
    ((dat0 V c).arrAt 6 cfg0.N : S1x128.Idx → EReal)
      = Cert.Spec.arr2 (fun (_ : Fin 1) j => ∑ n : Fin 50000, linE V c n j) :=
  (dat0 V c).arrAt_eq_of_cover 6 (Cert.Spec.arr2 (fun (_ : Fin 1) j => ∑ n : Fin 50000, linE V c n j))
    (flushed6_eq V c) (cover6)

/-- The column sums of its squares. -/
theorem region0_sumsq :
    ((dat0 V c).arrAt 7 cfg0.N : S1x128.Idx → EReal)
      = Cert.Spec.arr2 (fun (_ : Fin 1) j => ∑ n : Fin 50000, linE V c n j * linE V c n j) :=
  (dat0 V c).arrAt_eq_of_cover 7 (Cert.Spec.arr2 (fun (_ : Fin 1) j => ∑ n : Fin 50000, linE V c n j * linE V c n j))
    (flushed7_eq V c) (cover7)

/-! ## The same, with the region's arrays named entry by entry -/

theorem linE_eq (A X : Fin 50000 → Fin 64 → EReal) (Wrel Wroot : Fin 128 → Fin 64 → EReal) (b : Fin 128 → EReal)
    (hA : ∀ n k, (V c (Pipeline.arrRef spec0 0) : S50000x64.Idx → EReal) (ix2 n k) = A n k)
    (hX : ∀ n k, (V c (Pipeline.arrRef spec0 1) : S50000x64.Idx → EReal) (ix2 n k) = X n k)
    (hWrel : ∀ j k, (V c (Pipeline.arrRef spec0 2) : S64x128.Idx → EReal) (ix2 k j) = Wrel j k)
    (hWroot : ∀ j k, (V c (Pipeline.arrRef spec0 3) : S64x128.Idx → EReal) (ix2 k j) = Wroot j k)
    (hb : ∀ j, (V c (Pipeline.arrRef spec0 4) : S1x128.Idx → EReal) (ix2 (0 : Fin 1) j) = b j) :
    linE V c = Cert.Spec.lin A X Wrel Wroot b := by
  have eA : aggE V c = A := funext fun n => funext fun k => hA n k
  have eX : tabE V c = X := funext fun n => funext fun k => hX n k
  have eR : wrelE V c = Wrel := funext fun j => funext fun k => hWrel j k
  have eT : wrootE V c = Wroot := funext fun j => funext fun k => hWroot j k
  have eb : biasE V c = b := funext fun j => hb j
  unfold linE
  rw [eA, eX, eR, eT, eb]

/-- After the region the first output holds the layer before normalisation at every row. -/
theorem region0_h (A X : Fin 50000 → Fin 64 → EReal) (Wrel Wroot : Fin 128 → Fin 64 → EReal) (b : Fin 128 → EReal)
    (hA : ∀ n k, (V c (Pipeline.arrRef spec0 0) : S50000x64.Idx → EReal) (ix2 n k) = A n k)
    (hX : ∀ n k, (V c (Pipeline.arrRef spec0 1) : S50000x64.Idx → EReal) (ix2 n k) = X n k)
    (hWrel : ∀ j k, (V c (Pipeline.arrRef spec0 2) : S64x128.Idx → EReal) (ix2 k j) = Wrel j k)
    (hWroot : ∀ j k, (V c (Pipeline.arrRef spec0 3) : S64x128.Idx → EReal) (ix2 k j) = Wroot j k)
    (hb : ∀ j, (V c (Pipeline.arrRef spec0 4) : S1x128.Idx → EReal) (ix2 (0 : Fin 1) j) = b j) :
    ((dat0 V c).arrAt 5 cfg0.N : S50000x128.Idx → EReal) = Cert.Spec.arr2 (Cert.Spec.lin A X Wrel Wroot b) := by
  rw [← linE_eq V c A X Wrel Wroot b hA hX hWrel hWroot hb]
  exact region0_lin V c

/-- The second output holds its column sums over all 50000 rows. -/
theorem region0_s (A X : Fin 50000 → Fin 64 → EReal) (Wrel Wroot : Fin 128 → Fin 64 → EReal) (b : Fin 128 → EReal)
    (hA : ∀ n k, (V c (Pipeline.arrRef spec0 0) : S50000x64.Idx → EReal) (ix2 n k) = A n k)
    (hX : ∀ n k, (V c (Pipeline.arrRef spec0 1) : S50000x64.Idx → EReal) (ix2 n k) = X n k)
    (hWrel : ∀ j k, (V c (Pipeline.arrRef spec0 2) : S64x128.Idx → EReal) (ix2 k j) = Wrel j k)
    (hWroot : ∀ j k, (V c (Pipeline.arrRef spec0 3) : S64x128.Idx → EReal) (ix2 k j) = Wroot j k)
    (hb : ∀ j, (V c (Pipeline.arrRef spec0 4) : S1x128.Idx → EReal) (ix2 (0 : Fin 1) j) = b j) :
    ((dat0 V c).arrAt 6 cfg0.N : S1x128.Idx → EReal)
      = Cert.Spec.arr2 (fun (_ : Fin 1) j => ∑ n : Fin 50000, Cert.Spec.lin A X Wrel Wroot b n j) := by
  rw [← linE_eq V c A X Wrel Wroot b hA hX hWrel hWroot hb]
  exact region0_sum V c

/-- The third output holds the column sums of its squares. -/
theorem region0_ss (A X : Fin 50000 → Fin 64 → EReal) (Wrel Wroot : Fin 128 → Fin 64 → EReal) (b : Fin 128 → EReal)
    (hA : ∀ n k, (V c (Pipeline.arrRef spec0 0) : S50000x64.Idx → EReal) (ix2 n k) = A n k)
    (hX : ∀ n k, (V c (Pipeline.arrRef spec0 1) : S50000x64.Idx → EReal) (ix2 n k) = X n k)
    (hWrel : ∀ j k, (V c (Pipeline.arrRef spec0 2) : S64x128.Idx → EReal) (ix2 k j) = Wrel j k)
    (hWroot : ∀ j k, (V c (Pipeline.arrRef spec0 3) : S64x128.Idx → EReal) (ix2 k j) = Wroot j k)
    (hb : ∀ j, (V c (Pipeline.arrRef spec0 4) : S1x128.Idx → EReal) (ix2 (0 : Fin 1) j) = b j) :
    ((dat0 V c).arrAt 7 cfg0.N : S1x128.Idx → EReal)
      = Cert.Spec.arr2 (fun (_ : Fin 1) j => ∑ n : Fin 50000, Cert.Spec.lin A X Wrel Wroot b n j * Cert.Spec.lin A X Wrel Wroot b n j) := by
  rw [← linE_eq V c A X Wrel Wroot b hA hX hWrel hWroot hb]
  exact region0_sumsq V c

end Region

end Cert.KSide.R0

end
-- ==== Proof.KRegion1.lean ====
/-
  The first normalisation region of the kernel program, read as one array.

  The region walks the 50000 rows of a 128-column table in 25 blocks of 2000 rows. At every block it has the whole
  row vectors of the column means, the column variances, the scales and the shifts, and it replaces each entry
  `h` of the block in column `j` by `tanh (((h - mean j) * rsqrt (var j + eps)) * scale j + shift j)`. The change of
  float format on the way out is the identity on extended reals. Since an entry's new value depends only on the
  entry and on its column, every block is the restriction of ONE function of the five operand arrays, and since the
  25 row blocks tile the table, the array the region leaves is that function: `Spec.bn` of the operands.
-/
import proofs.«129947_j42545946034237_2_alg».proof.Proof.Gen.KernelIdeal.Frame
import proofs.«129947_j42545946034237_2_alg».proof.Proof.Spec
import Idealize.ShloMosaic.Lib.Pipeline.Value
import Idealize.ShloMosaic.Lib.ValueIdx

noncomputable section

namespace Cert.KSide.R1

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block -/

/-- A row vector broadcast down the 2000 rows of a block reads, in row `b` and column `j`, its entry of column `j`. -/
theorem rowBroadcast_apply (x : Vec Ideal S1x128 .f32) (b : Fin 2000) (j : Fin 128) :
    broadcastTo S2000x128 x broadcasts_S1x128_S2000x128 (ix2 b j) = x (ix2 (0 : Fin 1) j) := by
  refine broadcastTo_apply x broadcasts_S1x128_S2000x128 (ix2 b j) (ix2 (0 : Fin 1) j) (fun a => ?_)
  match a with
  | ⟨0, _⟩ => rfl
  | ⟨1, _⟩ => rfl

/-- The body's stored value in row `b`, column `j` of a block: the entry normalised by its column's mean `xm` and
    variance `xv`, scaled by `xg`, shifted by `xb`, through tanh. -/
theorem pay_apply (x0 : Vec Ideal S2000x128 .f32) (xv xm xg xb : Vec Ideal S1x128 .f32) (b : Fin 2000) (j : Fin 128) :
    k1_pay1 x0 xv xm xg xb (ix2 b j)
      = Ideal.tanh (((x0 (ix2 b j) - xm (ix2 (0 : Fin 1) j)) * Ideal.rsqrt (xv (ix2 (0 : Fin 1) j) + Cert.Spec.cEps))
          * xg (ix2 (0 : Fin 1) j) + xb (ix2 (0 : Fin 1) j)) := by
  unfold k1_pay1
  simp only [shapeCast_self]
  show Ideal.tanh (((x0 (ix2 b j) - broadcastTo S2000x128 xm broadcasts_S1x128_S2000x128 (ix2 b j))
      * broadcastTo S2000x128 (rsqrt (F := Ideal) (addf (F := Ideal) xv (broadcast S1x128 (Scalar.ofBits (F := Ideal) .f32 0x3727C5AC#32)))) broadcasts_S1x128_S2000x128 (ix2 b j))
      * broadcastTo S2000x128 xg broadcasts_S1x128_S2000x128 (ix2 b j)
      + broadcastTo S2000x128 xb broadcasts_S1x128_S2000x128 (ix2 b j)) = _
  rw [rowBroadcast_apply, rowBroadcast_apply, rowBroadcast_apply, rowBroadcast_apply]
  rfl

/-! ## The whole array as one function of the operands -/

/-- The normalised table as an array, from the table `A0` and the row vectors of means `A1`, variances `A2`,
    scales `A3` and shifts `A4`. -/
def normArr (A0 : S50000x128.Idx → EReal) (A1 A2 A3 A4 : S1x128.Idx → EReal) : S50000x128.Idx → EReal :=
  Cert.Spec.arr2 (Cert.Spec.bn (fun n j => A0 (ix2 n j)) (fun j => A1 (ix2 (0 : Fin 1) j)) (fun j => A2 (ix2 (0 : Fin 1) j))
    (fun j => A3 (ix2 (0 : Fin 1) j)) (fun j => A4 (ix2 (0 : Fin 1) j)))

/-- An entry of a block is the entry of `normArr` at the table index `i` it sits at, as soon as the block's table
    entry is the table's at `i`, `i` is in the same column, and the block's row vectors are the whole row vectors. -/
theorem block_apply (A0 : S50000x128.Idx → EReal) (A1 A2 A3 A4 : S1x128.Idx → EReal)
    (X0 : Vec Ideal S2000x128 .f32) (X1 X2 X3 X4 : Vec Ideal S1x128 .f32) (y : S2000x128.Idx) (i : S50000x128.Idx)
    (h0 : X0 y = A0 i) (hi : (i 1).val = (y 1).val) (h1 : X1 = A1) (h2 : X2 = A2) (h3 : X3 = A3) (h4 : X4 = A4) :
    k1_pay1 X0 X2 X1 X3 X4 y = normArr A0 A1 A2 A3 A4 i := by
  obtain ⟨b, j, rfl⟩ : ∃ (b : Fin 2000) (j : Fin 128), y = ix2 b j := ⟨y 0, y 1, eq_ix2 y⟩
  obtain ⟨n, q, rfl⟩ : ∃ (n : Fin 50000) (q : Fin 128), i = ix2 n q := ⟨i 0, i 1, eq_ix2 i⟩
  obtain rfl : q = j := Fin.ext hi
  subst h1 h2 h3 h4
  rw [pay_apply, h0]
  rfl

/-! ## Where the blocks sit -/

theorem hz : (![0, 0] : Fin 2 → Nat) = fun _ => 0 := funext fun a => by fin_cases a <;> rfl

/-- The block indices over the 25 grid points: the table's input block moves with the output block, which is row
    block `t` in the one column block; the four row vectors stay at their one block. -/
theorem idx_facts : ∀ t : Fin cfg1.N,
    win1_0.index t (0 : Fin 2) = win1_5.index t (0 : Fin 2) ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The table's block at point `t`, entry `y`, is the table at the place the OUTPUT's block puts `y`. -/
theorem iblk_table (c : Dev nD) (t : Fin cfg1.N) (y : S2000x128.Idx) :
    (iblk1 V c 0 t : S2000x128.Idx → EReal) y
      = (V c (Pipeline.arrRef spec1 0) : S50000x128.Idx → EReal) (((cfg1.win 5).blk t).view.emb y) := by
  obtain ⟨e0, e1, -⟩ := idx_facts t
  show V c (Pipeline.arrRef spec1 0) (((cfg1.win 0).blk t).view.emb y) = V c (Pipeline.arrRef spec1 0) (((cfg1.win 5).blk t).view.emb y)
  refine congrArg _ ?_
  funext a; apply Fin.ext
  match a with
  | ⟨0, _⟩ => show win1_0.index t (0 : Fin 2) * 2000 + 1 * (y 0).val = win1_5.index t (0 : Fin 2) * 2000 + 1 * (y 0).val; omega
  | ⟨1, _⟩ => show win1_0.index t (1 : Fin 2) * 128 + 1 * (y 1).val = win1_5.index t (1 : Fin 2) * 128 + 1 * (y 1).val; omega

/-- A row vector's one block is the whole row vector (window 1: the means). -/
theorem iblk_row1 (c : Dev nD) (t : Fin cfg1.N) :
    (iblk1 V c 1 t : S1x128.Idx → EReal) = (V c (Pipeline.arrRef spec1 1) : S1x128.Idx → EReal) := by
  obtain ⟨-, -, e0, e1, -⟩ := idx_facts t
  funext y
  show V c (Pipeline.arrRef spec1 1) (((cfg1.win 1).blk t).view.emb y) = V c (Pipeline.arrRef spec1 1) y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2: the variances. -/
theorem iblk_row2 (c : Dev nD) (t : Fin cfg1.N) :
    (iblk1 V c 2 t : S1x128.Idx → EReal) = (V c (Pipeline.arrRef spec1 2) : S1x128.Idx → EReal) := by
  obtain ⟨-, -, -, -, e0, e1, -⟩ := idx_facts t
  funext y
  show V c (Pipeline.arrRef spec1 2) (((cfg1.win 2).blk t).view.emb y) = V c (Pipeline.arrRef spec1 2) y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3: the scales. -/
theorem iblk_row3 (c : Dev nD) (t : Fin cfg1.N) :
    (iblk1 V c 3 t : S1x128.Idx → EReal) = (V c (Pipeline.arrRef spec1 3) : S1x128.Idx → EReal) := by
  obtain ⟨-, -, -, -, -, -, e0, e1, -⟩ := idx_facts t
  funext y
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4: the shifts. -/
theorem iblk_row4 (c : Dev nD) (t : Fin cfg1.N) :
    (iblk1 V c 4 t : S1x128.Idx → EReal) = (V c (Pipeline.arrRef spec1 4) : S1x128.Idx → EReal) := by
  obtain ⟨-, -, -, -, -, -, -, -, e0, e1, -⟩ := idx_facts t
  funext y
  show V c (Pipeline.arrRef spec1 4) (((cfg1.win 4).blk t).view.emb y) = V c (Pipeline.arrRef spec1 4) y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point writes back, and the array after the region -/

/-- What point `t` writes back is block `t` of `normArr` of the operand arrays as the region finds them. -/
theorem flushed_eq (c : Dev nD) (t : Fin cfg1.N) :
    (dat1 V c).flushed 5 t = ((cfg1.win 5).blk t).view.read (Elt Ideal)
      (normArr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz]
  obtain ⟨-, -, -, -, -, -, -, -, -, -, -, e1⟩ := idx_facts t
  funext y
  show k1_pay1 (iblk1 V c 0 t) (iblk1 V c 2 t) (iblk1 V c 1 t) (iblk1 V c 3 t) (iblk1 V c 4 t) y
    = normArr (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb y)
  refine block_apply (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) y (((cfg1.win 5).blk t).view.emb y)
    (iblk_table V c t y) ?_ (iblk_row1 V c t) (iblk_row2 V c t) (iblk_row3 V c t) (iblk_row4 V c t)
  show win1_5.index t (1 : Fin 2) * 128 + 1 * (y 1).val = (y 1).val
  omega

/-- A table index is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v29).slice (win1_5.rect t)).set ↔ _
  rw [View.set_slice_whole, Rect.mem_set_unit]
  exact Iff.rfl

/-- Row `r` of the table is in the block of point `r / 2000`, and every point writes its block back. -/
theorem cover (i : S50000x128.Idx) :
    ∃ t : Fin cfg1.N, (cfg1.win 5).flush t = true ∧ i ∈ ((cfg1.win 5).blk t).view.set := by
  have hN : cfg1.N = 25 := N_1
  have h0 : (i 0).val < 50000 := idx2_lt0 i
  have h1 : (i 1).val < 128 := idx2_lt1 i
  have ht : (i 0).val / 2000 < cfg1.N := by rw [hN]; omega
  obtain ⟨-, -, -, -, -, -, -, -, -, -, e0, e1⟩ := idx_facts ⟨(i 0).val / 2000, ht⟩
  have e0' : win1_5.index ⟨(i 0).val / 2000, ht⟩ (0 : Fin 2) = (i 0).val / 2000 := e0
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    omega

/-- THE ARRAY THE REGION LEAVES: the table `H` normalised column by column with the means `mu`, the variances `v`,
    the scales `g` and the shifts `be` the region finds in its five operand arrays. -/
theorem region1_out (c : Dev nD) (H : S50000x128.Idx → EReal) (mu v g be : S1x128.Idx → EReal)
    (hH : (V c (Pipeline.arrRef spec1 0) : S50000x128.Idx → EReal) = H)
    (hmu : (V c (Pipeline.arrRef spec1 1) : S1x128.Idx → EReal) = mu)
    (hv : (V c (Pipeline.arrRef spec1 2) : S1x128.Idx → EReal) = v)
    (hg : (V c (Pipeline.arrRef spec1 3) : S1x128.Idx → EReal) = g)
    (hbe : (V c (Pipeline.arrRef spec1 4) : S1x128.Idx → EReal) = be) :
    ((dat1 V c).arrAt 5 cfg1.N : S50000x128.Idx → EReal)
      = Cert.Spec.arr2 (Cert.Spec.bn (fun n j => H (ix2 n j)) (fun j => mu (ix2 (0 : Fin 1) j)) (fun j => v (ix2 (0 : Fin 1) j))
          (fun j => g (ix2 (0 : Fin 1) j)) (fun j => be (ix2 (0 : Fin 1) j))) := by
  subst hH hmu hv hg hbe
  exact (dat1 V c).arrAt_eq_of_cover 5
    (normArr (V c (Pipeline.arrRef spec1 0)) (V c (Pipeline.arrRef spec1 1)) (V c (Pipeline.arrRef spec1 2))
      (V c (Pipeline.arrRef spec1 3)) (V c (Pipeline.arrRef spec1 4)))
    (fun t _ => flushed_eq V c t) cover

end Cert.KSide.R1

end
-- ==== Proof.KRegion2c.lean ====
/-
  The second graph-convolution layer's kernel region, read as three arrays.

  The region visits the 50000 nodes in 25 blocks of 2000 rows. From a block's rows of the aggregated table `A` and of
  the table `X` (128 columns each; `X` arrives in the narrow float format, which changes nothing on the extended
  reals), the two weight matrices stored transposed (128 × 256) and the bias row, it forms the 256-column layer
  `A · Wrelᵀ + b + X · Wrootᵀ` of those rows: a matrix product into a zero accumulator is the plain sum of products.
  It writes that block of the layer out, and it keeps two running rows, cleared at the first block and carried from
  block to block: the column sums of the layer's entries and the column sums of their squares.

  Hence the first output is the layer at every node, and — the 25 blocks of 2000 rows being exactly the 50000 rows —
  the two running rows end as the layer's column sums and the column sums of its squares over all the nodes. Sums are
  only regrouped block by block, which needs commutativity and associativity of addition alone: nothing here asks for
  finite entries.
-/
import proofs.«129947_j42545946034237_2_alg».proof.Proof.Gen.KernelIdeal.Frame
import proofs.«129947_j42545946034237_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KSide.R2

/-! ## A plain matrix product into the zero accumulator, read at an entry -/

theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A sum over the rows, read at a column -/

theorem rowsum_apply {m n : ℕ} {φ : FTy} (src : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (j : Fin n) :
    multiReduction .add [0] ⟨1, ![n]⟩ src acc h hφ hacc (ix1 j) = ∑ b : Fin m, src (ix2 b j) := by
  refine (Ideal.multiReduction_add_single src acc h hφ hacc (ix1 j)).trans ?_
  refine Finset.sum_congr rfl fun b _ => congrArg src ?_
  funext ax; apply Fin.ext
  match ax with
  | ⟨0, _⟩ => rfl
  | ⟨1, _⟩ => rfl

/-! ## A sum over `N = T * B` rows, block by block -/

theorem block_row_lt {T B t r : ℕ} (ht : t < T) (hr : r < B) : B * t + r < T * B := by
  have h1 : B * (t + 1) = B * t + B := Nat.mul_succ B t
  have h2 : B * (t + 1) ≤ B * T := Nat.mul_le_mul_left B ht
  have h3 : T * B = B * T := Nat.mul_comm T B
  omega

/-- The sum of `f` over the rows of block `t` (rows `B·t … B·t + B − 1`); zero past the last block. -/
def blockSum {M : Type} [AddCommMonoid M] {N : ℕ} (T B : ℕ) (hN : T * B = N) (f : Fin N → M) (t : ℕ) : M :=
  if ht : t < T then ∑ r : Fin B, f ⟨B * t + r.val, hN ▸ block_row_lt ht r.isLt⟩ else 0

theorem blockSum_of_lt {M : Type} [AddCommMonoid M] {N : ℕ} (T B : ℕ) (hN : T * B = N) (f : Fin N → M) (t : ℕ)
    (ht : t < T) : blockSum T B hN f t = ∑ r : Fin B, f ⟨B * t + r.val, hN ▸ block_row_lt ht r.isLt⟩ :=
  dif_pos ht

/-- All the blocks together are all the rows. -/
theorem sum_range_blockSum {M : Type} [AddCommMonoid M] {N : ℕ} (T B : ℕ) (hN : T * B = N) (f : Fin N → M) :
    ∑ t ∈ Finset.range T, blockSum T B hN f t = ∑ n : Fin N, f n := by
  subst hN
  rw [Finset.sum_range fun t => blockSum T B rfl f t]
  rw [← Equiv.sum_comp (finProdFinEquiv (m := T) (n := B)) f, Fintype.sum_prod_type]
  refine Finset.sum_congr rfl fun t _ => ?_
  rw [blockSum_of_lt T B rfl f t.val t.isLt]
  refine Finset.sum_congr rfl fun r _ => congrArg f (Fin.ext ?_)
  show B * t.val + r.val = r.val + B * t.val
  omega

theorem hz : (![0, 0] : Fin 2 → Nat) = fun _ => 0 := funext fun a => by fin_cases a <;> rfl

/-! ## What each case leaves in each output's staging buffer, as the body's arithmetic of the blocks -/

section Pieces
variable {F : FTy → Type} [FloatOps F]

theorem piece_B_5 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i) (x0 : Vec F S2000x128 .f32) (x1 : Vec F S2000x128 .bf16) (x2 : Vec F S128x256 .f32) (x3 : Vec F S128x256 .f32) (x4 : Vec F S1x256 .f32) (xo6 xo7 : Vec F S1x256 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

theorem piece_B_6 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i) (x0 : Vec F S2000x128 .f32) (x1 : Vec F S2000x128 .bf16) (x2 : Vec F S128x256 .f32) (x3 : Vec F S128x256 .f32) (x4 : Vec F S1x256 .f32) (xo6 xo7 : Vec F S1x256 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

theorem piece_B_7 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i) (x0 : Vec F S2000x128 .f32) (x1 : Vec F S2000x128 .bf16) (x2 : Vec F S128x256 .f32) (x3 : Vec F S128x256 .f32) (x4 : Vec F S1x256 .f32) (xo6 xo7 : Vec F S1x256 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

theorem piece_A_5 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i) (x0 : Vec F S2000x128 .f32) (x1 : Vec F S2000x128 .bf16) (x2 : Vec F S128x256 .f32) (x3 : Vec F S128x256 .f32) (x4 : Vec F S1x256 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

theorem piece_A_6 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i) (x0 : Vec F S2000x128 .f32) (x1 : Vec F S2000x128 .bf16) (x2 : Vec F S128x256 .f32) (x3 : Vec F S128x256 .f32) (x4 : Vec F S1x256 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

theorem piece_A_7 (c : Dev nD) (i : grid2.Coords) (a1 : Memref sig .tc .vmem S2000x128 .f32) (h1 : a1.IsWhole) (a2 : Memref sig .tc .vmem S2000x128 .bf16) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i) (x0 : Vec F S2000x128 .f32) (x1 : Vec F S2000x128 .bf16) (x2 : Vec F S128x256 .f32) (x3 : Vec F S128x256 .f32) (x4 : Vec F S1x256 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz]

end Pieces

/-! ## The body's arithmetic read at an entry, over the extended reals -/

section Payloads
variable (x0 : Vec Ideal S2000x128 .f32) (x1 : Vec Ideal S2000x128 .bf16) (x2 x3 : Vec Ideal S128x256 .f32) (x4 : Vec Ideal S1x256 .f32)

theorem pay4_apply (b : Fin 2000) (j : Fin 256) :
    k2_pay4 (F := Ideal) x0 x1 x2 x3 x4 (ix2 b j)
      = ((∑ k : Fin 128, x0 (ix2 b k) * x2 (ix2 k j)) + x4 (ix2 (0 : Fin 1) j))
        + ∑ k : Fin 128, x1 (ix2 b k) * x3 (ix2 k j) := by
  unfold k2_pay4
  (try dsimp only)
  refine (addf_apply _ _ _).trans (congrArg₂ (· + ·) ((addf_apply _ _ _).trans (congrArg₂ (· + ·) ?_ ?_)) ?_)
  · rw [shapeCast_self x0, shapeCast_self x2]
    exact matmul_plain_zero_apply dot_S2000x128_S128x256_S2000x256_1_0_0_1_n_n_wf none x0 x2 b j
  · exact (broadcastTo_1b_ab_apply _ _ b j).trans (congrFun (shapeCast_self x4 _) _)
  · rw [shapeCast_self x1, shapeCast_self x3]
    exact matmul_plain_zero_apply dot_S2000x128_S128x256_S2000x256_1_0_0_1_n_n_wf none x1 x3 b j

theorem pay5_apply (s : Vec Ideal S1x256 .f32) (j : Fin 256) :
    k2_pay5 (F := Ideal) x0 x1 x2 x3 x4 s (ix2 (0 : Fin 1) j)
      = s (ix2 (0 : Fin 1) j) + ∑ b : Fin 2000, k2_pay4 (F := Ideal) x0 x1 x2 x3 x4 (ix2 b j) := by
  unfold k2_pay5
  (try dsimp only)
  refine (addf_apply _ _ _).trans (congrArg₂ (· + ·) (congrFun (shapeCast_self s _) _) ?_)
  refine (shapeCast_a_1a_apply _ _ (0 : Fin 1) j).trans ?_
  exact rowsum_apply _ _ _ _ _ j

theorem pay7_apply (j : Fin 256) :
    k2_pay7 (F := Ideal) x0 x1 x2 x3 x4 (ix1 j)
      = ∑ b : Fin 2000, k2_pay4 (F := Ideal) x0 x1 x2 x3 x4 (ix2 b j) * k2_pay4 (F := Ideal) x0 x1 x2 x3 x4 (ix2 b j) := by
  unfold k2_pay7
  (try dsimp only)
  exact (rowsum_apply _ _ _ _ _ j).trans (Finset.sum_congr rfl fun b _ => mulf_apply _ _ _)

theorem pay1_apply (v29 : FVec Ideal S1x256 .f32) (v31 : FVec Ideal S256 .f32) (j : Fin 256) :
    k2_pay1 (F := Ideal) v29 v31 (ix2 (0 : Fin 1) j) = v29 (ix2 (0 : Fin 1) j) + v31 (ix1 j) := by
  unfold k2_pay1
  (try dsimp only)
  exact (addf_apply _ _ _).trans (congrArg₂ (· + ·) rfl (shapeCast_a_1a_apply _ _ (0 : Fin 1) j))

theorem pay6_eq (v : Vec Ideal S1x256 .f32) : k2_pay6 (F := Ideal) v = v := by
  unfold k2_pay6
  exact shapeCast_self v _

theorem pay2_apply (i : S1x256.Idx) : k2_pay2 (F := Ideal) i = 0 := Ideal.ofBits_zero_f32
theorem pay3_apply (i : S1x256.Idx) : k2_pay3 (F := Ideal) i = 0 := Ideal.ofBits_zero_f32

end Payloads

/-! ## The region's arrays, entry by entry, and where a block's entry sits in its array -/

section Region
variable (V : (c : Dev nD) → (b : Ref sig .tc) → Buf (Elt Ideal) ((c : Thread nD τ).loc b)) (c : Dev nD)

/-- The aggregated table the region is entered with. -/
def aggE : Fin 50000 → Fin 128 → EReal := fun n k => (V c (Pipeline.arrRef spec2 0) : S50000x128.Idx → EReal) (ix2 n k)
/-- The table itself. -/
def tabE : Fin 50000 → Fin 128 → EReal := fun n k => (V c (Pipeline.arrRef spec2 1) : S50000x128.Idx → EReal) (ix2 n k)
/-- The first weight matrix; the region holds its transpose. -/
def wrelE : Fin 256 → Fin 128 → EReal := fun j k => (V c (Pipeline.arrRef spec2 2) : S128x256.Idx → EReal) (ix2 k j)
/-- The second weight matrix; the region holds its transpose. -/
def wrootE : Fin 256 → Fin 128 → EReal := fun j k => (V c (Pipeline.arrRef spec2 3) : S128x256.Idx → EReal) (ix2 k j)
/-- The bias, held as one row. -/
def biasE : Fin 256 → EReal := fun j => (V c (Pipeline.arrRef spec2 4) : S1x256.Idx → EReal) (ix2 (0 : Fin 1) j)
/-- The layer before normalisation, of those arrays. -/
def linE : Fin 50000 → Fin 256 → EReal := Cert.Spec.lin (aggE V c) (tabE V c) (wrelE V c) (wrootE V c) (biasE V c)

/-- The index maps over the grid: the row-blocked windows sit at block `t` of their first axis, the small operands and the
    two column-sum outputs never move. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

theorem row_lt (t : Fin cfg2.N) (b : Fin 2000) : 2000 * t.val + b.val < 50000 := by
  have hN : t.val < 25 := lt_of_lt_of_eq t.isLt (show cfg2.N = 25 from N_2)
  have := b.isLt
  omega

/-- Row `b` of block `t` is row `2000·t + b`. -/
def rowAt (t : Fin cfg2.N) (b : Fin 2000) : Fin 50000 := ⟨2000 * t.val + b.val, row_lt t b⟩

theorem emb0 (t : Fin cfg2.N) (b : Fin 2000) (k : Fin 128) :
    (((cfg2.win 0).blk t).view.emb (ix2 b k) : S50000x128.Idx) = ix2 (rowAt t b) k := by
  obtain ⟨⟨e0, e1⟩, -⟩ := idx2 t
  funext a; apply Fin.ext
  match a with
  | ⟨0, _⟩ => show win2_0.index t (0 : Fin 2) * 2000 + 1 * b.val = 2000 * t.val + b.val; rw [e0]; omega
  | ⟨1, _⟩ => show win2_0.index t (1 : Fin 2) * 128 + 1 * k.val = k.val; rw [e1]; omega

theorem emb1 (t : Fin cfg2.N) (b : Fin 2000) (k : Fin 128) :
    (((cfg2.win 1).blk t).view.emb (ix2 b k) : S50000x128.Idx) = ix2 (rowAt t b) k := by
  obtain ⟨-, ⟨e0, e1⟩, -⟩ := idx2 t
  funext a; apply Fin.ext
  match a with
  | ⟨0, _⟩ => show win2_1.index t (0 : Fin 2) * 2000 + 1 * b.val = 2000 * t.val + b.val; rw [e0]; omega
  | ⟨1, _⟩ => show win2_1.index t (1 : Fin 2) * 128 + 1 * k.val = k.val; rw [e1]; omega

theorem emb2 (t : Fin cfg2.N) (k : Fin 128) (j : Fin 256) :
    (((cfg2.win 2).blk t).view.emb (ix2 k j) : S128x256.Idx) = ix2 k j := by
  obtain ⟨-, -, ⟨e0, e1⟩, -⟩ := idx2 t
  funext a; apply Fin.ext
  match a with
  | ⟨0, _⟩ => show win2_2.index t (0 : Fin 2) * 128 + 1 * k.val = k.val; rw [e0]; omega
  | ⟨1, _⟩ => show win2_2.index t (1 : Fin 2) * 256 + 1 * j.val = j.val; rw [e1]; omega

theorem emb3 (t : Fin cfg2.N) (k : Fin 128) (j : Fin 256) :
    (((cfg2.win 3).blk t).view.emb (ix2 k j) : S128x256.Idx) = ix2 k j := by
  obtain ⟨-, -, -, ⟨e0, e1⟩, -⟩ := idx2 t
  funext a; apply Fin.ext
  match a with
  | ⟨0, _⟩ => show win2_3.index t (0 : Fin 2) * 128 + 1 * k.val = k.val; rw [e0]; omega
  | ⟨1, _⟩ => show win2_3.index t (1 : Fin 2) * 256 + 1 * j.val = j.val; rw [e1]; omega

theorem emb4 (t : Fin cfg2.N) (u : Fin 1) (j : Fin 256) :
    (((cfg2.win 4).blk t).view.emb (ix2 u j) : S1x256.Idx) = ix2 (0 : Fin 1) j := by
  obtain ⟨-, -, -, -, ⟨e0, e1⟩, -⟩ := idx2 t
  funext a; apply Fin.ext
  match a with
  | ⟨0, _⟩ => show win2_4.index t (0 : Fin 2) * 1 + 1 * u.val = 0; rw [e0]; omega
  | ⟨1, _⟩ => show win2_4.index t (1 : Fin 2) * 256 + 1 * j.val = j.val; rw [e1]; omega

theorem emb5 (t : Fin cfg2.N) (b : Fin 2000) (j : Fin 256) :
    (((cfg2.win 5).blk t).view.emb (ix2 b j) : S50000x256.Idx) = ix2 (rowAt t b) j := by
  obtain ⟨-, -, -, -, -, ⟨e0, e1⟩, -⟩ := idx2 t
  funext a; apply Fin.ext
  match a with
  | ⟨0, _⟩ => show win2_5.index t (0 : Fin 2) * 2000 + 1 * b.val = 2000 * t.val + b.val; rw [e0]; omega
  | ⟨1, _⟩ => show win2_5.index t (1 : Fin 2) * 256 + 1 * j.val = j.val; rw [e1]; omega

theorem emb6 (t : Fin cfg2.N) (u : Fin 1) (j : Fin 256) :
    (((cfg2.win 6).blk t).view.emb (ix2 u j) : S1x256.Idx) = ix2 (0 : Fin 1) j := by
  obtain ⟨-, -, -, -, -, -, ⟨e0, e1⟩, -⟩ := idx2 t
  funext a; apply Fin.ext
  match a with
  | ⟨0, _⟩ => show win2_6.index t (0 : Fin 2) * 1 + 1 * u.val = 0; rw [e0]; omega
  | ⟨1, _⟩ => show win2_6.index t (1 : Fin 2) * 256 + 1 * j.val = j.val; rw [e1]; omega

theorem emb7 (t : Fin cfg2.N) (u : Fin 1) (j : Fin 256) :
    (((cfg2.win 7).blk t).view.emb (ix2 u j) : S1x256.Idx) = ix2 (0 : Fin 1) j := by
  obtain ⟨-, -, -, -, -, -, -, ⟨e0, e1⟩⟩ := idx2 t
  funext a; apply Fin.ext
  match a with
  | ⟨0, _⟩ => show win2_7.index t (0 : Fin 2) * 1 + 1 * u.val = 0; rw [e0]; omega
  | ⟨1, _⟩ => show win2_7.index t (1 : Fin 2) * 256 + 1 * j.val = j.val; rw [e1]; omega

/-! ## The input blocks read at an entry -/

theorem blk0_apply (t : Fin cfg2.N) (b : Fin 2000) (k : Fin 128) :
    (iblk2 V c 0 t : S2000x128.Idx → EReal) (ix2 b k) = aggE V c (rowAt t b) k :=
  congrArg (V c (Pipeline.arrRef spec2 0) : S50000x128.Idx → EReal) (emb0 t b k)

theorem blk1_apply (t : Fin cfg2.N) (b : Fin 2000) (k : Fin 128) :
    (iblk2 V c 1 t : S2000x128.Idx → EReal) (ix2 b k) = tabE V c (rowAt t b) k :=
  congrArg (V c (Pipeline.arrRef spec2 1) : S50000x128.Idx → EReal) (emb1 t b k)

theorem blk2_apply (t : Fin cfg2.N) (k : Fin 128) (j : Fin 256) :
    (iblk2 V c 2 t : S128x256.Idx → EReal) (ix2 k j) = wrelE V c j k :=
  congrArg (V c (Pipeline.arrRef spec2 2) : S128x256.Idx → EReal) (emb2 t k j)

theorem blk3_apply (t : Fin cfg2.N) (k : Fin 128) (j : Fin 256) :
    (iblk2 V c 3 t : S128x256.Idx → EReal) (ix2 k j) = wrootE V c j k :=
  congrArg (V c (Pipeline.arrRef spec2 3) : S128x256.Idx → EReal) (emb3 t k j)

theorem blk4_apply (t : Fin cfg2.N) (j : Fin 256) :
    (iblk2 V c 4 t : S1x256.Idx → EReal) (ix2 (0 : Fin 1) j) = biasE V c j :=
  congrArg (V c (Pipeline.arrRef spec2 4) : S1x256.Idx → EReal) (emb4 t 0 j)

/-- The body's block of the layer at point `t`, entry `(b, j)`, is the layer at row `2000·t + b`. -/
theorem pay4_blocks (t : Fin cfg2.N) (b : Fin 2000) (j : Fin 256) :
    k2_pay4 (F := Ideal) (iblk2 V c 0 t) (iblk2 V c 1 t) (iblk2 V c 2 t) (iblk2 V c 3 t) (iblk2 V c 4 t) (ix2 b j) = linE V c (rowAt t b) j := by
  refine (pay4_apply (iblk2 V c 0 t) (iblk2 V c 1 t) (iblk2 V c 2 t) (iblk2 V c 3 t) (iblk2 V c 4 t) b j).trans ?_
  refine congrArg₂ (· + ·) (congrArg₂ (· + ·) (Finset.sum_congr rfl fun k _ => ?_) ?_) (Finset.sum_congr rfl fun k _ => ?_)
  · exact congrArg₂ (· * ·) (blk0_apply V c t b k) (blk2_apply V c t k j)
  · exact blk4_apply V c t j
  · exact congrArg₂ (· * ·) (blk1_apply V c t b k) (blk3_apply V c t k j)

/-! ## What the outputs' staging buffers hold after each point -/

/-- Output 5 after point `t`: the body's block of the layer, whichever case the point is. -/
theorem outs5 (t : Fin cfg2.N) :
    (outsAt2 V c t.val t.isLt).1 = k2_pay4 (F := Ideal) (iblk2 V c 0 t) (iblk2 V c 1 t) (iblk2 V c 2 t) (iblk2 V c 3 t) (iblk2 V c 4 t) := by
  by_cases h0 : t.val % 25 = 0
  · rw [outsAt2_A V c t h0]
    dsimp only
    exact piece_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact piece_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _

/-! ## The two running rows -/

theorem point_lt (t : Fin cfg2.N) : t.val < 25 := lt_of_lt_of_eq t.isLt (show cfg2.N = 25 from N_2)

/-- The column sums of the block at point `t` are the layer's column sums over the rows of block `t`. -/
theorem colsum_block (t : Fin cfg2.N) (j : Fin 256) :
    ∑ b : Fin 2000, k2_pay4 (F := Ideal) (iblk2 V c 0 t) (iblk2 V c 1 t) (iblk2 V c 2 t) (iblk2 V c 3 t) (iblk2 V c 4 t) (ix2 b j)
      = blockSum 25 2000 rfl (fun r => linE V c r j) t.val := by
  rw [blockSum_of_lt 25 2000 rfl (fun r => linE V c r j) t.val (point_lt t)]
  exact Finset.sum_congr rfl fun b _ => pay4_blocks V c t b j

/-- The same for the squares. -/
theorem sqsum_block (t : Fin cfg2.N) (j : Fin 256) :
    ∑ b : Fin 2000, k2_pay4 (F := Ideal) (iblk2 V c 0 t) (iblk2 V c 1 t) (iblk2 V c 2 t) (iblk2 V c 3 t) (iblk2 V c 4 t) (ix2 b j) * k2_pay4 (F := Ideal) (iblk2 V c 0 t) (iblk2 V c 1 t) (iblk2 V c 2 t) (iblk2 V c 3 t) (iblk2 V c 4 t) (ix2 b j)
      = blockSum 25 2000 rfl (fun r => linE V c r j * linE V c r j) t.val := by
  rw [blockSum_of_lt 25 2000 rfl (fun r => linE V c r j * linE V c r j) t.val (point_lt t)]
  exact Finset.sum_congr rfl fun b _ => congrArg₂ (· * ·) (pay4_blocks V c t b j) (pay4_blocks V c t b j)

/-- The row of sums after the first point: cleared, then the first block's column sums. -/
theorem sums_first (t : Fin cfg2.N) (h0 : t.val % 25 = 0) (j : Fin 256) :
    (outsAt2 V c t.val t.isLt).2.1 (ix2 (0 : Fin 1) j) = blockSum 25 2000 rfl (fun r => linE V c r j) t.val := by
  rw [outsAt2_A V c t h0]
  dsimp only
  refine (congrFun (piece_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) (ix2 (0 : Fin 1) j)).trans ?_
  refine (pay5_apply (iblk2 V c 0 t) (iblk2 V c 1 t) (iblk2 V c 2 t) (iblk2 V c 3 t) (iblk2 V c 4 t) (k2_pay2 (F := Ideal)) j).trans ?_
  rw [pay2_apply, zero_add]
  exact colsum_block V c t j

/-- The row of sums after a later point: what the point before left, plus this block's column sums. -/
theorem sums_next (t : Fin cfg2.N) (h0 : ¬t.val % 25 = 0) (j : Fin 256) :
    (outsAt2 V c t.val t.isLt).2.1 (ix2 (0 : Fin 1) j)
      = (outsAt2 V c (t.val - 1) (Nat.lt_of_le_of_lt (Nat.sub_le _ _) t.isLt)).2.1 (ix2 (0 : Fin 1) j)
        + blockSum 25 2000 rfl (fun r => linE V c r j) t.val := by
  rw [outsAt2_B V c t h0]
  dsimp only
  refine (congrFun (piece_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _) (ix2 (0 : Fin 1) j)).trans ?_
  refine (pay5_apply (iblk2 V c 0 t) (iblk2 V c 1 t) (iblk2 V c 2 t) (iblk2 V c 3 t) (iblk2 V c 4 t) _ j).trans ?_
  exact congrArg₂ (· + ·) rfl (colsum_block V c t j)

/-- So after point `n` the row of sums holds the column sums over the first `n + 1` blocks. -/
theorem sums_upto (j : Fin 256) : ∀ (n : ℕ) (hn : n < cfg2.N),
    (outsAt2 V c n hn).2.1 (ix2 (0 : Fin 1) j) = ∑ s ∈ Finset.range (n + 1), blockSum 25 2000 rfl (fun r => linE V c r j) s
  | 0, hn => by
    rw [Finset.sum_range_succ, Finset.sum_range_zero, zero_add]
    exact sums_first V c ⟨0, hn⟩ (Nat.zero_mod 25) j
  | n + 1, hn => by
    have hN : n + 1 < 25 := lt_of_lt_of_eq hn (show cfg2.N = 25 from N_2)
    rw [Finset.sum_range_succ, ← sums_upto j n (Nat.lt_of_succ_lt hn)]
    exact sums_next V c ⟨n + 1, hn⟩ (by show ¬(n + 1) % 25 = 0; omega) j

/-- The row of sums of squares after the first point. -/
theorem sqs_first (t : Fin cfg2.N) (h0 : t.val % 25 = 0) (j : Fin 256) :
    (outsAt2 V c t.val t.isLt).2.2 (ix2 (0 : Fin 1) j) = blockSum 25 2000 rfl (fun r => linE V c r j * linE V c r j) t.val := by
  rw [outsAt2_A V c t h0]
  dsimp only
  refine (congrFun (piece_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) (ix2 (0 : Fin 1) j)).trans ?_
  refine (pay1_apply _ _ j).trans ?_
  rw [pay6_eq, pay3_apply, zero_add]
  exact (pay7_apply (iblk2 V c 0 t) (iblk2 V c 1 t) (iblk2 V c 2 t) (iblk2 V c 3 t) (iblk2 V c 4 t) j).trans (sqsum_block V c t j)

/-- The row of sums of squares after a later point. -/
theorem sqs_next (t : Fin cfg2.N) (h0 : ¬t.val % 25 = 0) (j : Fin 256) :
    (outsAt2 V c t.val t.isLt).2.2 (ix2 (0 : Fin 1) j)
      = (outsAt2 V c (t.val - 1) (Nat.lt_of_le_of_lt (Nat.sub_le _ _) t.isLt)).2.2 (ix2 (0 : Fin 1) j)
        + blockSum 25 2000 rfl (fun r => linE V c r j * linE V c r j) t.val := by
  rw [outsAt2_B V c t h0]
  dsimp only
  refine (congrFun (piece_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _) (ix2 (0 : Fin 1) j)).trans ?_
  refine (pay1_apply _ _ j).trans ?_
  rw [pay6_eq]
  exact congrArg₂ (· + ·) rfl ((pay7_apply (iblk2 V c 0 t) (iblk2 V c 1 t) (iblk2 V c 2 t) (iblk2 V c 3 t) (iblk2 V c 4 t) j).trans (sqsum_block V c t j))

/-- After point `n` it holds the column sums of the squares over the first `n + 1` blocks. -/
theorem sqs_upto (j : Fin 256) : ∀ (n : ℕ) (hn : n < cfg2.N),
    (outsAt2 V c n hn).2.2 (ix2 (0 : Fin 1) j)
      = ∑ s ∈ Finset.range (n + 1), blockSum 25 2000 rfl (fun r => linE V c r j * linE V c r j) s
  | 0, hn => by
    rw [Finset.sum_range_succ, Finset.sum_range_zero, zero_add]
    exact sqs_first V c ⟨0, hn⟩ (Nat.zero_mod 25) j
  | n + 1, hn => by
    have hN : n + 1 < 25 := lt_of_lt_of_eq hn (show cfg2.N = 25 from N_2)
    rw [Finset.sum_range_succ, ← sqs_upto j n (Nat.lt_of_succ_lt hn)]
    exact sqs_next V c ⟨n + 1, hn⟩ (by show ¬(n + 1) % 25 = 0; omega) j

/-! ## What the points write back -/

/-- An entry of the block of the layer at point `t` is the layer's entry at the place the block puts it. -/
theorem layer_block (t : Fin cfg2.N) (y : S2000x256.Idx) :
    k2_pay4 (F := Ideal) (iblk2 V c 0 t) (iblk2 V c 1 t) (iblk2 V c 2 t) (iblk2 V c 3 t) (iblk2 V c 4 t) y = Cert.Spec.arr2 (linE V c) (((cfg2.win 5).blk t).view.emb y) := by
  obtain ⟨b, j, rfl⟩ : ∃ (b : Fin 2000) (j : Fin 256), y = ix2 b j := ⟨y 0, y 1, eq_ix2 y⟩
  rw [emb5 t b j]
  exact pay4_blocks V c t b j

set_option maxHeartbeats 1000000 in
/-- Every point writes back its block of the layer. -/
theorem flushed_layer (t : Fin cfg2.N) :
    (dat2 V c).flushed 5 t = ((cfg2.win 5).blk t).view.read (Elt Ideal) (Cert.Spec.arr2 (linE V c)) := by
  show (cfg2.win 5).cut (grid2.coords t) ((dat2 V c).after 5 t) = _
  rw [after2_5, outs5 V c t]
  funext y
  show k2_pay4 (F := Ideal) (iblk2 V c 0 t) (iblk2 V c 1 t) (iblk2 V c 2 t) (iblk2 V c 3 t) (iblk2 V c 4 t) y = Cert.Spec.arr2 (linE V c) (((cfg2.win 5).blk t).view.emb y)
  exact layer_block V c t y

/-- A one-row index has row coordinate 0. -/
theorem row_idx (y : S1x256.Idx) : y = ix2 (0 : Fin 1) (y 1) := by
  have hv : (y 0).val = 0 := by have := idx2_lt0 y; omega
  have h0 : (y 0 : Fin 1) = (⟨0, Nat.one_pos⟩ : Fin 1) := Fin.ext hv
  exact (eq_ix2 y).trans (congrArg (fun u : Fin 1 => ix2 u (y 1)) h0)

/-- The one block of a running row is the whole row (window 6). -/
theorem emb_row6 (t : Fin cfg2.N) (y : S1x256.Idx) :
    (((cfg2.win 6).blk t).view.emb y : S1x256.Idx) = ix2 (0 : Fin 1) (y 1) := by
  obtain ⟨-, -, -, -, -, -, ⟨e0, e1⟩, -⟩ := idx2 t
  have hy := idx2_lt0 y
  funext a; apply Fin.ext
  match a with
  | ⟨0, _⟩ => show win2_6.index t (0 : Fin 2) * 1 + 1 * (y 0).val = 0; rw [e0]; omega
  | ⟨1, _⟩ => show win2_6.index t (1 : Fin 2) * 256 + 1 * (y 1).val = (y 1).val; rw [e1]; omega

/-- Window 7. -/
theorem emb_row7 (t : Fin cfg2.N) (y : S1x256.Idx) :
    (((cfg2.win 7).blk t).view.emb y : S1x256.Idx) = ix2 (0 : Fin 1) (y 1) := by
  obtain ⟨-, -, -, -, -, -, -, ⟨e0, e1⟩⟩ := idx2 t
  have hy := idx2_lt0 y
  funext a; apply Fin.ext
  match a with
  | ⟨0, _⟩ => show win2_7.index t (0 : Fin 2) * 1 + 1 * (y 0).val = 0; rw [e0]; omega
  | ⟨1, _⟩ => show win2_7.index t (1 : Fin 2) * 256 + 1 * (y 1).val = (y 1).val; rw [e1]; omega

/-- A row `X` written back through window 6 is the block of any array `G` it agrees with entry by entry. -/
theorem cut_row6 (t : Fin cfg2.N) (X : Vec Ideal S1x256 .f32) (G : S1x256.Idx → EReal)
    (h : ∀ j : Fin 256, X (ix2 (0 : Fin 1) j) = G (ix2 (0 : Fin 1) j)) :
    (cfg2.win 6).cut (grid2.coords t) X = ((cfg2.win 6).blk t).view.read (Elt Ideal) G := by
  funext y
  show X y = G (((cfg2.win 6).blk t).view.emb y)
  exact (congrArg X (row_idx y)).trans ((h (y 1)).trans (congrArg G (emb_row6 t y).symm))

/-- The same through window 7. -/
theorem cut_row7 (t : Fin cfg2.N) (X : Vec Ideal S1x256 .f32) (G : S1x256.Idx → EReal)
    (h : ∀ j : Fin 256, X (ix2 (0 : Fin 1) j) = G (ix2 (0 : Fin 1) j)) :
    (cfg2.win 7).cut (grid2.coords t) X = ((cfg2.win 7).blk t).view.read (Elt Ideal) G := by
  funext y
  show X y = G (((cfg2.win 7).blk t).view.emb y)
  exact (congrArg X (row_idx y)).trans ((h (y 1)).trans (congrArg G (emb_row7 t y).symm))

set_option maxHeartbeats 1000000 in
/-- The last point, the only one that writes the row of sums back, writes the column sums over all the nodes: any
    array `G` that holds them. -/
theorem flushed_sums (t : Fin cfg2.N) (hf : (cfg2.win 6).flush t = true) (G : S1x256.Idx → EReal)
    (hG : ∀ j : Fin 256, G (ix2 (0 : Fin 1) j) = ∑ n : Fin 50000, linE V c n j) :
    (dat2 V c).flushed 6 t = ((cfg2.win 6).blk t).view.read (Elt Ideal) G := by
  have h24 : t.val = 24 := by have := (flush2_6 t).mp hf; have := point_lt t; omega
  show (cfg2.win 6).cut (grid2.coords t) ((dat2 V c).after 6 t) = _
  rw [after2_6]
  refine cut_row6 t _ G fun j => ?_
  rw [sums_upto V c j t.val t.isLt, h24, hG j]
  exact sum_range_blockSum 25 2000 rfl (fun r => linE V c r j)

set_option maxHeartbeats 1000000 in
/-- Likewise the row of sums of squares. -/
theorem flushed_sqs (t : Fin cfg2.N) (hf : (cfg2.win 7).flush t = true) (G : S1x256.Idx → EReal)
    (hG : ∀ j : Fin 256, G (ix2 (0 : Fin 1) j) = ∑ n : Fin 50000, linE V c n j * linE V c n j) :
    (dat2 V c).flushed 7 t = ((cfg2.win 7).blk t).view.read (Elt Ideal) G := by
  have h24 : t.val = 24 := by have := (flush2_7 t).mp hf; have := point_lt t; omega
  show (cfg2.win 7).cut (grid2.coords t) ((dat2 V c).after 7 t) = _
  rw [after2_7]
  refine cut_row7 t _ G fun j => ?_
  rw [sqs_upto V c j t.val t.isLt, h24, hG j]
  exact sum_range_blockSum 25 2000 rfl (fun r => linE V c r j * linE V c r j)

/-! ## The blocks cover the arrays -/

theorem mem_blk5 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v47_0).slice (win2_5.rect t)).set ↔ _
  rw [View.set_slice_whole, Rect.mem_set_unit]
  exact Iff.rfl

/-- Row `r` of the layer is in the block of point `r / 2000`, and every point writes its block back. -/
theorem cover5 (i : S50000x256.Idx) :
    ∃ t : Fin cfg2.N, (cfg2.win 5).flush t = true ∧ i ∈ ((cfg2.win 5).blk t).view.set := by
  have hN : cfg2.N = 25 := N_2
  have h0 : (i 0).val < 50000 := idx2_lt0 i
  have h1 : (i 1).val < 256 := idx2_lt1 i
  have ht : (i 0).val / 2000 < cfg2.N := by rw [hN]; omega
  obtain ⟨-, -, -, -, -, ⟨e0, e1⟩, -⟩ := idx2 ⟨(i 0).val / 2000, ht⟩
  have e0' : win2_5.index ⟨(i 0).val / 2000, ht⟩ (0 : Fin 2) = (i 0).val / 2000 := e0
  refine ⟨⟨(i 0).val / 2000, ht⟩, flush2_5 _, ?_⟩
  rw [mem_blk5]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    omega

theorem mem_blk6 (t : Fin cfg2.N) (i : S1x256.Idx) :
    i ∈ ((cfg2.win 6).blk t).view.set ↔ ∀ a : Fin 2, win2_6.index t a * S1x256.size a ≤ (i a).val
      ∧ (i a).val < win2_6.index t a * S1x256.size a + S1x256.size a := by
  show i ∈ ((View.whole main_v47_1).slice (win2_6.rect t)).set ↔ _
  rw [View.set_slice_whole, Rect.mem_set_unit]
  exact Iff.rfl

theorem mem_blk7 (t : Fin cfg2.N) (i : S1x256.Idx) :
    i ∈ ((cfg2.win 7).blk t).view.set ↔ ∀ a : Fin 2, win2_7.index t a * S1x256.size a ≤ (i a).val
      ∧ (i a).val < win2_7.index t a * S1x256.size a + S1x256.size a := by
  show i ∈ ((View.whole main_v47_2).slice (win2_7.rect t)).set ↔ _
  rw [View.set_slice_whole, Rect.mem_set_unit]
  exact Iff.rfl

theorem last_lt : 24 < cfg2.N := by rw [show cfg2.N = 25 from N_2]; omega

/-- The last point's one block is the whole row, and the last point writes it back (window 6). -/
theorem cover6 (i : S1x256.Idx) :
    ∃ t : Fin cfg2.N, (cfg2.win 6).flush t = true ∧ i ∈ ((cfg2.win 6).blk t).view.set := by
  have h0 : (i 0).val < 1 := idx2_lt0 i
  have h1 : (i 1).val < 256 := idx2_lt1 i
  obtain ⟨-, -, -, -, -, -, ⟨e0, e1⟩, -⟩ := idx2 ⟨24, last_lt⟩
  refine ⟨⟨24, last_lt⟩, (flush2_6 _).mpr rfl, ?_⟩
  rw [mem_blk6]
  intro a
  match a with
  | ⟨0, _⟩ =>
    show win2_6.index ⟨24, last_lt⟩ (0 : Fin 2) * 1 ≤ (i 0).val ∧ (i 0).val < win2_6.index ⟨24, last_lt⟩ (0 : Fin 2) * 1 + 1
    omega
  | ⟨1, _⟩ =>
    show win2_6.index ⟨24, last_lt⟩ (1 : Fin 2) * 256 ≤ (i 1).val ∧ (i 1).val < win2_6.index ⟨24, last_lt⟩ (1 : Fin 2) * 256 + 256
    omega

/-- Window 7. -/
theorem cover7 (i : S1x256.Idx) :
    ∃ t : Fin cfg2.N, (cfg2.win 7).flush t = true ∧ i ∈ ((cfg2.win 7).blk t).view.set := by
  have h0 : (i 0).val < 1 := idx2_lt0 i
  have h1 : (i 1).val < 256 := idx2_lt1 i
  obtain ⟨-, -, -, -, -, -, -, ⟨e0, e1⟩⟩ := idx2 ⟨24, last_lt⟩
  refine ⟨⟨24, last_lt⟩, (flush2_7 _).mpr rfl, ?_⟩
  rw [mem_blk7]
  intro a
  match a with
  | ⟨0, _⟩ =>
    show win2_7.index ⟨24, last_lt⟩ (0 : Fin 2) * 1 ≤ (i 0).val ∧ (i 0).val < win2_7.index ⟨24, last_lt⟩ (0 : Fin 2) * 1 + 1
    omega
  | ⟨1, _⟩ =>
    show win2_7.index ⟨24, last_lt⟩ (1 : Fin 2) * 256 ≤ (i 1).val ∧ (i 1).val < win2_7.index ⟨24, last_lt⟩ (1 : Fin 2) * 256 + 256
    omega

/-! ## The three arrays the region leaves -/

/-- The layer of the region's own operand arrays is the layer of whatever those arrays hold entry by entry. -/
theorem linE_eq (A X : Fin 50000 → Fin 128 → EReal) (Wrel Wroot : Fin 256 → Fin 128 → EReal) (b : Fin 256 → EReal)
    (hA : ∀ n k, (V c (Pipeline.arrRef spec2 0) : S50000x128.Idx → EReal) (ix2 n k) = A n k)
    (hX : ∀ n k, (V c (Pipeline.arrRef spec2 1) : S50000x128.Idx → EReal) (ix2 n k) = X n k)
    (hWrel : ∀ j k, (V c (Pipeline.arrRef spec2 2) : S128x256.Idx → EReal) (ix2 k j) = Wrel j k)
    (hWroot : ∀ j k, (V c (Pipeline.arrRef spec2 3) : S128x256.Idx → EReal) (ix2 k j) = Wroot j k)
    (hb : ∀ j, (V c (Pipeline.arrRef spec2 4) : S1x256.Idx → EReal) (ix2 (0 : Fin 1) j) = b j) :
    linE V c = Cert.Spec.lin A X Wrel Wroot b := by
  have e0 : aggE V c = A := funext fun n => funext fun k => hA n k
  have e1 : tabE V c = X := funext fun n => funext fun k => hX n k
  have e2 : wrelE V c = Wrel := funext fun j => funext fun k => hWrel j k
  have e3 : wrootE V c = Wroot := funext fun j => funext fun k => hWroot j k
  have e4 : biasE V c = b := funext fun j => hb j
  unfold linE
  rw [e0, e1, e2, e3, e4]

set_option maxHeartbeats 1000000 in
/-- THE LAYER: the first output array is `A · Wrelᵀ + b + X · Wrootᵀ` at every node. -/
theorem region2_h (A X : Fin 50000 → Fin 128 → EReal) (Wrel Wroot : Fin 256 → Fin 128 → EReal) (b : Fin 256 → EReal)
    (hA : ∀ n k, (V c (Pipeline.arrRef spec2 0) : S50000x128.Idx → EReal) (ix2 n k) = A n k)
    (hX : ∀ n k, (V c (Pipeline.arrRef spec2 1) : S50000x128.Idx → EReal) (ix2 n k) = X n k)
    (hWrel : ∀ j k, (V c (Pipeline.arrRef spec2 2) : S128x256.Idx → EReal) (ix2 k j) = Wrel j k)
    (hWroot : ∀ j k, (V c (Pipeline.arrRef spec2 3) : S128x256.Idx → EReal) (ix2 k j) = Wroot j k)
    (hb : ∀ j, (V c (Pipeline.arrRef spec2 4) : S1x256.Idx → EReal) (ix2 (0 : Fin 1) j) = b j) :
    ((dat2 V c).arrAt 5 cfg2.N : S50000x256.Idx → EReal) = Cert.Spec.arr2 (Cert.Spec.lin A X Wrel Wroot b) := by
  rw [← linE_eq V c A X Wrel Wroot b hA hX hWrel hWroot hb]
  exact (dat2 V c).arrAt_eq_of_cover 5 (Cert.Spec.arr2 (linE V c)) (fun t _ => flushed_layer V c t) cover5

set_option maxHeartbeats 1000000 in
/-- ITS COLUMN SUMS over all the nodes: the second output array. -/
theorem region2_s (A X : Fin 50000 → Fin 128 → EReal) (Wrel Wroot : Fin 256 → Fin 128 → EReal) (b : Fin 256 → EReal)
    (hA : ∀ n k, (V c (Pipeline.arrRef spec2 0) : S50000x128.Idx → EReal) (ix2 n k) = A n k)
    (hX : ∀ n k, (V c (Pipeline.arrRef spec2 1) : S50000x128.Idx → EReal) (ix2 n k) = X n k)
    (hWrel : ∀ j k, (V c (Pipeline.arrRef spec2 2) : S128x256.Idx → EReal) (ix2 k j) = Wrel j k)
    (hWroot : ∀ j k, (V c (Pipeline.arrRef spec2 3) : S128x256.Idx → EReal) (ix2 k j) = Wroot j k)
    (hb : ∀ j, (V c (Pipeline.arrRef spec2 4) : S1x256.Idx → EReal) (ix2 (0 : Fin 1) j) = b j) :
    ((dat2 V c).arrAt 6 cfg2.N : S1x256.Idx → EReal)
      = Cert.Spec.arr2 (fun (_ : Fin 1) j => ∑ n : Fin 50000, Cert.Spec.lin A X Wrel Wroot b n j) := by
  rw [← linE_eq V c A X Wrel Wroot b hA hX hWrel hWroot hb]
  exact (dat2 V c).arrAt_eq_of_cover 6 _
    (fun t hf => flushed_sums V c t hf _ (fun j => Cert.Spec.arr2_ix2 _ _ _)) cover6

set_option maxHeartbeats 1000000 in
/-- THE COLUMN SUMS OF ITS SQUARES over all the nodes: the third output array. -/
theorem region2_ss (A X : Fin 50000 → Fin 128 → EReal) (Wrel Wroot : Fin 256 → Fin 128 → EReal) (b : Fin 256 → EReal)
    (hA : ∀ n k, (V c (Pipeline.arrRef spec2 0) : S50000x128.Idx → EReal) (ix2 n k) = A n k)
    (hX : ∀ n k, (V c (Pipeline.arrRef spec2 1) : S50000x128.Idx → EReal) (ix2 n k) = X n k)
    (hWrel : ∀ j k, (V c (Pipeline.arrRef spec2 2) : S128x256.Idx → EReal) (ix2 k j) = Wrel j k)
    (hWroot : ∀ j k, (V c (Pipeline.arrRef spec2 3) : S128x256.Idx → EReal) (ix2 k j) = Wroot j k)
    (hb : ∀ j, (V c (Pipeline.arrRef spec2 4) : S1x256.Idx → EReal) (ix2 (0 : Fin 1) j) = b j) :
    ((dat2 V c).arrAt 7 cfg2.N : S1x256.Idx → EReal)
      = Cert.Spec.arr2 (fun (_ : Fin 1) j => ∑ n : Fin 50000,
          Cert.Spec.lin A X Wrel Wroot b n j * Cert.Spec.lin A X Wrel Wroot b n j) := by
  rw [← linE_eq V c A X Wrel Wroot b hA hX hWrel hWroot hb]
  exact (dat2 V c).arrAt_eq_of_cover 7 _
    (fun t hf => flushed_sqs V c t hf _ (fun j => Cert.Spec.arr2_ix2 _ _ _)) cover7

end Region

end Cert.KSide.R2

end
-- ==== Proof.KRegion3.lean ====
/-
  The second normalisation region of the kernel program, read as one array.

  The region walks the 50000 rows of a 256-column table in 25 blocks of 2000 rows. At every block it has the whole
  row vectors of the column means, the column variances, the scales and the shifts, and it replaces each entry
  `h` of the block in column `j` by `tanh (((h - mean j) * rsqrt (var j + eps)) * scale j + shift j)`. The change of
  float format on the way out is the identity on extended reals. Since an entry's new value depends only on the
  entry and on its column, every block is the restriction of ONE function of the five operand arrays, and since the
  25 row blocks tile the table, the array the region leaves is that function: `Spec.bn` of the operands.
-/
import proofs.«129947_j42545946034237_2_alg».proof.Proof.Gen.KernelIdeal.Frame
import proofs.«129947_j42545946034237_2_alg».proof.Proof.Spec
import Idealize.ShloMosaic.Lib.Pipeline.Value
import Idealize.ShloMosaic.Lib.ValueIdx

noncomputable section

namespace Cert.KSide.R3

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block -/

/-- A row vector broadcast down the 2000 rows of a block reads, in row `b` and column `j`, its entry of column `j`. -/
theorem rowBroadcast_apply (x : Vec Ideal S1x256 .f32) (b : Fin 2000) (j : Fin 256) :
    broadcastTo S2000x256 x broadcasts_S1x256_S2000x256 (ix2 b j) = x (ix2 (0 : Fin 1) j) := by
  refine broadcastTo_apply x broadcasts_S1x256_S2000x256 (ix2 b j) (ix2 (0 : Fin 1) j) (fun a => ?_)
  match a with
  | ⟨0, _⟩ => rfl
  | ⟨1, _⟩ => rfl

/-- The body's stored value in row `b`, column `j` of a block: the entry normalised by its column's mean `xm` and
    variance `xv`, scaled by `xg`, shifted by `xb`, through tanh. -/
theorem pay_apply (x0 : Vec Ideal S2000x256 .f32) (xv xm xg xb : Vec Ideal S1x256 .f32) (b : Fin 2000) (j : Fin 256) :
    k3_pay1 x0 xv xm xg xb (ix2 b j)
      = Ideal.tanh (((x0 (ix2 b j) - xm (ix2 (0 : Fin 1) j)) * Ideal.rsqrt (xv (ix2 (0 : Fin 1) j) + Cert.Spec.cEps))
          * xg (ix2 (0 : Fin 1) j) + xb (ix2 (0 : Fin 1) j)) := by
  unfold k3_pay1
  simp only [shapeCast_self]
  show Ideal.tanh (((x0 (ix2 b j) - broadcastTo S2000x256 xm broadcasts_S1x256_S2000x256 (ix2 b j))
      * broadcastTo S2000x256 (rsqrt (F := Ideal) (addf (F := Ideal) xv (broadcast S1x256 (Scalar.ofBits (F := Ideal) .f32 0x3727C5AC#32)))) broadcasts_S1x256_S2000x256 (ix2 b j))
      * broadcastTo S2000x256 xg broadcasts_S1x256_S2000x256 (ix2 b j)
      + broadcastTo S2000x256 xb broadcasts_S1x256_S2000x256 (ix2 b j)) = _
  rw [rowBroadcast_apply, rowBroadcast_apply, rowBroadcast_apply, rowBroadcast_apply]
  rfl

/-! ## The whole array as one function of the operands -/

/-- The normalised table as an array, from the table `A0` and the row vectors of means `A1`, variances `A2`,
    scales `A3` and shifts `A4`. -/
def normArr (A0 : S50000x256.Idx → EReal) (A1 A2 A3 A4 : S1x256.Idx → EReal) : S50000x256.Idx → EReal :=
  Cert.Spec.arr2 (Cert.Spec.bn (fun n j => A0 (ix2 n j)) (fun j => A1 (ix2 (0 : Fin 1) j)) (fun j => A2 (ix2 (0 : Fin 1) j))
    (fun j => A3 (ix2 (0 : Fin 1) j)) (fun j => A4 (ix2 (0 : Fin 1) j)))

/-- An entry of a block is the entry of `normArr` at the table index `i` it sits at, as soon as the block's table
    entry is the table's at `i`, `i` is in the same column, and the block's row vectors are the whole row vectors. -/
theorem block_apply (A0 : S50000x256.Idx → EReal) (A1 A2 A3 A4 : S1x256.Idx → EReal)
    (X0 : Vec Ideal S2000x256 .f32) (X1 X2 X3 X4 : Vec Ideal S1x256 .f32) (y : S2000x256.Idx) (i : S50000x256.Idx)
    (h0 : X0 y = A0 i) (hi : (i 1).val = (y 1).val) (h1 : X1 = A1) (h2 : X2 = A2) (h3 : X3 = A3) (h4 : X4 = A4) :
    k3_pay1 X0 X2 X1 X3 X4 y = normArr A0 A1 A2 A3 A4 i := by
  obtain ⟨b, j, rfl⟩ : ∃ (b : Fin 2000) (j : Fin 256), y = ix2 b j := ⟨y 0, y 1, eq_ix2 y⟩
  obtain ⟨n, q, rfl⟩ : ∃ (n : Fin 50000) (q : Fin 256), i = ix2 n q := ⟨i 0, i 1, eq_ix2 i⟩
  obtain rfl : q = j := Fin.ext hi
  subst h1 h2 h3 h4
  rw [pay_apply, h0]
  rfl

/-! ## Where the blocks sit -/

theorem hz : (![0, 0] : Fin 2 → Nat) = fun _ => 0 := funext fun a => by fin_cases a <;> rfl

/-- The block indices over the 25 grid points: the table's input block moves with the output block, which is row
    block `t` in the one column block; the four row vectors stay at their one block. -/
theorem idx_facts : ∀ t : Fin cfg3.N,
    win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- The table's block at point `t`, entry `y`, is the table at the place the OUTPUT's block puts `y`. -/
theorem iblk_table (c : Dev nD) (t : Fin cfg3.N) (y : S2000x256.Idx) :
    (iblk3 V c 0 t : S2000x256.Idx → EReal) y
      = (V c (Pipeline.arrRef spec3 0) : S50000x256.Idx → EReal) (((cfg3.win 5).blk t).view.emb y) := by
  obtain ⟨e0, e1, -⟩ := idx_facts t
  show V c (Pipeline.arrRef spec3 0) (((cfg3.win 0).blk t).view.emb y) = V c (Pipeline.arrRef spec3 0) (((cfg3.win 5).blk t).view.emb y)
  refine congrArg _ ?_
  funext a; apply Fin.ext
  match a with
  | ⟨0, _⟩ => show win3_0.index t (0 : Fin 2) * 2000 + 1 * (y 0).val = win3_5.index t (0 : Fin 2) * 2000 + 1 * (y 0).val; omega
  | ⟨1, _⟩ => show win3_0.index t (1 : Fin 2) * 256 + 1 * (y 1).val = win3_5.index t (1 : Fin 2) * 256 + 1 * (y 1).val; omega

/-- A row vector's one block is the whole row vector (window 1: the means). -/
theorem iblk_row1 (c : Dev nD) (t : Fin cfg3.N) :
    (iblk3 V c 1 t : S1x256.Idx → EReal) = (V c (Pipeline.arrRef spec3 1) : S1x256.Idx → EReal) := by
  obtain ⟨-, -, e0, e1, -⟩ := idx_facts t
  funext y
  show V c (Pipeline.arrRef spec3 1) (((cfg3.win 1).blk t).view.emb y) = V c (Pipeline.arrRef spec3 1) y
  refine congrArg _ ?_
  funext a; apply Fin.ext
  match a with
  | ⟨0, _⟩ => show win3_1.index t (0 : Fin 2) * 1 + 1 * (y 0).val = (y 0).val; omega
  | ⟨1, _⟩ => show win3_1.index t (1 : Fin 2) * 256 + 1 * (y 1).val = (y 1).val; omega

/-- Window 2: the variances. -/
theorem iblk_row2 (c : Dev nD) (t : Fin cfg3.N) :
    (iblk3 V c 2 t : S1x256.Idx → EReal) = (V c (Pipeline.arrRef spec3 2) : S1x256.Idx → EReal) := by
  obtain ⟨-, -, -, -, e0, e1, -⟩ := idx_facts t
  funext y
  show V c (Pipeline.arrRef spec3 2) (((cfg3.win 2).blk t).view.emb y) = V c (Pipeline.arrRef spec3 2) y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Window 3: the scales. -/
theorem iblk_row3 (c : Dev nD) (t : Fin cfg3.N) :
    (iblk3 V c 3 t : S1x256.Idx → EReal) = (V c (Pipeline.arrRef spec3 3) : S1x256.Idx → EReal) := by
  obtain ⟨-, -, -, -, -, -, e0, e1, -⟩ := idx_facts t
  funext y
  show V c (Pipeline.arrRef spec3 3) (((cfg3.win 3).blk t).view.emb y) = V c (Pipeline.arrRef spec3 3) y
  refine congrArg _ ?_
  funext a; apply Fin.ext
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- Window 4: the shifts. -/
theorem iblk_row4 (c : Dev nD) (t : Fin cfg3.N) :
    (iblk3 V c 4 t : S1x256.Idx → EReal) = (V c (Pipeline.arrRef spec3 4) : S1x256.Idx → EReal) := by
  obtain ⟨-, -, -, -, -, -, -, -, e0, e1, -⟩ := idx_facts t
  funext y
  show V c (Pipeline.arrRef spec3 4) (((cfg3.win 4).blk t).view.emb y) = V c (Pipeline.arrRef spec3 4) y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 256 + 1 * (y 1).val = (y 1).val; omega

/-! ## What a point writes back, and the array after the region -/

set_option maxHeartbeats 1000000 in
/-- What point `t` writes back is block `t` of `normArr` of the operand arrays as the region finds them. -/
theorem flushed_eq (c : Dev nD) (t : Fin cfg3.N) :
    (dat3 V c).flushed 5 t = ((cfg3.win 5).blk t).view.read (Elt Ideal)
      (normArr (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S1x256) hz]
  obtain ⟨-, -, -, -, -, -, -, -, -, -, -, e1⟩ := idx_facts t
  funext y
  show k3_pay1 (iblk3 V c 0 t) (iblk3 V c 2 t) (iblk3 V c 1 t) (iblk3 V c 3 t) (iblk3 V c 4 t) y
    = normArr (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb y)
  refine block_apply (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) y (((cfg3.win 5).blk t).view.emb y)
    (iblk_table V c t y) ?_ (iblk_row1 V c t) (iblk_row2 V c t) (iblk_row3 V c t) (iblk_row4 V c t)
  show win3_5.index t (1 : Fin 2) * 256 + 1 * (y 1).val = (y 1).val
  omega

/-- A table index is in point `t`'s block iff each coordinate is in the block's range on its axis. -/
theorem mem_blk (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v56).slice (win3_5.rect t)).set ↔ _
  rw [View.set_slice_whole, Rect.mem_set_unit]
  exact Iff.rfl

/-- Row `r` of the table is in the block of point `r / 2000`, and every point writes its block back. -/
theorem cover (i : S50000x256.Idx) :
    ∃ t : Fin cfg3.N, (cfg3.win 5).flush t = true ∧ i ∈ ((cfg3.win 5).blk t).view.set := by
  have hN : cfg3.N = 25 := N_3
  have h0 : (i 0).val < 50000 := idx2_lt0 i
  have h1 : (i 1).val < 256 := idx2_lt1 i
  have ht : (i 0).val / 2000 < cfg3.N := by rw [hN]; omega
  obtain ⟨-, -, -, -, -, -, -, -, -, -, e0, e1⟩ := idx_facts ⟨(i 0).val / 2000, ht⟩
  have e0' : win3_5.index ⟨(i 0).val / 2000, ht⟩ (0 : Fin 2) = (i 0).val / 2000 := e0
  refine ⟨⟨(i 0).val / 2000, ht⟩, flush3_5 _, ?_⟩
  rw [mem_blk]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    omega

/-- THE ARRAY THE REGION LEAVES: the table `H` normalised column by column with the means `mu`, the variances `v`,
    the scales `g` and the shifts `be` the region finds in its five operand arrays. -/
theorem region3_out (c : Dev nD) (H : S50000x256.Idx → EReal) (mu v g be : S1x256.Idx → EReal)
    (hH : (V c (Pipeline.arrRef spec3 0) : S50000x256.Idx → EReal) = H)
    (hmu : (V c (Pipeline.arrRef spec3 1) : S1x256.Idx → EReal) = mu)
    (hv : (V c (Pipeline.arrRef spec3 2) : S1x256.Idx → EReal) = v)
    (hg : (V c (Pipeline.arrRef spec3 3) : S1x256.Idx → EReal) = g)
    (hbe : (V c (Pipeline.arrRef spec3 4) : S1x256.Idx → EReal) = be) :
    ((dat3 V c).arrAt 5 cfg3.N : S50000x256.Idx → EReal)
      = Cert.Spec.arr2 (Cert.Spec.bn (fun n j => H (ix2 n j)) (fun j => mu (ix2 (0 : Fin 1) j)) (fun j => v (ix2 (0 : Fin 1) j))
          (fun j => g (ix2 (0 : Fin 1) j)) (fun j => be (ix2 (0 : Fin 1) j))) := by
  subst hH hmu hv hg hbe
  exact (dat3 V c).arrAt_eq_of_cover 5
    (normArr (V c (Pipeline.arrRef spec3 0)) (V c (Pipeline.arrRef spec3 1)) (V c (Pipeline.arrRef spec3 2))
      (V c (Pipeline.arrRef spec3 3)) (V c (Pipeline.arrRef spec3 4)))
    (fun t _ => flushed_eq V c t) cover

end Cert.KSide.R3

end
-- ==== Proof.KRegion4.lean ====
/-
  The last region of the kernel program, read as two arrays.

  The region walks the 50000 rows of a 256-column table in 25 blocks of 2000 rows. At every block it has two whole
  256 × 32 matrices and a whole 32-entry row vector, and it writes two blocks of 2000 × 32: the block times the first
  matrix, and the block times the second matrix plus the row vector on every row. The changes of float format on the
  way in are the identity on extended reals, and the products are accumulated from zero. An entry of either result in
  row `b` of the block depends only on row `b` of the table block and on the whole matrices, so every block is the
  restriction of ONE function of the operand arrays; since the 25 row blocks tile the 50000 rows, the arrays the region
  leaves are those functions: the table times each matrix, the second with the row vector added.
-/
import proofs.«129947_j42545946034237_2_alg».proof.Proof.Gen.KernelIdeal.Frame
import proofs.«129947_j42545946034237_2_alg».proof.Proof.Spec
import Idealize.ShloMosaic.PureOps.Ideal.Laws
import Idealize.ShloMosaic.Lib.Pipeline.Value
import Idealize.ShloMosaic.Lib.ValueIdx

noncomputable section

open scoped BigOperators

namespace Cert.KSide.R4

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block -/

/-- The dimension numbers of the body's two products: [2000, 256] · [256, 32] → [2000, 32], the left operand's
    axis 1 contracted with the right operand's axis 0. -/
abbrev dims : DotDims S2000x256 S256x32 S2000x32 := dot_S2000x256_S256x32_S2000x32_1_0_0_1_n_n

/-- The left operand's row coordinate is the result's row. -/
theorem dims_lhs0 (i : S2000x32.Idx) (q : dims.contr.Idx) : (dims.lhsIdx i q (0 : Fin 2)).val = (i 0).val := by
  unfold DotDims.lhsIdx
  rw [dif_neg (show ¬(0 : Fin 2) ∈ dims.lhsBatch from List.not_mem_nil),
    dif_pos (show (0 : Fin 2) ∈ dims.lhsNonContracting from List.mem_singleton.mpr rfl)]
  rfl

/-- The right operand's column coordinate is the result's column. -/
theorem dims_rhs1 (i : S2000x32.Idx) (q : dims.contr.Idx) : (dims.rhsIdx i q (1 : Fin 2)).val = (i 1).val := by
  unfold DotDims.rhsIdx
  rw [dif_neg (show ¬(1 : Fin 2) ∈ dims.rhsBatch from List.not_mem_nil),
    dif_pos (show (1 : Fin 2) ∈ dims.rhsNonContracting from List.mem_singleton.mpr rfl)]
  rfl

/-- The product accumulated from zero, in row `b` and column `j`: the sum over the shared axis of the left operand's
    row `b` times the right operand's column `j`. -/
theorem prod_apply (l : FVec Ideal S2000x256 .bf16) (r : FVec Ideal S256x32 .bf16) (b : Fin 2000) (j : Fin 32) :
    FloatOps.matmul dims none l r (constant (F := Ideal) S2000x32 .f32 0x00000000#32) (ix2 b j)
      = ∑ k : Fin 256, l (ix2 b k) * r (ix2 k j) := by
  refine (Ideal.matmul_constant_zero_apply dims none l r (ix2 b j)).trans ?_
  rw [← Equiv.sum_comp (contrEquiv1 dims 256 rfl rfl).symm]
  refine Finset.sum_congr rfl fun k _ => ?_
  have hk := contrEquiv1_symm_val dims 256 rfl rfl k
  have el : dims.lhsIdx (ix2 b j) ((contrEquiv1 dims 256 rfl rfl).symm k) = ix2 b k :=
    funext fun a => Fin.ext (by
      match a with
      | ⟨0, _⟩ => exact dims_lhs0 _ _
      | ⟨1, _⟩ => exact (dims.lhsIdx_val_of_single rfl _ _).trans hk)
  have er : dims.rhsIdx (ix2 b j) ((contrEquiv1 dims 256 rfl rfl).symm k) = ix2 k j :=
    funext fun a => Fin.ext (by
      match a with
      | ⟨0, _⟩ => exact (dims.rhsIdx_val_of_single rfl _ _).trans hk
      | ⟨1, _⟩ => exact dims_rhs1 _ _)
  rw [el, er]

/-- A row vector broadcast down the 2000 rows of a block reads, in row `b` and column `j`, its entry of column `j`. -/
theorem rowBroadcast_apply (x : Vec Ideal S1x32 .f32) (b : Fin 2000) (j : Fin 32) :
    broadcastTo S2000x32 x broadcasts_S1x32_S2000x32 (ix2 b j) = x (ix2 (0 : Fin 1) j) := by
  refine broadcastTo_apply x broadcasts_S1x32_S2000x32 (ix2 b j) (ix2 (0 : Fin 1) j) (fun a => ?_)
  match a with
  | ⟨0, _⟩ => rfl
  | ⟨1, _⟩ => rfl

/-- The first stored value in row `b`, column `j` of a block: row `b` of the table block times column `j` of the matrix. -/
theorem pay_rel_apply (x0 : Vec Ideal S2000x256 .bf16) (x1 : Vec Ideal S256x32 .f32) (b : Fin 2000) (j : Fin 32) :
    k4_pay2 x0 x1 (ix2 b j) = ∑ k : Fin 256, x0 (ix2 b k) * x1 (ix2 k j) := by
  unfold k4_pay2 k4_pay1
  simp only [shapeCast_self]
  exact prod_apply x0 x1 b j

/-- The second stored value in row `b`, column `j`: row `b` of the table block times column `j` of the matrix, plus
    entry `j` of the row vector. -/
theorem pay_root_apply (x0 : Vec Ideal S2000x256 .bf16) (x2 : Vec Ideal S256x32 .f32) (x3 : Vec Ideal S1x32 .f32)
    (b : Fin 2000) (j : Fin 32) :
    k4_pay3 x0 x2 x3 (ix2 b j) = (∑ k : Fin 256, x0 (ix2 b k) * x2 (ix2 k j)) + x3 (ix2 (0 : Fin 1) j) := by
  unfold k4_pay3 k4_pay1
  simp only [shapeCast_self]
  refine (addf_apply _ _ (ix2 b j)).trans ?_
  refine congrArg₂ (· + ·) (prod_apply x0 x2 b j) ?_
  exact rowBroadcast_apply x3 b j

/-! ## The whole arrays as functions of the operands -/

/-- The table `A` times the matrix `W`, as an array. -/
def relArr (A : S50000x256.Idx → EReal) (W : S256x32.Idx → EReal) : S50000x32.Idx → EReal :=
  Cert.Spec.arr2 (fun n j => ∑ k : Fin 256, A (ix2 n k) * W (ix2 k j))

/-- The table `A` times the matrix `W`, plus the row vector `b` on every row, as an array. -/
def rootArr (A : S50000x256.Idx → EReal) (W : S256x32.Idx → EReal) (b : S1x32.Idx → EReal) : S50000x32.Idx → EReal :=
  Cert.Spec.arr2 (fun n j => (∑ k : Fin 256, A (ix2 n k) * W (ix2 k j)) + b (ix2 (0 : Fin 1) j))

/-- An entry of a first-result block is the entry of `relArr` in table row `n`, as soon as row `b` of the table block
    is row `n` of the table and the block's matrix is the whole matrix. -/
theorem block_rel (A : S50000x256.Idx → EReal) (W : S256x32.Idx → EReal)
    (X0 : Vec Ideal S2000x256 .bf16) (X1 : Vec Ideal S256x32 .f32) (b : Fin 2000) (j : Fin 32) (n : Fin 50000)
    (h0 : ∀ k : Fin 256, X0 (ix2 b k) = A (ix2 n k)) (h1 : X1 = W) :
    k4_pay2 X0 X1 (ix2 b j) = relArr A W (ix2 n j) := by
  subst h1
  refine (pay_rel_apply X0 X1 b j).trans ?_
  show ∑ k : Fin 256, X0 (ix2 b k) * X1 (ix2 k j) = ∑ k : Fin 256, A (ix2 n k) * X1 (ix2 k j)
  exact Finset.sum_congr rfl fun k _ => by rw [h0 k]

/-- The same for the second result, the block's row vector being the whole row vector. -/
theorem block_root (A : S50000x256.Idx → EReal) (W : S256x32.Idx → EReal) (bias : S1x32.Idx → EReal)
    (X0 : Vec Ideal S2000x256 .bf16) (X2 : Vec Ideal S256x32 .f32) (X3 : Vec Ideal S1x32 .f32)
    (b : Fin 2000) (j : Fin 32) (n : Fin 50000)
    (h0 : ∀ k : Fin 256, X0 (ix2 b k) = A (ix2 n k)) (h2 : X2 = W) (h3 : X3 = bias) :
    k4_pay3 X0 X2 X3 (ix2 b j) = rootArr A W bias (ix2 n j) := by
  subst h2 h3
  refine (pay_root_apply X0 X2 X3 b j).trans ?_
  show (∑ k : Fin 256, X0 (ix2 b k) * X2 (ix2 k j)) + X3 (ix2 (0 : Fin 1) j)
    = (∑ k : Fin 256, A (ix2 n k) * X2 (ix2 k j)) + X3 (ix2 (0 : Fin 1) j)
  exact congrArg (· + X3 (ix2 (0 : Fin 1) j)) (Finset.sum_congr rfl fun k _ => by rw [h0 k])

/-! ## Where the blocks sit -/

theorem hz : (![0, 0] : Fin 2 → Nat) = fun _ => 0 := funext fun a => by fin_cases a <;> rfl

/-- The block indices over the 25 grid points: the table's block and both results' blocks are row block `t` in the one
    column block; the two matrices and the row vector stay at their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The table row that row `b` of block `t` is: 2000 t + b. -/
def rowOf (t : Fin cfg4.N) (b : Fin 2000) : Fin 50000 :=
  ⟨t.val * 2000 + b.val, by have := t.isLt; have hN : cfg4.N = 25 := N_4; have := b.isLt; omega⟩

variable (V : (c : Dev nD) → (b : Ref sig .tc) → Buf (Elt Ideal) ((c : Thread nD τ).loc b))

/-- Row `b` of the table's block at point `t` is row `2000 t + b` of the table. -/
theorem iblk_table (c : Dev nD) (t : Fin cfg4.N) (b : Fin 2000) (k : Fin 256) :
    (iblk4 V c 0 t : S2000x256.Idx → EReal) (ix2 b k)
      = (V c (Pipeline.arrRef spec4 0) : S50000x256.Idx → EReal) (ix2 (rowOf t b) k) := by
  obtain ⟨e0, e1, -⟩ := idx_facts t
  show V c (Pipeline.arrRef spec4 0) (((cfg4.win 0).blk t).view.emb (ix2 b k)) = V c (Pipeline.arrRef spec4 0) (ix2 (rowOf t b) k)
  refine congrArg _ ?_
  funext a; apply Fin.ext
  match a with
  | ⟨0, _⟩ => show win4_0.index t (0 : Fin 2) * 2000 + 1 * b.val = t.val * 2000 + b.val; omega
  | ⟨1, _⟩ => show win4_0.index t (1 : Fin 2) * 256 + 1 * k.val = k.val; omega

/-- A matrix's one block is the whole matrix (window 1: the first matrix). -/
theorem iblk_mat1 (c : Dev nD) (t : Fin cfg4.N) :
    (iblk4 V c 1 t : S256x32.Idx → EReal) = (V c (Pipeline.arrRef spec4 1) : S256x32.Idx → EReal) := by
  obtain ⟨-, -, e0, e1, -⟩ := idx_facts t
  funext y
  show V c (Pipeline.arrRef spec4 1) (((cfg4.win 1).blk t).view.emb y) = V c (Pipeline.arrRef spec4 1) y
  refine congrArg _ ?_
  funext a; apply Fin.ext
  match a with
  | ⟨0, _⟩ => show win4_1.index t (0 : Fin 2) * 256 + 1 * (y 0).val = (y 0).val; omega
  | ⟨1, _⟩ => show win4_1.index t (1 : Fin 2) * 32 + 1 * (y 1).val = (y 1).val; omega

/-- Window 2: the second matrix. -/
theorem iblk_mat2 (c : Dev nD) (t : Fin cfg4.N) :
    (iblk4 V c 2 t : S256x32.Idx → EReal) = (V c (Pipeline.arrRef spec4 2) : S256x32.Idx → EReal) := by
  obtain ⟨-, -, -, -, e0, e1, -⟩ := idx_facts t
  funext y
  show V c (Pipeline.arrRef spec4 2) (((cfg4.win 2).blk t).view.emb y) = V c (Pipeline.arrRef spec4 2) y
  refine congrArg _ ?_
  funext a; apply Fin.ext
  match a with
  | ⟨0, _⟩ => show win4_2.index t (0 : Fin 2) * 256 + 1 * (y 0).val = (y 0).val; omega
  | ⟨1, _⟩ => show win4_2.index t (1 : Fin 2) * 32 + 1 * (y 1).val = (y 1).val; omega

/-- Window 3: the row vector. -/
theorem iblk_row3 (c : Dev nD) (t : Fin cfg4.N) :
    (iblk4 V c 3 t : S1x32.Idx → EReal) = (V c (Pipeline.arrRef spec4 3) : S1x32.Idx → EReal) := by
  obtain ⟨-, -, -, -, -, -, e0, e1, -⟩ := idx_facts t
  funext y
  show V c (Pipeline.arrRef spec4 3) (((cfg4.win 3).blk t).view.emb y) = V c (Pipeline.arrRef spec4 3) y
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 32 + 1 * (y 1).val = (y 1).val; omega

/-- Entry (`b`, `j`) of the first result's block at point `t` sits at table row `2000 t + b`, column `j`. -/
theorem emb_rel (t : Fin cfg4.N) (b : Fin 2000) (j : Fin 32) :
    ((cfg4.win 4).blk t).view.emb (ix2 b j) = (ix2 (rowOf t b) j : S50000x32.Idx) := by
  obtain ⟨-, -, -, -, -, -, -, -, e0, e1, -⟩ := idx_facts t
  funext a; apply Fin.ext
  match a with
  | ⟨0, _⟩ => show win4_4.index t (0 : Fin 2) * 2000 + 1 * b.val = t.val * 2000 + b.val; omega
  | ⟨1, _⟩ => show win4_4.index t (1 : Fin 2) * 32 + 1 * j.val = j.val; omega

/-- The same for the second result's block. -/
theorem emb_root (t : Fin cfg4.N) (b : Fin 2000) (j : Fin 32) :
    ((cfg4.win 5).blk t).view.emb (ix2 b j) = (ix2 (rowOf t b) j : S50000x32.Idx) := by
  obtain ⟨-, -, -, -, -, -, -, -, -, -, e0, e1⟩ := idx_facts t
  funext a; apply Fin.ext
  match a with
  | ⟨0, _⟩ => show win4_5.index t (0 : Fin 2) * 2000 + 1 * b.val = t.val * 2000 + b.val; omega
  | ⟨1, _⟩ => show win4_5.index t (1 : Fin 2) * 32 + 1 * j.val = j.val; omega

/-! ## What a point writes back, and the arrays after the region -/

/-- What point `t` writes back into the first result is block `t` of `relArr` of the operand arrays as found. -/
theorem flushed_rel (c : Dev nD) (t : Fin cfg4.N) :
    (dat4 V c).flushed 4 t = ((cfg4.win 4).blk t).view.read (Elt Ideal)
      (relArr (V c (Pipeline.arrRef spec4 0)) (V c (Pipeline.arrRef spec4 1))) := by
  show (cfg4.win 4).cut (grid4.coords t) ((dat4 V c).after 4 t) = _
  rw [after4_4]
  unfold out4_4
  rw [View.canon_unit_zero hz]
  simp only [View.ld_unit_zero (S := S2000x256) hz, View.ld_unit_zero (S := S256x32) hz]
  funext y
  obtain ⟨b, j, rfl⟩ : ∃ (b : Fin 2000) (j : Fin 32), y = ix2 b j := ⟨y 0, y 1, eq_ix2 y⟩
  show k4_pay2 (iblk4 V c 0 t) (iblk4 V c 1 t) (ix2 b j)
    = relArr (V c (Pipeline.arrRef spec4 0)) (V c (Pipeline.arrRef spec4 1)) (((cfg4.win 4).blk t).view.emb (ix2 b j))
  rw [emb_rel t b j]
  exact block_rel (V c (Pipeline.arrRef spec4 0)) (V c (Pipeline.arrRef spec4 1)) (iblk4 V c 0 t) (iblk4 V c 1 t)
    b j (rowOf t b) (fun k => iblk_table V c t b k) (iblk_mat1 V c t)

/-- What point `t` writes back into the second result is block `t` of `rootArr` of the operand arrays as found. -/
theorem flushed_root (c : Dev nD) (t : Fin cfg4.N) :
    (dat4 V c).flushed 5 t = ((cfg4.win 5).blk t).view.read (Elt Ideal)
      (rootArr (V c (Pipeline.arrRef spec4 0)) (V c (Pipeline.arrRef spec4 2)) (V c (Pipeline.arrRef spec4 3))) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x32) hz, View.ld_unit_zero (S := S1x32) hz]
  funext y
  obtain ⟨b, j, rfl⟩ : ∃ (b : Fin 2000) (j : Fin 32), y = ix2 b j := ⟨y 0, y 1, eq_ix2 y⟩
  show k4_pay3 (iblk4 V c 0 t) (iblk4 V c 2 t) (iblk4 V c 3 t) (ix2 b j)
    = rootArr (V c (Pipeline.arrRef spec4 0)) (V c (Pipeline.arrRef spec4 2)) (V c (Pipeline.arrRef spec4 3))
        (((cfg4.win 5).blk t).view.emb (ix2 b j))
  rw [emb_root t b j]
  exact block_root (V c (Pipeline.arrRef spec4 0)) (V c (Pipeline.arrRef spec4 2)) (V c (Pipeline.arrRef spec4 3))
    (iblk4 V c 0 t) (iblk4 V c 2 t) (iblk4 V c 3 t)
    b j (rowOf t b) (fun k => iblk_table V c t b k) (iblk_mat2 V c t) (iblk_row3 V c t)

/-- An index of the first result is in point `t`'s block iff each coordinate is in the block's range on its axis. -/
theorem mem_blk_rel (t : Fin cfg4.N) (i : S50000x32.Idx) :
    i ∈ ((cfg4.win 4).blk t).view.set ↔ ∀ a : Fin 2, win4_4.index t a * S2000x32.size a ≤ (i a).val
      ∧ (i a).val < win4_4.index t a * S2000x32.size a + S2000x32.size a := by
  show i ∈ ((View.whole main_v60_0).slice (win4_4.rect t)).set ↔ _
  rw [View.set_slice_whole, Rect.mem_set_unit]
  exact Iff.rfl

/-- The same for the second result. -/
theorem mem_blk_root (t : Fin cfg4.N) (i : S50000x32.Idx) :
    i ∈ ((cfg4.win 5).blk t).view.set ↔ ∀ a : Fin 2, win4_5.index t a * S2000x32.size a ≤ (i a).val
      ∧ (i a).val < win4_5.index t a * S2000x32.size a + S2000x32.size a := by
  show i ∈ ((View.whole main_v60_1).slice (win4_5.rect t)).set ↔ _
  rw [View.set_slice_whole, Rect.mem_set_unit]
  exact Iff.rfl

/-- Row `r` of the first result is in the block of point `r / 2000`, and every point writes its block back. -/
theorem cover_rel (i : S50000x32.Idx) :
    ∃ t : Fin cfg4.N, (cfg4.win 4).flush t = true ∧ i ∈ ((cfg4.win 4).blk t).view.set := by
  have hN : cfg4.N = 25 := N_4
  have h0 : (i 0).val < 50000 := idx2_lt0 i
  have h1 : (i 1).val < 32 := idx2_lt1 i
  have ht : (i 0).val / 2000 < cfg4.N := by rw [hN]; omega
  obtain ⟨-, -, -, -, -, -, -, -, e0, e1, -⟩ := idx_facts ⟨(i 0).val / 2000, ht⟩
  have e0' : win4_4.index ⟨(i 0).val / 2000, ht⟩ (0 : Fin 2) = (i 0).val / 2000 := e0
  refine ⟨⟨(i 0).val / 2000, ht⟩, flush4_4 _, ?_⟩
  rw [mem_blk_rel]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    omega
  | ⟨1, _⟩ =>
    show win4_4.index ⟨(i 0).val / 2000, ht⟩ (1 : Fin 2) * 32 ≤ (i 1).val
      ∧ (i 1).val < win4_4.index ⟨(i 0).val / 2000, ht⟩ (1 : Fin 2) * 32 + 32
    omega

/-- The same for the second result. -/
theorem cover_root (i : S50000x32.Idx) :
    ∃ t : Fin cfg4.N, (cfg4.win 5).flush t = true ∧ i ∈ ((cfg4.win 5).blk t).view.set := by
  have hN : cfg4.N = 25 := N_4
  have h0 : (i 0).val < 50000 := idx2_lt0 i
  have h1 : (i 1).val < 32 := idx2_lt1 i
  have ht : (i 0).val / 2000 < cfg4.N := by rw [hN]; omega
  obtain ⟨-, -, -, -, -, -, -, -, -, -, e0, e1⟩ := idx_facts ⟨(i 0).val / 2000, ht⟩
  have e0' : win4_5.index ⟨(i 0).val / 2000, ht⟩ (0 : Fin 2) = (i 0).val / 2000 := e0
  refine ⟨⟨(i 0).val / 2000, ht⟩, flush4_5 _, ?_⟩
  rw [mem_blk_root]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    omega
  | ⟨1, _⟩ =>
    show win4_5.index ⟨(i 0).val / 2000, ht⟩ (1 : Fin 2) * 32 ≤ (i 1).val
      ∧ (i 1).val < win4_5.index ⟨(i 0).val / 2000, ht⟩ (1 : Fin 2) * 32 + 32
    omega

/-- THE FIRST ARRAY THE REGION LEAVES: the table `A` times the matrix `WrelT` the region finds in its operand arrays. -/
theorem region4_rel (c : Dev nD) (A : S50000x256.Idx → EReal) (WrelT : S256x32.Idx → EReal)
    (hA : (V c (Pipeline.arrRef spec4 0) : S50000x256.Idx → EReal) = A)
    (hWrel : (V c (Pipeline.arrRef spec4 1) : S256x32.Idx → EReal) = WrelT) :
    ((dat4 V c).arrAt 4 cfg4.N : S50000x32.Idx → EReal)
      = Cert.Spec.arr2 (fun n j => ∑ k : Fin 256, A (ix2 n k) * WrelT (ix2 k j)) := by
  subst hA hWrel
  exact (dat4 V c).arrAt_eq_of_cover 4
    (relArr (V c (Pipeline.arrRef spec4 0)) (V c (Pipeline.arrRef spec4 1)))
    (fun t _ => flushed_rel V c t) cover_rel

/-- THE SECOND ARRAY THE REGION LEAVES: the table `A` times the matrix `WrootT`, plus the row vector `b` on every row. -/
theorem region4_root (c : Dev nD) (A : S50000x256.Idx → EReal) (WrootT : S256x32.Idx → EReal) (b : S1x32.Idx → EReal)
    (hA : (V c (Pipeline.arrRef spec4 0) : S50000x256.Idx → EReal) = A)
    (hWroot : (V c (Pipeline.arrRef spec4 2) : S256x32.Idx → EReal) = WrootT)
    (hb : (V c (Pipeline.arrRef spec4 3) : S1x32.Idx → EReal) = b) :
    ((dat4 V c).arrAt 5 cfg4.N : S50000x32.Idx → EReal)
      = Cert.Spec.arr2 (fun n j => (∑ k : Fin 256, A (ix2 n k) * WrootT (ix2 k j)) + b (ix2 (0 : Fin 1) j)) := by
  subst hA hWroot hb
  exact (dat4 V c).arrAt_eq_of_cover 5
    (rootArr (V c (Pipeline.arrRef spec4 0)) (V c (Pipeline.arrRef spec4 2)) (V c (Pipeline.arrRef spec4 3)))
    (fun t _ => flushed_root V c t) cover_root

end Cert.KSide.R4

end
-- ==== Proof.KStretch.lean ====
/-
  The idealized kernel's later stretches of host operations, read entry by entry.

  Between the regions the host divides each column's sum and sum of squares by the number of nodes (giving the
  column's mean, and the mean of the squares less the squared mean), reshapes the scale and the shift to rows,
  aggregates a table along the edges (gather at the sources, scale by the edge weight, accumulate at the
  destinations: `Spec.agg`), transposes the next layer's two matrices and makes its bias a row; after the last
  region it aggregates the 32-wide product and adds the second product to it. Every fact here is stated over
  the buffers as the stretch finds them.
-/
import proofs.«129947_j42545946034237_2_alg».proof.Proof.KStage0
import proofs.«129947_j42545946034237_2_alg».proof.Proof.LibStage
import proofs.«129947_j42545946034237_2_alg».proof.Proof.RefOps
import Idealize.ShloMosaic.Lib.StableHlo.Run

noncomputable section

namespace Cert.KSide

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## The stretch after region 0: layer 1's column statistics, scale and shift -/

set_option maxHeartbeats 4000000 in
set_option maxRecDepth 8192 in
/-- The column's sum over the number of nodes. -/
theorem W3_v22 (j : Fin 128) : (W3 m ρ c (Proc.devRef .tc main_v22) : S1x128.Idx → EReal) (ix2 (0 : Fin 1) j)
    = Ideal.div ((W2 m ρ c (Proc.devRef .tc main_v20_1) : S1x128.Idx → EReal) (ix2 (0 : Fin 1) j)) Spec.cN := by
  have e : W3 m ρ c (Proc.devRef .tc main_v22) = (Host.divf (F := Ideal) (φ := .f32) (W2 m ρ c (Proc.devRef .tc main_v20_1)) (broadcastInDim S1x128 ![] bcast_S_S1x128 (constant (F := Ideal) S_ .f32 0x47435000#32))) := by
    after_results_simp <;> rfl
  rw [e, RefSide.hostDivf_apply, RefSide.bcastScalar_apply, constant_apply]

set_option maxHeartbeats 4000000 in
set_option maxRecDepth 8192 in
/-- The column's sum of squares over the number of nodes, less the square of its sum over the number of nodes. -/
theorem W3_v26 (j : Fin 128) : (W3 m ρ c (Proc.devRef .tc main_v26) : S1x128.Idx → EReal) (ix2 (0 : Fin 1) j)
    = Ideal.div ((W2 m ρ c (Proc.devRef .tc main_v20_2) : S1x128.Idx → EReal) (ix2 (0 : Fin 1) j)) Spec.cN
      - Ideal.div ((W2 m ρ c (Proc.devRef .tc main_v20_1) : S1x128.Idx → EReal) (ix2 (0 : Fin 1) j)) Spec.cN
        * Ideal.div ((W2 m ρ c (Proc.devRef .tc main_v20_1) : S1x128.Idx → EReal) (ix2 (0 : Fin 1) j)) Spec.cN := by
  have e : W3 m ρ c (Proc.devRef .tc main_v26) = subf (Host.divf (F := Ideal) (φ := .f32) (W2 m ρ c (Proc.devRef .tc main_v20_2)) (broadcastInDim S1x128 ![] bcast_S_S1x128 (constant (F := Ideal) S_ .f32 0x47435000#32))) (mulf (Host.divf (F := Ideal) (φ := .f32) (W2 m ρ c (Proc.devRef .tc main_v20_1)) (broadcastInDim S1x128 ![] bcast_S_S1x128 (constant (F := Ideal) S_ .f32 0x47435000#32))) (Host.divf (F := Ideal) (φ := .f32) (W2 m ρ c (Proc.devRef .tc main_v20_1)) (broadcastInDim S1x128 ![] bcast_S_S1x128 (constant (F := Ideal) S_ .f32 0x47435000#32)))) := by
    after_results_simp <;> rfl
  rw [e, subf_apply, mulf_apply, RefSide.hostDivf_apply, RefSide.hostDivf_apply, RefSide.bcastScalar_apply,
    constant_apply]

set_option maxHeartbeats 4000000 in
set_option maxRecDepth 8192 in
/-- The scale as a row. -/
theorem W3_v27 (j : Fin 128) : (W3 m ρ c (Proc.devRef .tc main_v27) : S1x128.Idx → EReal) (ix2 (0 : Fin 1) j)
    = (W2 m ρ c (Proc.devRef .tc main_arg12) : S128.Idx → EReal) (ix1 j) := by
  have e : W3 m ρ c (Proc.devRef .tc main_v27)
      = shapeCast S1x128 (W2 m ρ c (Proc.devRef .tc main_arg12)) shapeCasts_S128_S1x128 := by
    after_results_simp <;> rfl
  rw [e]; exact Stage.row_of_vec _ _ j

set_option maxHeartbeats 4000000 in
set_option maxRecDepth 8192 in
/-- The shift as a row. -/
theorem W3_v28 (j : Fin 128) : (W3 m ρ c (Proc.devRef .tc main_v28) : S1x128.Idx → EReal) (ix2 (0 : Fin 1) j)
    = (W2 m ρ c (Proc.devRef .tc main_arg13) : S128.Idx → EReal) (ix1 j) := by
  have e : W3 m ρ c (Proc.devRef .tc main_v28)
      = shapeCast S1x128 (W2 m ρ c (Proc.devRef .tc main_arg13)) shapeCasts_S128_S1x128 := by
    after_results_simp <;> rfl
  rw [e]; exact Stage.row_of_vec _ _ j

/-! ## The stretch after region 1: layer 1's output aggregated along the edges, layer 2's matrices and bias -/

set_option maxHeartbeats 4000000 in
set_option maxRecDepth 8192 in
/-- The aggregated table as the operations' term. -/
theorem W5_v43_term : W5 m ρ c (Proc.devRef .tc main_v43)
    = Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 (W4 m ρ c (Proc.devRef .tc main_v3)))
        (mulf (extf (F := Ideal) (φ := .bf16) .f32 (Host.gather gather_S50000x128_S800000x1_S800000x128_1_0_n_n_0_1_1128 (W4 m ρ c (Proc.devRef .tc main_v29)) (broadcastInDim S800000x1 ![0] bcast_S800000_S800000x1_0 (select (cmpi .slt (W4 m ρ c (Proc.devRef .tc main_v1)) (broadcastInDim S800000 ![] bcast_S_S800000 (constantI S_ 32 0#32))) (addi (W4 m ρ c (Proc.devRef .tc main_v1)) (broadcastInDim S800000 ![] bcast_S_S800000 (constantI S_ 32 50000#32))) (W4 m ρ c (Proc.devRef .tc main_v1))))) bitsLt_bf16_f32)
          (broadcastInDim S800000x128 ![0, 1] bcast_S800000x1_S800000x128_0_1
            (broadcastInDim S800000x1 ![0] bcast_S800000_S800000x1_0 (W4 m ρ c (Proc.devRef .tc main_arg2))))) := by
  after_results_simp <;> rfl

/-- The aggregated table is `Spec.agg` of the table region 1 wrote, once the source words, the destination
    words and the edge weights are known to be still those of the first stretch and of the launch. -/
theorem W5_v43 (hs : W4 m ρ c (Proc.devRef .tc main_v1) = srcW m ρ c) (hd : W4 m ρ c (Proc.devRef .tc main_v3) = dstW m ρ c)
    (hw : W4 m ρ c (Proc.devRef .tc main_arg2) = m ((c : Thread nD τ).loc main_arg2)) :
    (W5 m ρ c (Proc.devRef .tc main_v43) : S50000x128.Idx → EReal)
      = Spec.arr2 (Spec.agg (scol m ρ c) (dcol m ρ c) (wE m c)
          (tab2 (W4 m ρ c (Proc.devRef .tc main_v29) : S50000x128.Idx → EReal))) := by
  refine Spec.eq_arr2 _ _ fun n k => ?_
  rw [W5_v43_term, hs, hd, hw]
  exact Stage.agg_apply _ scatter_S50000x128_S800000x1_S800000x128_1_0_0_1.wf rfl (scol m ρ c) (dcol m ρ c) _ _ _ _ (wE m c)
    (fun i => Stage.zero_table _ i)
    (fun e k => (extf_apply (φ := .bf16) (ψ := .f32) _ bitsLt_bf16_f32 (ix2 e k)).trans
      (Stage.gather_row (φ := .bf16) _ gather_S50000x128_S800000x1_S800000x128_1_0_n_n_0_1_1128.wf rfl
        (W4 m ρ c (Proc.devRef .tc main_v29)) (scol m ρ c) e k))
    (fun e k => Stage.bcast_edge _ _ _ e k) n k

set_option maxHeartbeats 4000000 in
set_option maxRecDepth 8192 in
/-- Layer 2's first matrix, transposed. -/
theorem W5_v44 (k : Fin 128) (j : Fin 256) : (W5 m ρ c (Proc.devRef .tc main_v44) : S128x256.Idx → EReal) (ix2 k j)
    = (W4 m ρ c (Proc.devRef .tc main_arg6) : S256x128.Idx → EReal) (ix2 j k) := by
  have e : W5 m ρ c (Proc.devRef .tc main_v44)
      = transpose S128x256 [1, 0] (W4 m ρ c (Proc.devRef .tc main_arg6)) transposes_S256x128_S128x256_1_0 := by
    after_results_simp <;> rfl
  rw [e]; exact Stage.transpose2_apply _ _ k j

set_option maxHeartbeats 4000000 in
set_option maxRecDepth 8192 in
/-- Layer 2's second matrix, transposed. -/
theorem W5_v45 (k : Fin 128) (j : Fin 256) : (W5 m ρ c (Proc.devRef .tc main_v45) : S128x256.Idx → EReal) (ix2 k j)
    = (W4 m ρ c (Proc.devRef .tc main_arg8) : S256x128.Idx → EReal) (ix2 j k) := by
  have e : W5 m ρ c (Proc.devRef .tc main_v45)
      = transpose S128x256 [1, 0] (W4 m ρ c (Proc.devRef .tc main_arg8)) transposes_S256x128_S128x256_1_0 := by
    after_results_simp <;> rfl
  rw [e]; exact Stage.transpose2_apply _ _ k j

set_option maxHeartbeats 4000000 in
set_option maxRecDepth 8192 in
/-- Layer 2's bias as a row. -/
theorem W5_v46 (j : Fin 256) : (W5 m ρ c (Proc.devRef .tc main_v46) : S1x256.Idx → EReal) (ix2 (0 : Fin 1) j)
    = (W4 m ρ c (Proc.devRef .tc main_arg7) : S256.Idx → EReal) (ix1 j) := by
  have e : W5 m ρ c (Proc.devRef .tc main_v46)
      = shapeCast S1x256 (W4 m ρ c (Proc.devRef .tc main_arg7)) shapeCasts_S256_S1x256 := by
    after_results_simp <;> rfl
  rw [e]; exact Stage.row_of_vec _ _ j

/-! ## The stretch after region 2: layer 2's column statistics, scale and shift -/

set_option maxHeartbeats 4000000 in
set_option maxRecDepth 8192 in
/-- The column's sum over the number of nodes. -/
theorem W7_v49 (j : Fin 256) : (W7 m ρ c (Proc.devRef .tc main_v49) : S1x256.Idx → EReal) (ix2 (0 : Fin 1) j)
    = Ideal.div ((W6 m ρ c (Proc.devRef .tc main_v47_1) : S1x256.Idx → EReal) (ix2 (0 : Fin 1) j)) Spec.cN := by
  have e : W7 m ρ c (Proc.devRef .tc main_v49) = (Host.divf (F := Ideal) (φ := .f32) (W6 m ρ c (Proc.devRef .tc main_v47_1)) (broadcastInDim S1x256 ![] bcast_S_S1x256 (constant (F := Ideal) S_ .f32 0x47435000#32))) := by
    after_results_simp <;> rfl
  rw [e, RefSide.hostDivf_apply, RefSide.bcastScalar_apply, constant_apply]

set_option maxHeartbeats 4000000 in
set_option maxRecDepth 8192 in
/-- The column's sum of squares over the number of nodes, less the square of its sum over the number of nodes. -/
theorem W7_v53 (j : Fin 256) : (W7 m ρ c (Proc.devRef .tc main_v53) : S1x256.Idx → EReal) (ix2 (0 : Fin 1) j)
    = Ideal.div ((W6 m ρ c (Proc.devRef .tc main_v47_2) : S1x256.Idx → EReal) (ix2 (0 : Fin 1) j)) Spec.cN
      - Ideal.div ((W6 m ρ c (Proc.devRef .tc main_v47_1) : S1x256.Idx → EReal) (ix2 (0 : Fin 1) j)) Spec.cN
        * Ideal.div ((W6 m ρ c (Proc.devRef .tc main_v47_1) : S1x256.Idx → EReal) (ix2 (0 : Fin 1) j)) Spec.cN := by
  have e : W7 m ρ c (Proc.devRef .tc main_v53) = subf (Host.divf (F := Ideal) (φ := .f32) (W6 m ρ c (Proc.devRef .tc main_v47_2)) (broadcastInDim S1x256 ![] bcast_S_S1x256 (constant (F := Ideal) S_ .f32 0x47435000#32))) (mulf (Host.divf (F := Ideal) (φ := .f32) (W6 m ρ c (Proc.devRef .tc main_v47_1)) (broadcastInDim S1x256 ![] bcast_S_S1x256 (constant (F := Ideal) S_ .f32 0x47435000#32))) (Host.divf (F := Ideal) (φ := .f32) (W6 m ρ c (Proc.devRef .tc main_v47_1)) (broadcastInDim S1x256 ![] bcast_S_S1x256 (constant (F := Ideal) S_ .f32 0x47435000#32)))) := by
    after_results_simp <;> rfl
  rw [e, subf_apply, mulf_apply, RefSide.hostDivf_apply, RefSide.hostDivf_apply, RefSide.bcastScalar_apply,
    constant_apply]

set_option maxHeartbeats 4000000 in
set_option maxRecDepth 8192 in
/-- The scale as a row. -/
theorem W7_v54 (j : Fin 256) : (W7 m ρ c (Proc.devRef .tc main_v54) : S1x256.Idx → EReal) (ix2 (0 : Fin 1) j)
    = (W6 m ρ c (Proc.devRef .tc main_arg14) : S256.Idx → EReal) (ix1 j) := by
  have e : W7 m ρ c (Proc.devRef .tc main_v54)
      = shapeCast S1x256 (W6 m ρ c (Proc.devRef .tc main_arg14)) shapeCasts_S256_S1x256 := by
    after_results_simp <;> rfl
  rw [e]; exact Stage.row_of_vec _ _ j

set_option maxHeartbeats 4000000 in
set_option maxRecDepth 8192 in
/-- The shift as a row. -/
theorem W7_v55 (j : Fin 256) : (W7 m ρ c (Proc.devRef .tc main_v55) : S1x256.Idx → EReal) (ix2 (0 : Fin 1) j)
    = (W6 m ρ c (Proc.devRef .tc main_arg15) : S256.Idx → EReal) (ix1 j) := by
  have e : W7 m ρ c (Proc.devRef .tc main_v55)
      = shapeCast S1x256 (W6 m ρ c (Proc.devRef .tc main_arg15)) shapeCasts_S256_S1x256 := by
    after_results_simp <;> rfl
  rw [e]; exact Stage.row_of_vec _ _ j

/-! ## The stretch after region 3: layer 3's matrices and bias -/

set_option maxHeartbeats 4000000 in
set_option maxRecDepth 8192 in
/-- Layer 3's first matrix, transposed. -/
theorem W9_v57 (k : Fin 256) (j : Fin 32) : (W9 m ρ c (Proc.devRef .tc main_v57) : S256x32.Idx → EReal) (ix2 k j)
    = (W8 m ρ c (Proc.devRef .tc main_arg9) : S32x256.Idx → EReal) (ix2 j k) := by
  have e : W9 m ρ c (Proc.devRef .tc main_v57)
      = transpose S256x32 [1, 0] (W8 m ρ c (Proc.devRef .tc main_arg9)) transposes_S32x256_S256x32_1_0 := by
    after_results_simp <;> rfl
  rw [e]; exact Stage.transpose2_apply _ _ k j

set_option maxHeartbeats 4000000 in
set_option maxRecDepth 8192 in
/-- Layer 3's second matrix, transposed. -/
theorem W9_v58 (k : Fin 256) (j : Fin 32) : (W9 m ρ c (Proc.devRef .tc main_v58) : S256x32.Idx → EReal) (ix2 k j)
    = (W8 m ρ c (Proc.devRef .tc main_arg11) : S32x256.Idx → EReal) (ix2 j k) := by
  have e : W9 m ρ c (Proc.devRef .tc main_v58)
      = transpose S256x32 [1, 0] (W8 m ρ c (Proc.devRef .tc main_arg11)) transposes_S32x256_S256x32_1_0 := by
    after_results_simp <;> rfl
  rw [e]; exact Stage.transpose2_apply _ _ k j

set_option maxHeartbeats 4000000 in
set_option maxRecDepth 8192 in
/-- Layer 3's bias as a row. -/
theorem W9_v59 (j : Fin 32) : (W9 m ρ c (Proc.devRef .tc main_v59) : S1x32.Idx → EReal) (ix2 (0 : Fin 1) j)
    = (W8 m ρ c (Proc.devRef .tc main_arg10) : S32.Idx → EReal) (ix1 j) := by
  have e : W9 m ρ c (Proc.devRef .tc main_v59)
      = shapeCast S1x32 (W8 m ρ c (Proc.devRef .tc main_arg10)) shapeCasts_S32_S1x32 := by
    after_results_simp <;> rfl
  rw [e]; exact Stage.row_of_vec _ _ j

/-! ## The last stretch: the first 32-wide product aggregated along the edges, plus the second -/

set_option maxHeartbeats 4000000 in
set_option maxRecDepth 8192 in
/-- The result as the operations' term. -/
theorem W11_v74_term : W11 m ρ c (Proc.devRef .tc main_v74)
    = addf (F := Ideal) (φ := .f32) (Host.scatterAdd (F := Ideal) (φ := .f32) scatter_S50000x32_S800000x1_S800000x32_1_0_0_1
        (broadcastInDim S50000x32 ![] bcast_S_S50000x32 (constant (F := Ideal) S_ .f32 0x00000000#32))
        (broadcastInDim S800000x1 ![0] bcast_S800000_S800000x1_0 (W10 m ρ c (Proc.devRef .tc main_v3)))
        (mulf (Host.gather gather_S50000x32_S800000x1_S800000x32_1_0_n_n_0_1_132 (W10 m ρ c (Proc.devRef .tc main_v60_0)) (broadcastInDim S800000x1 ![0] bcast_S800000_S800000x1_0 (select (cmpi .slt (W10 m ρ c (Proc.devRef .tc main_v1)) (broadcastInDim S800000 ![] bcast_S_S800000 (constantI S_ 32 0#32))) (addi (W10 m ρ c (Proc.devRef .tc main_v1)) (broadcastInDim S800000 ![] bcast_S_S800000 (constantI S_ 32 50000#32))) (W10 m ρ c (Proc.devRef .tc main_v1)))))
          (broadcastInDim S800000x32 ![0, 1] bcast_S800000x1_S800000x32_0_1
            (broadcastInDim S800000x1 ![0] bcast_S800000_S800000x1_0 (W10 m ρ c (Proc.devRef .tc main_arg2))))))
        (W10 m ρ c (Proc.devRef .tc main_v60_1)) := by
  after_results_simp <;> rfl

/-- The result is `Spec.agg` of the first product region 4 wrote plus the second, entry by entry, once the
    source words, the destination words and the edge weights are known to be still those of the first stretch
    and of the launch. -/
theorem W11_v74 (hs : W10 m ρ c (Proc.devRef .tc main_v1) = srcW m ρ c) (hd : W10 m ρ c (Proc.devRef .tc main_v3) = dstW m ρ c)
    (hw : W10 m ρ c (Proc.devRef .tc main_arg2) = m ((c : Thread nD τ).loc main_arg2)) :
    (W11 m ρ c (Proc.devRef .tc main_v74) : S50000x32.Idx → EReal)
      = Spec.arr2 (fun n j => Spec.agg (scol m ρ c) (dcol m ρ c) (wE m c)
            (tab2 (W10 m ρ c (Proc.devRef .tc main_v60_0) : S50000x32.Idx → EReal)) n j
          + (W10 m ρ c (Proc.devRef .tc main_v60_1) : S50000x32.Idx → EReal) (ix2 n j)) := by
  refine Spec.eq_arr2 _ _ fun n k => ?_
  rw [W11_v74_term, hs, hd, hw, addf_apply]
  refine congrArg (· + (W10 m ρ c (Proc.devRef .tc main_v60_1) : S50000x32.Idx → EReal) (ix2 n k)) ?_
  exact Stage.agg_apply _ scatter_S50000x32_S800000x1_S800000x32_1_0_0_1.wf rfl (scol m ρ c) (dcol m ρ c) _ _ _ _ (wE m c)
    (fun i => Stage.zero_table _ i)
    (fun e k => Stage.gather_row _ gather_S50000x32_S800000x1_S800000x32_1_0_n_n_0_1_132.wf rfl _ _ e k)
    (fun e k => Stage.bcast_edge _ _ _ e k) n k

end Cert.KSide

end
-- ==== Proof.KLayers.lean ====
/-
  The idealized kernel's result, read back through its five regions and the host operations between them.

  Each region's output arrays are functions of the arrays the region is entered with; each stretch of host
  operations computes the next region's operands from the previous region's outputs and the arguments. Following
  the buffers from the launch to the return: the first region leaves layer 1 before normalisation with its column
  sums and sums of squares; the host turns those into the column means and variances (the mean of squares minus
  the squared mean); the second region normalises; the third and fourth regions do the same for layer 2 over the
  aggregate of layer 1; the fifth region applies the two matrices of the last layer to layer 2; the last stretch
  aggregates the first product and adds the second. The result is `Spec.kerOut` of the arguments.
-/
import proofs.«129947_j42545946034237_2_alg».proof.Proof.KStage0
import proofs.«129947_j42545946034237_2_alg».proof.Proof.KWalk
import proofs.«129947_j42545946034237_2_alg».proof.Proof.KRegion0
import proofs.«129947_j42545946034237_2_alg».proof.Proof.KRegion1
import proofs.«129947_j42545946034237_2_alg».proof.Proof.KRegion2c
import proofs.«129947_j42545946034237_2_alg».proof.Proof.KRegion3
import proofs.«129947_j42545946034237_2_alg».proof.Proof.KRegion4
import proofs.«129947_j42545946034237_2_alg».proof.Proof.KStretch

noncomputable section

open scoped BigOperators

namespace Cert.KSide

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- An array built from its entries, read back as entries. -/
theorem tab2_arr2 {a b : Nat} (f : Fin a → Fin b → EReal) : tab2 (Spec.arr2 f) = f := rfl

/-! ## The edge words -/

set_option maxHeartbeats 4000000 in
set_option maxRecDepth 8192 in
/-- The source words are the first row of the edge list. -/
theorem srcW_eq : srcW m ρ c = shapeCast S800000 (extractStridedSlice S1x800000 ![0, 0]
    (m ((c : Thread nD τ).loc main_arg1) : IVec S2x800000 32) slices_S2x800000_S1x800000_0_0) shapeCasts_S1x800000_S800000 := by
  show W1 m ρ c (Proc.devRef .tc main_v1) = _
  after_results_simp <;> rfl

set_option maxHeartbeats 4000000 in
set_option maxRecDepth 8192 in
/-- The destination words are the second row of the edge list. -/
theorem dstW_eq : dstW m ρ c = shapeCast S800000 (extractStridedSlice S1x800000 ![1, 0]
    (m ((c : Thread nD τ).loc main_arg1) : IVec S2x800000 32) slices_S2x800000_S1x800000_1_0) shapeCasts_S1x800000_S800000 := by
  show W1 m ρ c (Proc.devRef .tc main_v3) = _
  after_results_simp <;> rfl

end Cert.KSide

namespace Cert.KSide

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## Layer 1 -/

/-- The first layer's two weight matrices, bias, scale and shift. -/
abbrev W1rel : Fin 128 → Fin 64 → EReal := tab2 (m ((c : Thread nD τ).loc main_arg3) : S128x64.Idx → EReal)
abbrev W1root : Fin 128 → Fin 64 → EReal := tab2 (m ((c : Thread nD τ).loc main_arg5) : S128x64.Idx → EReal)
abbrev b1 : Fin 128 → EReal := vec1 (m ((c : Thread nD τ).loc main_arg4) : S128.Idx → EReal)
abbrev g1 : Fin 128 → EReal := vec1 (m ((c : Thread nD τ).loc main_arg12) : S128.Idx → EReal)
abbrev be1 : Fin 128 → EReal := vec1 (m ((c : Thread nD τ).loc main_arg13) : S128.Idx → EReal)

/-- Layer 1 before normalisation. -/
abbrev H1 : Fin 50000 → Fin 128 → EReal :=
  Spec.h1 (scol m ρ c) (dcol m ρ c) (wE m c) (xT m c) (W1rel m c) (W1root m c) (b1 m c)
/-- Layer 1 normalised, the variance spelt as the mean of squares minus the squared mean. -/
abbrev A1 : Fin 50000 → Fin 128 → EReal :=
  Spec.a1' (scol m ρ c) (dcol m ρ c) (wE m c) (xT m c) (W1rel m c) (W1root m c) (b1 m c) (g1 m c) (be1 m c)

section Region0
/-- The entries region 0 finds in its five input arrays. -/
theorem r0_A (n : Fin 50000) (k : Fin 64) : (V1 m ρ c (Pipeline.arrRef spec0 0) : S50000x64.Idx → EReal) (ix2 n k)
    = Spec.agg (scol m ρ c) (dcol m ρ c) (wE m c) (xT m c) n k := by
  show (W1 m ρ c (Proc.devRef .tc main_v16) : S50000x64.Idx → EReal) (ix2 n k) = _
  rw [W1_v16]; rfl
theorem r0_X (n : Fin 50000) (k : Fin 64) : (V1 m ρ c (Pipeline.arrRef spec0 1) : S50000x64.Idx → EReal) (ix2 n k) = xT m c n k := by
  show (W1 m ρ c (Proc.devRef .tc main_arg0) : S50000x64.Idx → EReal) (ix2 n k) = _
  rw [Walk.W1_arg0]
theorem r0_Wrel (j : Fin 128) (k : Fin 64) : (V1 m ρ c (Pipeline.arrRef spec0 2) : S64x128.Idx → EReal) (ix2 k j) = W1rel m c j k :=
  W1_v17 m ρ c k j
theorem r0_Wroot (j : Fin 128) (k : Fin 64) : (V1 m ρ c (Pipeline.arrRef spec0 3) : S64x128.Idx → EReal) (ix2 k j) = W1root m c j k :=
  W1_v18 m ρ c k j
theorem r0_b (j : Fin 128) : (V1 m ρ c (Pipeline.arrRef spec0 4) : S1x128.Idx → EReal) (ix2 (0 : Fin 1) j) = b1 m c j :=
  W1_v19 m ρ c j
end Region0

/-- Region 0 leaves layer 1 before normalisation, and its column sums and column sums of squares. -/
theorem W2_v20_0 : (W2 m ρ c (Proc.devRef .tc main_v20_0) : S50000x128.Idx → EReal) = Spec.arr2 (H1 m ρ c) :=
  (W2_arr m ρ c 5).trans (R0.region0_h (V1 m ρ) c _ _ _ _ _ (r0_A m ρ c) (r0_X m ρ c) (r0_Wrel m ρ c) (r0_Wroot m ρ c) (r0_b m ρ c))
theorem W2_v20_1 : (W2 m ρ c (Proc.devRef .tc main_v20_1) : S1x128.Idx → EReal)
    = Spec.arr2 (fun (_ : Fin 1) j => ∑ n : Fin 50000, H1 m ρ c n j) :=
  (W2_arr m ρ c 6).trans (R0.region0_s (V1 m ρ) c _ _ _ _ _ (r0_A m ρ c) (r0_X m ρ c) (r0_Wrel m ρ c) (r0_Wroot m ρ c) (r0_b m ρ c))
theorem W2_v20_2 : (W2 m ρ c (Proc.devRef .tc main_v20_2) : S1x128.Idx → EReal)
    = Spec.arr2 (fun (_ : Fin 1) j => ∑ n : Fin 50000, H1 m ρ c n j * H1 m ρ c n j) :=
  (W2_arr m ρ c 7).trans (R0.region0_ss (V1 m ρ) c _ _ _ _ _ (r0_A m ρ c) (r0_X m ρ c) (r0_Wrel m ρ c) (r0_Wroot m ρ c) (r0_b m ρ c))

section Region1
/-- The entries region 1 finds: layer 1, its column means and variances, the scale and the shift. -/
theorem r1_H : (V3 m ρ c (Pipeline.arrRef spec1 0) : S50000x128.Idx → EReal) = Spec.arr2 (H1 m ρ c) := by
  show (W3 m ρ c (Proc.devRef .tc main_v20_0) : S50000x128.Idx → EReal) = _
  rw [Walk.W3_v20_0, W2_v20_0]
theorem r1_mu (j : Fin 128) : (V3 m ρ c (Pipeline.arrRef spec1 1) : S1x128.Idx → EReal) (ix2 (0 : Fin 1) j) = Spec.mean (H1 m ρ c) j := by
  show (W3 m ρ c (Proc.devRef .tc main_v22) : S1x128.Idx → EReal) (ix2 (0 : Fin 1) j) = _
  rw [W3_v22, W2_v20_1]; rfl
theorem r1_v (j : Fin 128) : (V3 m ρ c (Pipeline.arrRef spec1 2) : S1x128.Idx → EReal) (ix2 (0 : Fin 1) j) = Spec.var' (H1 m ρ c) j := by
  show (W3 m ρ c (Proc.devRef .tc main_v26) : S1x128.Idx → EReal) (ix2 (0 : Fin 1) j) = _
  rw [W3_v26, W2_v20_1, W2_v20_2]; rfl
theorem r1_g (j : Fin 128) : (V3 m ρ c (Pipeline.arrRef spec1 3) : S1x128.Idx → EReal) (ix2 (0 : Fin 1) j) = g1 m c j := by
  show (W3 m ρ c (Proc.devRef .tc main_v27) : S1x128.Idx → EReal) (ix2 (0 : Fin 1) j) = _
  rw [W3_v27, Walk.W2_arg12]
theorem r1_be (j : Fin 128) : (V3 m ρ c (Pipeline.arrRef spec1 4) : S1x128.Idx → EReal) (ix2 (0 : Fin 1) j) = be1 m c j := by
  show (W3 m ρ c (Proc.devRef .tc main_v28) : S1x128.Idx → EReal) (ix2 (0 : Fin 1) j) = _
  rw [W3_v28, Walk.W2_arg13]
end Region1

/-- Region 1 leaves layer 1 normalised. -/
theorem W4_v29 : (W4 m ρ c (Proc.devRef .tc main_v29) : S50000x128.Idx → EReal) = Spec.arr2 (A1 m ρ c) := by
  refine (W4_arr m ρ c 5).trans ((R1.region1_out (V3 m ρ) c _ _ _ _ _ rfl rfl rfl rfl rfl).trans ?_)
  refine congrArg Spec.arr2 ?_
  funext n j
  unfold Spec.bn
  rw [r1_H]
  beta_reduce
  rw [r1_mu, r1_v, r1_g, r1_be]
  rfl

/-! ## Layer 2 -/

abbrev W2rel : Fin 256 → Fin 128 → EReal := tab2 (m ((c : Thread nD τ).loc main_arg6) : S256x128.Idx → EReal)
abbrev W2root : Fin 256 → Fin 128 → EReal := tab2 (m ((c : Thread nD τ).loc main_arg8) : S256x128.Idx → EReal)
abbrev b2 : Fin 256 → EReal := vec1 (m ((c : Thread nD τ).loc main_arg7) : S256.Idx → EReal)
abbrev g2 : Fin 256 → EReal := vec1 (m ((c : Thread nD τ).loc main_arg14) : S256.Idx → EReal)
abbrev be2 : Fin 256 → EReal := vec1 (m ((c : Thread nD τ).loc main_arg15) : S256.Idx → EReal)

/-- Layer 2 before normalisation, over the kernel's layer 1. -/
abbrev H2 : Fin 50000 → Fin 256 → EReal :=
  Spec.h2 (scol m ρ c) (dcol m ρ c) (wE m c) (W2rel m c) (W2root m c) (b2 m c) (A1 m ρ c)
/-- Layer 2 normalised. -/
abbrev A2 : Fin 50000 → Fin 256 → EReal :=
  Spec.a2' (scol m ρ c) (dcol m ρ c) (wE m c) (W2rel m c) (W2root m c) (b2 m c) (g2 m c) (be2 m c) (A1 m ρ c)

section Region2
theorem r2_A (n : Fin 50000) (k : Fin 128) : (V5 m ρ c (Pipeline.arrRef spec2 0) : S50000x128.Idx → EReal) (ix2 n k)
    = Spec.agg (scol m ρ c) (dcol m ρ c) (wE m c) (A1 m ρ c) n k := by
  show (W5 m ρ c (Proc.devRef .tc main_v43) : S50000x128.Idx → EReal) (ix2 n k) = _
  rw [W5_v43 m ρ c (Walk.W4_v1 m ρ c) (Walk.W4_v3 m ρ c) (Walk.W4_arg2 m ρ c), W4_v29, Spec.arr2_ix2,
    tab2_arr2 (A1 m ρ c)]
theorem r2_X (n : Fin 50000) (k : Fin 128) : (V5 m ρ c (Pipeline.arrRef spec2 1) : S50000x128.Idx → EReal) (ix2 n k) = A1 m ρ c n k := by
  show (W5 m ρ c (Proc.devRef .tc main_v29) : S50000x128.Idx → EReal) (ix2 n k) = _
  rw [Walk.W5_v29, W4_v29, Spec.arr2_ix2]
theorem r2_Wrel (j : Fin 256) (k : Fin 128) : (V5 m ρ c (Pipeline.arrRef spec2 2) : S128x256.Idx → EReal) (ix2 k j) = W2rel m c j k := by
  show (W5 m ρ c (Proc.devRef .tc main_v44) : S128x256.Idx → EReal) (ix2 k j) = _
  rw [W5_v44, Walk.W4_arg6]
theorem r2_Wroot (j : Fin 256) (k : Fin 128) : (V5 m ρ c (Pipeline.arrRef spec2 3) : S128x256.Idx → EReal) (ix2 k j) = W2root m c j k := by
  show (W5 m ρ c (Proc.devRef .tc main_v45) : S128x256.Idx → EReal) (ix2 k j) = _
  rw [W5_v45, Walk.W4_arg8]
theorem r2_b (j : Fin 256) : (V5 m ρ c (Pipeline.arrRef spec2 4) : S1x256.Idx → EReal) (ix2 (0 : Fin 1) j) = b2 m c j := by
  show (W5 m ρ c (Proc.devRef .tc main_v46) : S1x256.Idx → EReal) (ix2 (0 : Fin 1) j) = _
  rw [W5_v46, Walk.W4_arg7]
end Region2

theorem W6_v47_0 : (W6 m ρ c (Proc.devRef .tc main_v47_0) : S50000x256.Idx → EReal) = Spec.arr2 (H2 m ρ c) :=
  (W6_arr m ρ c 5).trans (R2.region2_h (V5 m ρ) c _ _ _ _ _ (r2_A m ρ c) (r2_X m ρ c) (r2_Wrel m ρ c) (r2_Wroot m ρ c) (r2_b m ρ c))
theorem W6_v47_1 : (W6 m ρ c (Proc.devRef .tc main_v47_1) : S1x256.Idx → EReal)
    = Spec.arr2 (fun (_ : Fin 1) j => ∑ n : Fin 50000, H2 m ρ c n j) :=
  (W6_arr m ρ c 6).trans (R2.region2_s (V5 m ρ) c _ _ _ _ _ (r2_A m ρ c) (r2_X m ρ c) (r2_Wrel m ρ c) (r2_Wroot m ρ c) (r2_b m ρ c))
theorem W6_v47_2 : (W6 m ρ c (Proc.devRef .tc main_v47_2) : S1x256.Idx → EReal)
    = Spec.arr2 (fun (_ : Fin 1) j => ∑ n : Fin 50000, H2 m ρ c n j * H2 m ρ c n j) :=
  (W6_arr m ρ c 7).trans (R2.region2_ss (V5 m ρ) c _ _ _ _ _ (r2_A m ρ c) (r2_X m ρ c) (r2_Wrel m ρ c) (r2_Wroot m ρ c) (r2_b m ρ c))

section Region3
theorem r3_H : (V7 m ρ c (Pipeline.arrRef spec3 0) : S50000x256.Idx → EReal) = Spec.arr2 (H2 m ρ c) := by
  show (W7 m ρ c (Proc.devRef .tc main_v47_0) : S50000x256.Idx → EReal) = _
  rw [Walk.W7_v47_0, W6_v47_0]
theorem r3_mu (j : Fin 256) : (V7 m ρ c (Pipeline.arrRef spec3 1) : S1x256.Idx → EReal) (ix2 (0 : Fin 1) j) = Spec.mean (H2 m ρ c) j := by
  show (W7 m ρ c (Proc.devRef .tc main_v49) : S1x256.Idx → EReal) (ix2 (0 : Fin 1) j) = _
  rw [W7_v49, W6_v47_1]; rfl
theorem r3_v (j : Fin 256) : (V7 m ρ c (Pipeline.arrRef spec3 2) : S1x256.Idx → EReal) (ix2 (0 : Fin 1) j) = Spec.var' (H2 m ρ c) j := by
  show (W7 m ρ c (Proc.devRef .tc main_v53) : S1x256.Idx → EReal) (ix2 (0 : Fin 1) j) = _
  rw [W7_v53, W6_v47_1, W6_v47_2]; rfl
theorem r3_g (j : Fin 256) : (V7 m ρ c (Pipeline.arrRef spec3 3) : S1x256.Idx → EReal) (ix2 (0 : Fin 1) j) = g2 m c j := by
  show (W7 m ρ c (Proc.devRef .tc main_v54) : S1x256.Idx → EReal) (ix2 (0 : Fin 1) j) = _
  rw [W7_v54, Walk.W6_arg14]
theorem r3_be (j : Fin 256) : (V7 m ρ c (Pipeline.arrRef spec3 4) : S1x256.Idx → EReal) (ix2 (0 : Fin 1) j) = be2 m c j := by
  show (W7 m ρ c (Proc.devRef .tc main_v55) : S1x256.Idx → EReal) (ix2 (0 : Fin 1) j) = _
  rw [W7_v55, Walk.W6_arg15]
end Region3

/-- Region 3 leaves layer 2 normalised. -/
theorem W8_v56 : (W8 m ρ c (Proc.devRef .tc main_v56) : S50000x256.Idx → EReal) = Spec.arr2 (A2 m ρ c) := by
  refine (W8_arr m ρ c 5).trans ((R3.region3_out (V7 m ρ) c _ _ _ _ _ rfl rfl rfl rfl rfl).trans ?_)
  refine congrArg Spec.arr2 ?_
  funext n j
  unfold Spec.bn
  rw [r3_H]
  beta_reduce
  rw [r3_mu, r3_v, r3_g, r3_be]
  rfl

/-! ## Layer 3 -/

abbrev W3rel : Fin 32 → Fin 256 → EReal := tab2 (m ((c : Thread nD τ).loc main_arg9) : S32x256.Idx → EReal)
abbrev W3root : Fin 32 → Fin 256 → EReal := tab2 (m ((c : Thread nD τ).loc main_arg11) : S32x256.Idx → EReal)
abbrev b3 : Fin 32 → EReal := vec1 (m ((c : Thread nD τ).loc main_arg10) : S32.Idx → EReal)

section Region4
theorem r4_A : (V9 m ρ c (Pipeline.arrRef spec4 0) : S50000x256.Idx → EReal) = Spec.arr2 (A2 m ρ c) := by
  show (W9 m ρ c (Proc.devRef .tc main_v56) : S50000x256.Idx → EReal) = _
  rw [Walk.W9_v56, W8_v56]
theorem r4_Wrel (k : Fin 256) (j : Fin 32) : (V9 m ρ c (Pipeline.arrRef spec4 1) : S256x32.Idx → EReal) (ix2 k j) = W3rel m c j k := by
  show (W9 m ρ c (Proc.devRef .tc main_v57) : S256x32.Idx → EReal) (ix2 k j) = _
  rw [W9_v57, Walk.W8_arg9]
theorem r4_Wroot (k : Fin 256) (j : Fin 32) : (V9 m ρ c (Pipeline.arrRef spec4 2) : S256x32.Idx → EReal) (ix2 k j) = W3root m c j k := by
  show (W9 m ρ c (Proc.devRef .tc main_v58) : S256x32.Idx → EReal) (ix2 k j) = _
  rw [W9_v58, Walk.W8_arg11]
theorem r4_b (j : Fin 32) : (V9 m ρ c (Pipeline.arrRef spec4 3) : S1x32.Idx → EReal) (ix2 (0 : Fin 1) j) = b3 m c j := by
  show (W9 m ρ c (Proc.devRef .tc main_v59) : S1x32.Idx → EReal) (ix2 (0 : Fin 1) j) = _
  rw [W9_v59, Walk.W8_arg10]
end Region4

/-- Region 4 leaves the normalised layer 2 through the first matrix of the last layer … -/
theorem W10_v60_0 : (W10 m ρ c (Proc.devRef .tc main_v60_0) : S50000x32.Idx → EReal)
    = Spec.arr2 (fun n j => ∑ k : Fin 256, A2 m ρ c n k * W3rel m c j k) := by
  refine (W10_arr m ρ c 4).trans ((R4.region4_rel (V9 m ρ) c _ _ rfl rfl).trans ?_)
  refine congrArg Spec.arr2 ?_
  funext n j
  refine Finset.sum_congr rfl fun k _ => ?_
  rw [r4_A, r4_Wrel, Spec.arr2_ix2]
/-- … and through the second matrix, plus the bias. -/
theorem W10_v60_1 : (W10 m ρ c (Proc.devRef .tc main_v60_1) : S50000x32.Idx → EReal)
    = Spec.arr2 (fun n j => (∑ k : Fin 256, A2 m ρ c n k * W3root m c j k) + b3 m c j) := by
  refine (W10_arr m ρ c 5).trans ((R4.region4_root (V9 m ρ) c _ _ _ rfl rfl rfl).trans ?_)
  refine congrArg Spec.arr2 ?_
  funext n j
  rw [r4_b]
  refine congrArg (· + b3 m c j) ?_
  refine Finset.sum_congr rfl fun k _ => ?_
  rw [r4_A, r4_Wroot, Spec.arr2_ix2]

/-- The kernel's result: the last stretch aggregates the projected table and adds the root term. -/
theorem result_eq : (W11 m ρ c (Proc.devRef .tc main_v74) : S50000x32.Idx → EReal)
    = Spec.arr2 (Spec.kerOut (scol m ρ c) (dcol m ρ c) (wE m c) (xT m c) (W1rel m c) (W1root m c) (b1 m c) (g1 m c) (be1 m c)
        (W2rel m c) (W2root m c) (b2 m c) (g2 m c) (be2 m c) (W3rel m c) (W3root m c) (b3 m c)) := by
  rw [W11_v74 m ρ c (Walk.W10_v1 m ρ c) (Walk.W10_v3 m ρ c) (Walk.W10_arg2 m ρ c)]
  refine congrArg Spec.arr2 ?_
  funext n j
  rw [W10_v60_0, W10_v60_1]
  rfl

end Cert.KSide

end
-- ==== Proof.lean ====
/-
  Three graph-convolution layers with batch normalisation and tanh between them: the tiled kernel against the
  plain reference, at the extended reals.

  The kernel's result is `Spec.kerOut` of the arguments (KLayers: the five regions and the host operations between
  them, read back from the run of KRun), the reference's is `Spec.refOut` (RefValue). The two differ in two places.
  The kernel takes a column's variance as the mean of its squares minus its squared mean, the reference as the
  mean of the squared deviations; these agree for a column of real numbers. The kernel applies the last layer's
  matrix before aggregating over the edges, the reference after; aggregation is a finite sum with real weights, so
  the two orders agree for real tables. Every table met on the way is real because every float argument is
  (PreFinite, from the precondition) and sums, products and tanh of reals are real (Algebra).
  The idealization rewrote no operation, and the three frames are the programs' generated runs.
-/
import proofs.«129947_j42545946034237_2_alg».proof.Defs
import proofs.«129947_j42545946034237_2_alg».proof.Proof.Gen.Kernel
import proofs.«129947_j42545946034237_2_alg».proof.Proof.Gen.Kernel.Skeleton
import proofs.«129947_j42545946034237_2_alg».proof.Proof.Gen.Kernel.Launch
import proofs.«129947_j42545946034237_2_alg».proof.Proof.Gen.Kernel.Points
import proofs.«129947_j42545946034237_2_alg».proof.Proof.Gen.Kernel.Frame
import proofs.«129947_j42545946034237_2_alg».proof.Proof.Gen.KernelIdeal
import proofs.«129947_j42545946034237_2_alg».proof.Proof.Gen.KernelIdeal.Skeleton
import proofs.«129947_j42545946034237_2_alg».proof.Proof.Gen.KernelIdeal.Launch
import proofs.«129947_j42545946034237_2_alg».proof.Proof.Gen.KernelIdeal.Points
import proofs.«129947_j42545946034237_2_alg».proof.Proof.Gen.KernelIdeal.Frame
import proofs.«129947_j42545946034237_2_alg».proof.Proof.Gen.ReferenceIdeal
import proofs.«129947_j42545946034237_2_alg».proof.Proof.Gen.ReferenceIdeal.Run
import proofs.«129947_j42545946034237_2_alg».proof.Proof.Gen.Pre_finite_inputs
import proofs.«129947_j42545946034237_2_alg».proof.Proof.Spec
import proofs.«129947_j42545946034237_2_alg».proof.Proof.Algebra
import proofs.«129947_j42545946034237_2_alg».proof.Proof.PreFinite
import proofs.«129947_j42545946034237_2_alg».proof.Proof.RefValue
import proofs.«129947_j42545946034237_2_alg».proof.Proof.KRun
import proofs.«129947_j42545946034237_2_alg».proof.Proof.KLayers
import Idealize.ShloMosaic.Adequacy
import Idealize.ShloMosaic.Init

noncomputable section

namespace Cert.Proof

open Idealize.ShloMosaic Idealize.ShloMosaic.TcCoe Idealize.SL.Sem Idealize.ShloMosaic.ValueIdx

/-- The three programs run to the end without a fault and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two index columns are one term of the edge list on both sides. -/
theorem scol_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.RefSide.scol (m ((c.tc : Thread Cert.KernelIdeal.nD Cert.KernelIdeal.τ).loc Cert.KernelIdeal.main_arg1)) = Cert.KSide.scol m ρ c := by
  unfold Cert.RefSide.scol Cert.KSide.scol
  rw [Cert.KSide.srcW_eq]
theorem dcol_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.RefSide.dcol (m ((c.tc : Thread Cert.KernelIdeal.nD Cert.KernelIdeal.τ).loc Cert.KernelIdeal.main_arg1)) = Cert.KSide.dcol m ρ c := by
  unfold Cert.RefSide.dcol Cert.KSide.dcol
  rw [Cert.KSide.dstW_eq]

/-- At the extended reals, from memories that agree on the arguments, the kernel's result array and the
    reference's are the same function of the arguments: the kernel's is `Spec.kerOut`, the reference's
    `Spec.refOut`, and the two agree when every float argument is finite. -/
theorem algebraic : Cert.algebraic_KernelIdeal_ReferenceIdeal := by
  intro m ρ m' ρ' hpre hagree
  refine ⟨fun c => Spec.arr2 (Spec.kerOut (Cert.KSide.scol m ρ c) (Cert.KSide.dcol m ρ c) (Cert.KSide.wE m c) (Cert.KSide.xT m c)
      (Cert.KSide.W1rel m c) (Cert.KSide.W1root m c) (Cert.KSide.b1 m c) (Cert.KSide.g1 m c) (Cert.KSide.be1 m c)
      (Cert.KSide.W2rel m c) (Cert.KSide.W2root m c) (Cert.KSide.b2 m c) (Cert.KSide.g2 m c) (Cert.KSide.be2 m c)
      (Cert.KSide.W3rel m c) (Cert.KSide.W3root m c) (Cert.KSide.b3 m c)), ?_, ?_⟩
  · exact (θ_run Cert.KernelIdeal.defs _ _).mono
      (fun r h c => ⟨(h c).1.trans (Cert.KSide.result_eq m ρ c), (h c).2⟩) (Cert.KSide.run_named m ρ)
  · refine (θ_run Cert.ReferenceIdeal.defs _ _).mono (fun r h c => ⟨(h c).1.trans ?_, (h c).2⟩) (Cert.RefSide.run_spec m' ρ')
    obtain ⟨h0, h1, h2, h3, h4, h5, h6, h7, h8, h9, h10, h11, h12, h13, h14, h15⟩ := hagree c
    rw [h0, h1, h2, h3, h4, h5, h6, h7, h8, h9, h10, h11, h12, h13, h14, h15, scol_eq m ρ c, dcol_eq m ρ c]
    exact (congrArg Spec.arr2 (Spec.kerOut_eq_refOut _ _ _ _ _ _ _ _ _ _ _ _ _ _ _ _ _
      (fun e => Cert.PreFinite.fin_arg2_at m hpre c e) (fun n k => Cert.PreFinite.fin_arg0_at m hpre c n k)
      (fun j k => Cert.PreFinite.fin_arg3_at m hpre c j k) (fun j k => Cert.PreFinite.fin_arg5_at m hpre c j k)
      (fun j => Cert.PreFinite.fin_arg4_at m hpre c j)
      (fun j k => Cert.PreFinite.fin_arg6_at m hpre c j k) (fun j k => Cert.PreFinite.fin_arg8_at m hpre c j k)
      (fun j => Cert.PreFinite.fin_arg7_at m hpre c j)
      (fun j k => Cert.PreFinite.fin_arg9_at m hpre c j k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
